-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000 : Shape := ⟨1, ![50000]⟩
abbrev S2000000 : Shape := ⟨1, ![2000000]⟩
abbrev S95 : Shape := ⟨1, ![95]⟩
abbrev S95x95x5x5 : Shape := ⟨4, ![95, 95, 5, 5]⟩
abbrev S95x5 : Shape := ⟨2, ![95, 5]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S95 : S_.BroadcastsInDim S95 (![] : Fin 0 → Fin S95.rank)
  reducesTo_S95_S_d0 : S95.ReducesTo [0] S_
  bcast_S_S95x95x5x5 : S_.BroadcastsInDim S95x95x5x5 (![] : Fin 0 → Fin S95x95x5x5.rank)
  reducesTo_S95x95x5x5_S_d0_1_2_3 : S95x95x5x5.ReducesTo [0, 1, 2, 3] S_
  bcast_S_S95x5 : S_.BroadcastsInDim S95x5 (![] : Fin 0 → Fin S95x5.rank)
  reducesTo_S95x5_S_d0_1 : S95x5.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg2 : IVec S2000000 32) (main_arg7 : FVec F S95x5 .f32) (main_v13 : IVec S_ 1) (main_v16 : IVec S95x95x5x5 1) : IVec S_ 1 :=
  let main_c_5 : IVec S_ 1 := constantI S_ 1 1#1
  let main_v17 : IVec S_ 1 := (fun x v => Host.reduce IntOp.andi x v reducesTo_S95x95x5x5_S_d0_1_2_3 h_S_) main_v16 main_c_5
  let main_v18 : IVec S_ 1 := andi main_v13 main_v17
  let main_v19 : FVec F S95x5 .f32 := Host.absf main_arg7
  let main_cst_6 : FVec F S_ .f32 := constant S_ .f32 0x7F800000#32
  let main_v20 : FVec F S95x5 .f32 := broadcastInDim S95x5 ![] bcast_S_S95x5 main_cst_6
  let main_v21 : IVec S95x5 1 := cmpf .olt main_v19 main_v20
  let main_c_7 : IVec S_ 1 := constantI S_ 1 1#1
  let main_v22 : IVec S_ 1 := (fun x v => Host.reduce IntOp.andi x v reducesTo_S95x5_S_d0_1 h_S_) main_v21 main_c_7
  let main_v23 : IVec S_ 1 := andi main_v18 main_v22
  let main_c_8 : IVec S_ 32 := constantI S_ 32 0#32
  let main_v24 : IVec S2000000 32 := broadcastInDim S2000000 ![] bcast_S_S2000000 main_c_8
  let main_v25 : IVec S2000000 1 := cmpi .sge main_arg2 main_v24
  let main_c_9 : IVec S_ 32 := constantI S_ 32 50000#32
  let main_v26 : IVec S2000000 32 := broadcastInDim S2000000 ![] bcast_S_S2000000 main_c_9
  let main_v27 : IVec S2000000 1 := cmpi .slt main_arg2 main_v26
  let main_v28 : IVec S2000000 1 := andi main_v25 main_v27
  let main_c_10 : IVec S_ 1 := constantI S_ 1 1#1
  let main_v29 : IVec S_ 1 := (fun x v => Host.reduce IntOp.andi x v reducesTo_S2000000_S_d0 h_S_) main_v28 main_c_10
  let main_v30 : IVec S_ 1 := andi main_v23 main_v29
  main_v30

def fn {F : FTy → Type} [FloatOps F] (main_arg0 : FVec F S50000x3 .f32) (main_arg1 : IVec S50000 32) (main_arg2 : IVec S2000000 32) (main_arg3 : IVec S2000000 32) (main_arg4 : FVec F S95 .f32) (main_arg5 : FVec F S95 .f32) (main_arg6 : FVec F S95x95x5x5 .f32) (main_arg7 : FVec F S95x5 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S95 .f32 := Host.absf main_arg4
  let main_cst_0 : FVec F S_ .f32 := constant S_ .f32 0x7F800000#32
  let main_v5 : FVec F S95 .f32 := broadcastInDim S95 ![] bcast_S_S95 main_cst_0
  let main_v6 : IVec S95 1 := cmpf .olt main_v4 main_v5
  let main_c_1 : IVec S_ 1 := constantI S_ 1 1#1
  let main_v7 : IVec S_ 1 := (fun x v => Host.reduce IntOp.andi x v reducesTo_S95_S_d0 h_S_) main_v6 main_c_1
  let main_v8 : IVec S_ 1 := andi main_v3 main_v7
  let main_v9 : FVec F S95 .f32 := Host.absf main_arg5
  let main_cst_2 : FVec F S_ .f32 := constant S_ .f32 0x7F800000#32
  let main_v10 : FVec F S95 .f32 := broadcastInDim S95 ![] bcast_S_S95 main_cst_2
  let main_v11 : IVec S95 1 := cmpf .olt main_v9 main_v10
  let main_c_3 : IVec S_ 1 := constantI S_ 1 1#1
  let main_v12 : IVec S_ 1 := (fun x v => Host.reduce IntOp.andi x v reducesTo_S95_S_d0 h_S_) main_v11 main_c_3
  let main_v13 : IVec S_ 1 := andi main_v8 main_v12
  let main_v14 : FVec F S95x95x5x5 .f32 := Host.absf main_arg6
  let main_cst_4 : FVec F S_ .f32 := constant S_ .f32 0x7F800000#32
  let main_v15 : FVec F S95x95x5x5 .f32 := broadcastInDim S95x95x5x5 ![] bcast_S_S95x95x5x5 main_cst_4
  let main_v16 : IVec S95x95x5x5 1 := cmpf .olt main_v14 main_v15
  fn_part1 (F := F) main_arg2 main_arg7 main_v13 main_v16
-- ==== Kernel.lean ====
abbrev S50000x3 : Shape := ⟨2, ![50000, 3]⟩
abbrev S50000 : Shape := ⟨1, ![50000]⟩
abbrev S2000000 : Shape := ⟨1, ![2000000]⟩
abbrev S95 : Shape := ⟨1, ![95]⟩
abbrev S95x95x5x5 : Shape := ⟨4, ![95, 95, 5, 5]⟩
abbrev S95x5 : Shape := ⟨2, ![95, 5]⟩
abbrev S_ : Shape := ⟨0, ![]⟩
abbrev S31616 : Shape := ⟨1, ![31616]⟩
abbrev S2031616 : Shape := ⟨1, ![2031616]⟩
abbrev S1x2031616 : Shape := ⟨2, ![1, 2031616]⟩
abbrev S2031616x1 : Shape := ⟨2, ![2031616, 1]⟩
abbrev S3x50000 : Shape := ⟨2, ![3, 50000]⟩
abbrev S3x2031616 : Shape := ⟨2, ![3, 2031616]⟩
abbrev S3x32768 : Shape := ⟨2, ![3, 32768]⟩
abbrev S1x32768 : Shape := ⟨2, ![1, 32768]⟩
abbrev S5x95 : Shape := ⟨2, ![5, 95]⟩
abbrev S5x2031616 : Shape := ⟨2, ![5, 2031616]⟩
abbrev S5x5x95x95 : Shape := ⟨4, ![5, 5, 95, 95]⟩
abbrev S2031616x2 : Shape := ⟨2, ![2031616, 2]⟩
abbrev S5x5x2031616 : Shape := ⟨3, ![5, 5, 2031616]⟩
abbrev S1x1 : Shape := ⟨2, ![1, 1]⟩
abbrev S5x32768 : Shape := ⟨2, ![5, 32768]⟩
abbrev S5x5x32768 : Shape := ⟨3, ![5, 5, 32768]⟩
abbrev S1x1x32768 : Shape := ⟨3, ![1, 1, 32768]⟩
abbrev S1 : Shape := ⟨1, ![1]⟩

abbrev nBuf : Space → Nat
  | .hbm => 166
  | .vmem => 31
  | .smem => 0
  | _ => 0

abbrev hbmTy0_0 (i : Nat) : BufTy := match i % 128 with
  | 0 => ⟨S50000x3, .f32⟩
  | 1 => ⟨S50000, .i32⟩
  | 2 => ⟨S2000000, .i32⟩
  | 3 => ⟨S2000000, .i32⟩
  | 4 => ⟨S95, .f32⟩
  | 5 => ⟨S95, .f32⟩
  | 6 => ⟨S95x95x5x5, .f32⟩
  | 7 => ⟨S95x5, .f32⟩
  | 8 => ⟨S_, .i32⟩
  | 9 => ⟨S31616, .i32⟩
  | 10 => ⟨S2031616, .i32⟩
  | 11 => ⟨S_, .i32⟩
  | 12 => ⟨S31616, .i32⟩
  | 13 => ⟨S2031616, .i32⟩
  | 14 => ⟨S_, .f32⟩
  | 15 => ⟨S2000000, .f32⟩
  | 16 => ⟨S_, .f32⟩
  | 17 => ⟨S31616, .f32⟩
  | 18 => ⟨S2031616, .f32⟩
  | 19 => ⟨S1x2031616, .f32⟩
  | 20 => ⟨S_, .i32⟩
  | 21 => ⟨S2031616, .i32⟩
  | 22 => ⟨S2031616, .i1⟩
  | 23 => ⟨S_, .i32⟩
  | 24 => ⟨S2031616, .i32⟩
  | 25 => ⟨S2031616, .i32⟩
  | 26 => ⟨S2031616, .i32⟩
  | 27 => ⟨S2031616x1, .i32⟩
  | 28 => ⟨S2031616, .i32⟩
  | 29 => ⟨S_, .i32⟩
  | 30 => ⟨S2031616, .i32⟩
  | 31 => ⟨S2031616, .i1⟩
  | 32 => ⟨S_, .i32⟩
  | 33 => ⟨S2031616, .i32⟩
  | 34 => ⟨S2031616, .i32⟩
  | 35 => ⟨S2031616, .i32⟩
  | 36 => ⟨S2031616x1, .i32⟩
  | 37 => ⟨S2031616, .i32⟩
  | 38 => ⟨S3x50000, .f32⟩
  | 39 => ⟨S_, .i32⟩
  | 40 => ⟨S2031616, .i32⟩
  | 41 => ⟨S2031616, .i1⟩
  | 42 => ⟨S_, .i32⟩
  | 43 => ⟨S2031616, .i32⟩
  | 44 => ⟨S2031616, .i32⟩
  | 45 => ⟨S2031616, .i32⟩
  | 46 => ⟨S2031616x1, .i32⟩
  | 47 => ⟨S3x2031616, .f32⟩
  | 48 => ⟨S_, .i32⟩
  | 49 => ⟨S2031616, .i32⟩
  | 50 => ⟨S2031616, .i1⟩
  | 51 => ⟨S_, .i32⟩
  | 52 => ⟨S2031616, .i32⟩
  | 53 => ⟨S2031616, .i32⟩
  | 54 => ⟨S2031616, .i32⟩
  | 55 => ⟨S2031616x1, .i32⟩
  | 56 => ⟨S3x2031616, .f32⟩
  | 57 => ⟨S_, .i32⟩
  | 58 => ⟨S2031616, .i32⟩
  | 59 => ⟨S2031616, .i1⟩
  | 60 => ⟨S_, .i32⟩
  | 61 => ⟨S2031616, .i32⟩
  | 62 => ⟨S2031616, .i32⟩
  | 63 => ⟨S2031616, .i32⟩
  | 64 => ⟨S2031616x1, .i32⟩
  | 65 => ⟨S2031616, .f32⟩
  | 66 => ⟨S_, .i32⟩
  | 67 => ⟨S2031616, .i32⟩
  | 68 => ⟨S2031616, .i1⟩
  | 69 => ⟨S_, .i32⟩
  | 70 => ⟨S2031616, .i32⟩
  | 71 => ⟨S2031616, .i32⟩
  | 72 => ⟨S2031616, .i32⟩
  | 73 => ⟨S2031616x1, .i32⟩
  | 74 => ⟨S2031616, .f32⟩
  | 75 => ⟨S2031616, .f32⟩
  | 76 => ⟨S1x2031616, .f32⟩
  | 77 => ⟨S1x2031616, .f32⟩
  | 78 => ⟨S1x2031616, .f32⟩
  | 79 => ⟨S2031616, .f32⟩
  | 80 => ⟨S_, .f32⟩
  | 81 => ⟨S50000, .f32⟩
  | 82 => ⟨S2031616x1, .i32⟩
  | 83 => ⟨S50000, .f32⟩
  | 84 => ⟨S_, .i32⟩
  | 85 => ⟨S2031616, .i32⟩
  | 86 => ⟨S2031616, .i1⟩
  | 87 => ⟨S_, .i32⟩
  | 88 => ⟨S2031616, .i32⟩
  | 89 => ⟨S2031616, .i32⟩
  | 90 => ⟨S2031616, .i32⟩
  | 91 => ⟨S2031616x1, .i32⟩
  | 92 => ⟨S2031616, .f32⟩
  | 93 => ⟨S1x2031616, .f32⟩
  | 94 => ⟨S_, .i32⟩
  | 95 => ⟨S2031616, .i32⟩
  | 96 => ⟨S2031616, .i1⟩
  | 97 => ⟨S_, .i32⟩
  | 98 => ⟨S2031616, .i32⟩
  | 99 => ⟨S2031616, .i32⟩
  | 100 => ⟨S2031616, .i32⟩
  | 101 => ⟨S2031616x1, .i32⟩
  | 102 => ⟨S2031616, .f32⟩
  | 103 => ⟨S1x2031616, .f32⟩
  | 104 => ⟨S5x95, .f32⟩
  | 105 => ⟨S_, .i32⟩
  | 106 => ⟨S2031616, .i32⟩
  | 107 => ⟨S2031616, .i1⟩
  | 108 => ⟨S_, .i32⟩
  | 109 => ⟨S2031616, .i32⟩
  | 110 => ⟨S2031616, .i32⟩
  | 111 => ⟨S2031616, .i32⟩
  | 112 => ⟨S2031616x1, .i32⟩
  | 113 => ⟨S5x2031616, .f32⟩
  | 114 => ⟨S_, .i32⟩
  | 115 => ⟨S2031616, .i32⟩
  | 116 => ⟨S2031616, .i1⟩
  | 117 => ⟨S_, .i32⟩
  | 118 => ⟨S2031616, .i32⟩
  | 119 => ⟨S2031616, .i32⟩
  | 120 => ⟨S2031616, .i32⟩
  | 121 => ⟨S2031616x1, .i32⟩
  | 122 => ⟨S5x2031616, .f32⟩
  | 123 => ⟨S5x5x95x95, .f32⟩
  | 124 => ⟨S_, .i32⟩
  | 125 => ⟨S2031616, .i32⟩
  | 126 => ⟨S2031616, .i1⟩
  | 127 => ⟨S_, .i32⟩
  | _ => ⟨S50000x3, .f32⟩

abbrev hbmTy0_1 (i : Nat) : BufTy := match i % 128 with
  | 0 => ⟨S2031616, .i32⟩
  | 1 => ⟨S2031616, .i32⟩
  | 2 => ⟨S2031616, .i32⟩
  | 3 => ⟨S_, .i32⟩
  | 4 => ⟨S2031616, .i32⟩
  | 5 => ⟨S2031616, .i1⟩
  | 6 => ⟨S_, .i32⟩
  | 7 => ⟨S2031616, .i32⟩
  | 8 => ⟨S2031616, .i32⟩
  | 9 => ⟨S2031616, .i32⟩
  | 10 => ⟨S2031616x1, .i32⟩
  | 11 => ⟨S2031616x1, .i32⟩
  | 12 => ⟨S2031616x2, .i32⟩
  | 13 => ⟨S5x5x2031616, .f32⟩
  | 14 => ⟨S_, .i32⟩
  | 15 => ⟨S2031616, .i32⟩
  | 16 => ⟨S2031616, .i1⟩
  | 17 => ⟨S_, .i32⟩
  | 18 => ⟨S2031616, .i32⟩
  | 19 => ⟨S2031616, .i32⟩
  | 20 => ⟨S2031616, .i32⟩
  | 21 => ⟨S2031616x1, .i32⟩
  | 22 => ⟨S2031616, .f32⟩
  | 23 => ⟨S1x2031616, .f32⟩
  | 24 => ⟨S_, .i32⟩
  | 25 => ⟨S2031616, .i32⟩
  | 26 => ⟨S2031616, .i1⟩
  | 27 => ⟨S_, .i32⟩
  | 28 => ⟨S2031616, .i32⟩
  | 29 => ⟨S2031616, .i32⟩
  | 30 => ⟨S2031616, .i32⟩
  | 31 => ⟨S2031616x1, .i32⟩
  | 32 => ⟨S2031616, .f32⟩
  | 33 => ⟨S1x2031616, .f32⟩
  | 34 => ⟨S1x1, .f32⟩
  | 35 => ⟨S_, .f32⟩
  | 36 => ⟨S_, .f32⟩
  | 37 => ⟨S_, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S3x32768, .f32⟩
  | .local _ .vmem, ⟨1, _⟩ => ⟨S3x32768, .f32⟩
  | .local _ .vmem, ⟨2, _⟩ => ⟨S3x32768, .f32⟩
  | .local _ .vmem, ⟨3, _⟩ => ⟨S3x32768, .f32⟩
  | .local _ .vmem, ⟨4, _⟩ => ⟨S1x32768, .f32⟩
  | .local _ .vmem, ⟨5, _⟩ => ⟨S1x32768, .f32⟩
  | .local _ .vmem, ⟨6, _⟩ => ⟨S1x32768, .f32⟩
  | .local _ .vmem, ⟨7, _⟩ => ⟨S1x32768, .f32⟩
  | .local _ .vmem, ⟨8, _⟩ => ⟨S1x32768, .f32⟩
  | .local _ .vmem, ⟨9, _⟩ => ⟨S1x32768, .f32⟩
  | .local _ .vmem, ⟨10, _⟩ => ⟨S1x32768, .f32⟩
  | .local _ .vmem, ⟨11, _⟩ => ⟨S1x32768, .f32⟩
  | .local _ .vmem, ⟨12, _⟩ => ⟨S1x32768, .f32⟩
  | .local _ .vmem, ⟨13, _⟩ => ⟨S1x32768, .f32⟩
  | .local _ .vmem, ⟨14, _⟩ => ⟨S1x32768, .f32⟩
  | .local _ .vmem, ⟨15, _⟩ => ⟨S1x32768, .f32⟩
  | .local _ .vmem, ⟨16, _⟩ => ⟨S1x32768, .f32⟩
  | .local _ .vmem, ⟨17, _⟩ => ⟨S1x32768, .f32⟩
  | .local _ .vmem, ⟨18, _⟩ => ⟨S5x32768, .f32⟩
  | .local _ .vmem, ⟨19, _⟩ => ⟨S5x32768, .f32⟩
  | .local _ .vmem, ⟨20, _⟩ => ⟨S5x32768, .f32⟩
  | .local _ .vmem, ⟨21, _⟩ => ⟨S5x32768, .f32⟩
  | .local _ .vmem, ⟨22, _⟩ => ⟨S5x5x32768, .f32⟩
  | .local _ .vmem, ⟨23, _⟩ => ⟨S5x5x32768, .f32⟩
  | .local _ .vmem, ⟨24, _⟩ => ⟨S1x32768, .f32⟩
  | .local _ .vmem, ⟨25, _⟩ => ⟨S1x32768, .f32⟩
  | .local _ .vmem, ⟨26, _⟩ => ⟨S1x32768, .f32⟩
  | .local _ .vmem, ⟨27, _⟩ => ⟨S1x32768, .f32⟩
  | .local _ .vmem, ⟨28, _⟩ => ⟨S1x32768, .f32⟩
  | .local _ .vmem, ⟨29, _⟩ => ⟨S1x32768, .f32⟩
  | .local _ .vmem, ⟨30, _⟩ => ⟨S1x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_15 : Ref sig .tc := ⟨.hbm, 84, rfl⟩
abbrev main_v58 : Ref sig .tc := ⟨.hbm, 85, rfl⟩
abbrev main_v59 : Ref sig .tc := ⟨.hbm, 86, rfl⟩
abbrev main_c_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_17 : Ref sig .tc := ⟨.hbm, 94, rfl⟩
abbrev main_v66 : Ref sig .tc := ⟨.hbm, 95, rfl⟩
abbrev main_v67 : Ref sig .tc := ⟨.hbm, 96, rfl⟩
abbrev main_c_18 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_19 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_21 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_23 : Ref sig .tc := ⟨.hbm, 124, rfl⟩
abbrev main_v90 : Ref sig .tc := ⟨.hbm, 125, rfl⟩
abbrev main_v91 : Ref sig .tc := ⟨.hbm, 126, rfl⟩
abbrev main_c_24 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_25 : Ref sig .tc := ⟨.hbm, 131, rfl⟩
abbrev main_v95 : Ref sig .tc := ⟨.hbm, 132, rfl⟩
abbrev main_v96 : Ref sig .tc := ⟨.hbm, 133, rfl⟩
abbrev main_c_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_27 : Ref sig .tc := ⟨.hbm, 142, rfl⟩
abbrev main_v104 : Ref sig .tc := ⟨.hbm, 143, rfl⟩
abbrev main_v105 : Ref sig .tc := ⟨.hbm, 144, rfl⟩
abbrev main_c_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_29 : Ref sig .tc := ⟨.hbm, 152, rfl⟩
abbrev main_v112 : Ref sig .tc := ⟨.hbm, 153, rfl⟩
abbrev main_v113 : Ref sig .tc := ⟨.hbm, 154, rfl⟩
abbrev main_c_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_31 : Ref sig .tc := ⟨.hbm, 164, rfl⟩
abbrev main_v122 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5x32768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5x32768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5x5x32768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x32768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x32768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x32768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  bcast_S_S31616 : S_.BroadcastsInDim S31616 (![] : Fin 0 → Fin S31616.rank)
  concatenates_S2000000_S31616_S2031616_d0 : Shape.Concatenates [S2000000, S31616] S2031616 0
  bcast_S_S2000000 : S_.BroadcastsInDim S2000000 (![] : Fin 0 → Fin S2000000.rank)
  bcast_S2031616_S1x2031616_1 : S2031616.BroadcastsInDim S1x2031616 (![1] : Fin 1 → Fin S1x2031616.rank)
  bcast_S_S2031616 : S_.BroadcastsInDim S2031616 (![] : Fin 0 → Fin S2031616.rank)
  bcast_S2031616_S2031616x1_0 : S2031616.BroadcastsInDim S2031616x1 (![0] : Fin 1 → Fin S2031616x1.rank)
  transposes_S50000x3_S3x50000_1_0 : S50000x3.Transposes [1, 0] S3x50000
  inb_S3x32768_S1x32768_0_0 : ∀ a, (![0, 0] : Fin 2 → Nat) a + S1x32768.size a ≤ S3x32768.size a
  h_S1x32768 : 0 < S1x32768.numel
  shapeCasts_S1x32768_S1x32768 : S1x32768.ShapeCasts S1x32768
  inb_S3x32768_S1x32768_1_0 : ∀ a, (![1, 0] : Fin 2 → Nat) a + S1x32768.size a ≤ S3x32768.size a
  inb_S3x32768_S1x32768_2_0 : ∀ a, (![2, 0] : Fin 2 → Nat) a + S1x32768.size a ≤ S3x32768.size a
  inb_S1x32768_S1x32768_0_0 : ∀ a, (![0, 0] : Fin 2 → Nat) a + S1x32768.size a ≤ S1x32768.size a
  shapeCasts_S1x2031616_S2031616 : S1x2031616.ShapeCasts S2031616
  bcast_S_S50000 : S_.BroadcastsInDim S50000 (![] : Fin 0 → Fin S50000.rank)
  transposes_S95x5_S5x95_1_0 : S95x5.Transposes [1, 0] S5x95
  transposes_S95x95x5x5_S5x5x95x95_2_3_0_1 : S95x95x5x5.Transposes [2, 3, 0, 1] S5x5x95x95
  concatenates_S2031616x1_S2031616x1_S2031616x2_d1 : Shape.Concatenates [S2031616x1, S2031616x1] S2031616x2 1
  inb_S1x1_S1x1_0_0 : ∀ a, (![0, 0] : Fin 2 → Nat) a + S1x1.size a ≤ S1x1.size a
  h_S1x1 : 0 < S1x1.numel
  inb_S5x32768_S1x32768_0_0 : ∀ a, (![0, 0] : Fin 2 → Nat) a + S1x32768.size a ≤ S5x32768.size a
  inb_S5x5x32768_S1x1x32768_0_0_0 : ∀ a, (![0, 0, 0] : Fin 3 → Nat) a + S1x1x32768.size a ≤ S5x5x32768.size a
  h_S1x1x32768 : 0 < S1x1x32768.numel
  shapeCasts_S1x1x32768_S1x32768 : S1x1x32768.ShapeCasts S1x32768
  inb_S5x32768_S1x32768_1_0 : ∀ a, (![1, 0] : Fin 2 → Nat) a + S1x32768.size a ≤ S5x32768.size a
  inb_S5x5x32768_S1x1x32768_0_1_0 : ∀ a, (![0, 1, 0] : Fin 3 → Nat) a + S1x1x32768.size a ≤ S5x5x32768.size a
  inb_S5x32768_S1x32768_2_0 : ∀ a, (![2, 0] : Fin 2 → Nat) a + S1x32768.size a ≤ S5x32768.size a
  inb_S5x5x32768_S1x1x32768_0_2_0 : ∀ a, (![0, 2, 0] : Fin 3 → Nat) a + S1x1x32768.size a ≤ S5x5x32768.size a
  inb_S5x32768_S1x32768_3_0 : ∀ a, (![3, 0] : Fin 2 → Nat) a + S1x32768.size a ≤ S5x32768.size a
  inb_S5x5x32768_S1x1x32768_0_3_0 : ∀ a, (![0, 3, 0] : Fin 3 → Nat) a + S1x1x32768.size a ≤ S5x5x32768.size a
  inb_S5x32768_S1x32768_4_0 : ∀ a, (![4, 0] : Fin 2 → Nat) a + S1x32768.size a ≤ S5x32768.size a
  inb_S5x5x32768_S1x1x32768_0_4_0 : ∀ a, (![0, 4, 0] : Fin 3 → Nat) a + S1x1x32768.size a ≤ S5x5x32768.size a
  inb_S5x5x32768_S1x1x32768_1_0_0 : ∀ a, (![1, 0, 0] : Fin 3 → Nat) a + S1x1x32768.size a ≤ S5x5x32768.size a
  inb_S5x5x32768_S1x1x32768_1_1_0 : ∀ a, (![1, 1, 0] : Fin 3 → Nat) a + S1x1x32768.size a ≤ S5x5x32768.size a
  inb_S5x5x32768_S1x1x32768_1_2_0 : ∀ a, (![1, 2, 0] : Fin 3 → Nat) a + S1x1x32768.size a ≤ S5x5x32768.size a
  inb_S5x5x32768_S1x1x32768_1_3_0 : ∀ a, (![1, 3, 0] : Fin 3 → Nat) a + S1x1x32768.size a ≤ S5x5x32768.size a
  inb_S5x5x32768_S1x1x32768_1_4_0 : ∀ a, (![1, 4, 0] : Fin 3 → Nat) a + S1x1x32768.size a ≤ S5x5x32768.size a
  inb_S5x5x32768_S1x1x32768_2_0_0 : ∀ a, (![2, 0, 0] : Fin 3 → Nat) a + S1x1x32768.size a ≤ S5x5x32768.size a
  inb_S5x5x32768_S1x1x32768_2_1_0 : ∀ a, (![2, 1, 0] : Fin 3 → Nat) a + S1x1x32768.size a ≤ S5x5x32768.size a
  inb_S5x5x32768_S1x1x32768_2_2_0 : ∀ a, (![2, 2, 0] : Fin 3 → Nat) a + S1x1x32768.size a ≤ S5x5x32768.size a
  inb_S5x5x32768_S1x1x32768_2_3_0 : ∀ a, (![2, 3, 0] : Fin 3 → Nat) a + S1x1x32768.size a ≤ S5x5x32768.size a
  inb_S5x5x32768_S1x1x32768_2_4_0 : ∀ a, (![2, 4, 0] : Fin 3 → Nat) a + S1x1x32768.size a ≤ S5x5x32768.size a
  inb_S5x5x32768_S1x1x32768_3_0_0 : ∀ a, (![3, 0, 0] : Fin 3 → Nat) a + S1x1x32768.size a ≤ S5x5x32768.size a
  inb_S5x5x32768_S1x1x32768_3_1_0 : ∀ a, (![3, 1, 0] : Fin 3 → Nat) a + S1x1x32768.size a ≤ S5x5x32768.size a
  inb_S5x5x32768_S1x1x32768_3_2_0 : ∀ a, (![3, 2, 0] : Fin 3 → Nat) a + S1x1x32768.size a ≤ S5x5x32768.size a
  inb_S5x5x32768_S1x1x32768_3_3_0 : ∀ a, (![3, 3, 0] : Fin 3 → Nat) a + S1x1x32768.size a ≤ S5x5x32768.size a
  inb_S5x5x32768_S1x1x32768_3_4_0 : ∀ a, (![3, 4, 0] : Fin 3 → Nat) a + S1x1x32768.size a ≤ S5x5x32768.size a
  inb_S5x5x32768_S1x1x32768_4_0_0 : ∀ a, (![4, 0, 0] : Fin 3 → Nat) a + S1x1x32768.size a ≤ S5x5x32768.size a
  inb_S5x5x32768_S1x1x32768_4_1_0 : ∀ a, (![4, 1, 0] : Fin 3 → Nat) a + S1x1x32768.size a ≤ S5x5x32768.size a
  inb_S5x5x32768_S1x1x32768_4_2_0 : ∀ a, (![4, 2, 0] : Fin 3 → Nat) a + S1x1x32768.size a ≤ S5x5x32768.size a
  inb_S5x5x32768_S1x1x32768_4_3_0 : ∀ a, (![4, 3, 0] : Fin 3 → Nat) a + S1x1x32768.size a ≤ S5x5x32768.size a
  inb_S5x5x32768_S1x1x32768_4_4_0 : ∀ a, (![4, 4, 0] : Fin 3 → Nat) a + S1x1x32768.size a ≤ S5x5x32768.size a
  reduces_S1x32768_S1 : S1x32768.Reduces [1] S1
  shapeCasts_S1_S1x1 : S1.ShapeCasts S1x1
  shapeCasts_S1x1_S1x1 : S1x1.ShapeCasts S1x1
  shapeCasts_S1x1_S_ : S1x1.ShapeCasts S_
  gather_S50000_S2031616x1_S2031616_n_0_n_n_0_1_1_wf : GatherDims.WF S50000 S2031616x1 S2031616 [] [0] [] [0] [] 1 ![1]
  gather_S3x50000_S2031616x1_S3x2031616_0_1_n_n_1_1_31_wf : GatherDims.WF S3x50000 S2031616x1 S3x2031616 [0] [1] [] [1] [] 1 ![3, 1]
  gather_S95_S2031616x1_S2031616_n_0_n_n_0_1_1_wf : GatherDims.WF S95 S2031616x1 S2031616 [] [0] [] [0] [] 1 ![1]
  scatter_S50000_S2031616x1_S2031616_n_0_0_1_wf : ScatterDims.WF S50000 S2031616x1 S2031616 [] [0] [0] 1
  gather_S5x95_S2031616x1_S5x2031616_0_1_n_n_1_1_51_wf : GatherDims.WF S5x95 S2031616x1 S5x2031616 [0] [1] [] [1] [] 1 ![5, 1]
  gather_S5x5x95x95_S2031616x2_S5x5x2031616_01_23_n_n_23_1_5511_wf : GatherDims.WF S5x5x95x95 S2031616x2 S5x5x2031616 [0, 1] [2, 3] [] [2, 3] [] 1 ![5, 5, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2031616.size a
  hwx0_0 : ∀ i : grid0.Coords, EltTy.bits .f32 = 32 ∨ (Rect.block (s := S3x2031616) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x2031616.size a
  hwx0_1 : ∀ i : grid0.Coords, EltTy.bits .f32 = 32 ∨ (Rect.block (s := S3x2031616) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x2031616.size a
  hwx0_2 : ∀ i : grid0.Coords, EltTy.bits .f32 = 32 ∨ (Rect.block (s := S1x2031616) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x2031616.size a
  hwx0_3 : ∀ i : grid0.Coords, EltTy.bits .f32 = 32 ∨ (Rect.block (s := S1x2031616) S1x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32768.size a ≤ S1x2031616.size a
  hwx0_4 : ∀ i : grid0.Coords, EltTy.bits .f32 = 32 ∨ (Rect.block (s := S1x2031616) S1x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x2031616.size a
  hwx0_5 : ∀ i : grid0.Coords, EltTy.bits .f32 = 32 ∨ (Rect.block (s := S1x2031616) S1x32768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32768.size a ≤ S1x2031616.size a
  hwx1_0 : ∀ i : grid1.Coords, EltTy.bits .f32 = 32 ∨ (Rect.block (s := S1x2031616) S1x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32768.size a ≤ S1x2031616.size a
  hwx1_1 : ∀ i : grid1.Coords, EltTy.bits .f32 = 32 ∨ (Rect.block (s := S1x2031616) S1x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32768.size a ≤ S1x2031616.size a
  hwx1_2 : ∀ i : grid1.Coords, EltTy.bits .f32 = 32 ∨ (Rect.block (s := S1x2031616) S1x32768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5x32768.size a ≤ S5x2031616.size a
  hwx1_3 : ∀ i : grid1.Coords, EltTy.bits .f32 = 32 ∨ (Rect.block (s := S5x2031616) S5x32768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5x32768.size a ≤ S5x2031616.size a
  hwx1_4 : ∀ i : grid1.Coords, EltTy.bits .f32 = 32 ∨ (Rect.block (s := S5x2031616) S5x32768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5x5x32768.size a ≤ S5x5x2031616.size a
  hwx1_5 : ∀ i : grid1.Coords, EltTy.bits .f32 = 32 ∨ (Rect.block (s := S5x5x2031616) S5x5x32768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x32768.size a ≤ S1x2031616.size a
  hwx1_6 : ∀ i : grid1.Coords, EltTy.bits .f32 = 32 ∨ (Rect.block (s := S1x2031616) S1x32768.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x32768.size a ≤ S1x2031616.size a
  hwx1_7 : ∀ i : grid1.Coords, EltTy.bits .f32 = 32 ∨ (Rect.block (s := S1x2031616) S1x32768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32768.size a ≤ S1x2031616.size a
  hwx1_8 : ∀ i : grid1.Coords, EltTy.bits .f32 = 32 ∨ (Rect.block (s := S1x2031616) S1x32768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)

variable [Facts₀]

def gather_S50000_S2031616x1_S2031616_n_0_n_n_0_1_1 : GatherDims S50000 S2031616x1 S2031616 where
  offsetDims := []
  collapsedSliceDims := [0]
  operandBatchingDims := []
  startIndicesBatchingDims := []
  startIndexMap := [0]
  indexVectorDim := 1
  sliceSizes := ![1]
  wf := gather_S50000_S2031616x1_S2031616_n_0_n_n_0_1_1_wf
def gather_S3x50000_S2031616x1_S3x2031616_0_1_n_n_1_1_31 : GatherDims S3x50000 S2031616x1 S3x2031616 where
  offsetDims := [0]
  collapsedSliceDims := [1]
  operandBatchingDims := []
  startIndicesBatchingDims := []
  startIndexMap := [1]
  indexVectorDim := 1
  sliceSizes := ![3, 1]
  wf := gather_S3x50000_S2031616x1_S3x2031616_0_1_n_n_1_1_31_wf
def gather_S95_S2031616x1_S2031616_n_0_n_n_0_1_1 : GatherDims S95 S2031616x1 S2031616 where
  offsetDims := []
  collapsedSliceDims := [0]
  operandBatchingDims := []
  startIndicesBatchingDims := []
  startIndexMap := [0]
  indexVectorDim := 1
  sliceSizes := ![1]
  wf := gather_S95_S2031616x1_S2031616_n_0_n_n_0_1_1_wf
def scatter_S50000_S2031616x1_S2031616_n_0_0_1 : ScatterDims S50000 S2031616x1 S2031616 where
  updateWindowDims := []
  insertedWindowDims := [0]
  scatterDimsToOperandDims := [0]
  indexVectorDim := 1
  wf := scatter_S50000_S2031616x1_S2031616_n_0_0_1_wf
def gather_S5x95_S2031616x1_S5x2031616_0_1_n_n_1_1_51 : GatherDims S5x95 S2031616x1 S5x2031616 where
  offsetDims := [0]
  collapsedSliceDims := [1]
  operandBatchingDims := []
  startIndicesBatchingDims := []
  startIndexMap := [1]
  indexVectorDim := 1
  sliceSizes := ![5, 1]
  wf := gather_S5x95_S2031616x1_S5x2031616_0_1_n_n_1_1_51_wf
def gather_S5x5x95x95_S2031616x2_S5x5x2031616_01_23_n_n_23_1_5511 : GatherDims S5x5x95x95 S2031616x2 S5x5x2031616 where
  offsetDims := [0, 1]
  collapsedSliceDims := [2, 3]
  operandBatchingDims := []
  startIndicesBatchingDims := []
  startIndexMap := [2, 3]
  indexVectorDim := 1
  sliceSizes := ![5, 5, 1, 1]
  wf := gather_S5x5x95x95_S2031616x2_S5x5x2031616_01_23_n_n_23_1_5511_wf

abbrev win0_0 : Pipeline.Window sig grid0 :=
  Pipeline.Window.ofSpec (Memref.whole main_v29) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53_0) S1x32768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53_1) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53_1) S1x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v81) S5x32768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v88) S5x32768.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v103) S5x5x32768.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v111) S1x32768.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v119) S1x32768.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x32768.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v120) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000 : Shape := ⟨1, ![50000]⟩
abbrev S2000000 : Shape := ⟨1, ![2000000]⟩
abbrev S95 : Shape := ⟨1, ![95]⟩
abbrev S95x95x5x5 : Shape := ⟨4, ![95, 95, 5, 5]⟩
abbrev S95x5 : Shape := ⟨2, ![95, 5]⟩
abbrev S_ : Shape := ⟨0, ![]⟩
abbrev S2000000x1 : Shape := ⟨2, ![2000000, 1]⟩
abbrev S2000000x3 : Shape := ⟨2, ![2000000, 3]⟩
abbrev S2000000x5 : Shape := ⟨2, ![2000000, 5]⟩
abbrev S2000000x5x1 : Shape := ⟨3, ![2000000, 5, 1]⟩
abbrev S2000000x1x5 : Shape := ⟨3, ![2000000, 1, 5]⟩
abbrev S2000000x5x5 : Shape := ⟨3, ![2000000, 5, 5]⟩
abbrev S2000000x2 : Shape := ⟨2, ![2000000, 2]⟩

abbrev nBuf : Space → Nat
  | .hbm => 260
  | .vmem => 0
  | .smem => 0
  | _ => 0

abbrev hbmTy0_0 (i : Nat) : BufTy := match i % 128 with
  | 0 => ⟨S50000x3, .f32⟩
  | 1 => ⟨S50000, .i32⟩
  | 2 => ⟨S2000000, .i32⟩
  | 3 => ⟨S2000000, .i32⟩
  | 4 => ⟨S95, .f32⟩
  | 5 => ⟨S95, .f32⟩
  | 6 => ⟨S95x95x5x5, .f32⟩
  | 7 => ⟨S95x5, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000, .i32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x3, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x3, .f32⟩
  | 44 => ⟨S2000000x3, .f32⟩
  | 45 => ⟨S2000000x3, .f32⟩
  | 46 => ⟨S_, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000, .f32⟩
  | 70 => ⟨S2000000, .f32⟩
  | 71 => ⟨S_, .f32⟩
  | 72 => ⟨S2000000, .f32⟩
  | 73 => ⟨S2000000, .i1⟩
  | 74 => ⟨S2000000, .f32⟩
  | 75 => ⟨S_, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S_, .f32⟩
  | 89 => ⟨S_, .f32⟩
  | 90 => ⟨S2000000, .f32⟩
  | 91 => ⟨S2000000, .f32⟩
  | 92 => ⟨S_, .f32⟩
  | 93 => ⟨S50000, .f32⟩
  | 94 => ⟨S2000000x1, .i32⟩
  | 95 => ⟨S50000, .f32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x5, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S2000000x5, .f32⟩
  | 114 => ⟨S2000000x5x1, .f32⟩
  | 115 => ⟨S_, .f32⟩
  | 116 => ⟨S2000000x5x1, .f32⟩
  | 117 => ⟨S2000000x5x1, .i1⟩
  | 118 => ⟨S2000000x1x5, .f32⟩
  | 119 => ⟨S_, .f32⟩
  | 120 => ⟨S2000000x1x5, .f32⟩
  | 121 => ⟨S2000000x1x5, .i1⟩
  | 122 => ⟨S2000000x5x5, .i1⟩
  | 123 => ⟨S2000000x5x5, .i1⟩
  | 124 => ⟨S2000000x5x5, .i1⟩
  | 125 => ⟨S_, .i32⟩
  | 126 => ⟨S2000000, .i32⟩
  | 127 => ⟨S2000000, .i1⟩
  | _ => ⟨S50000x3, .f32⟩

abbrev hbmTy0_1 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000, .f32⟩
  | 6 => ⟨S2000000x1, .f32⟩
  | 7 => ⟨S2000000x5, .f32⟩
  | 8 => ⟨S2000000x5, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000, .f32⟩
  | 18 => ⟨S2000000x1, .f32⟩
  | 19 => ⟨S2000000x5, .f32⟩
  | 20 => ⟨S2000000x5, .f32⟩
  | 21 => ⟨S2000000x5, .f32⟩
  | 22 => ⟨S2000000x5x1, .f32⟩
  | 23 => ⟨S_, .f32⟩
  | 24 => ⟨S2000000x5x1, .f32⟩
  | 25 => ⟨S2000000x5x1, .f32⟩
  | 26 => ⟨S2000000x5, .f32⟩
  | 27 => ⟨S2000000x1x5, .f32⟩
  | 28 => ⟨S_, .f32⟩
  | 29 => ⟨S2000000x1x5, .f32⟩
  | 30 => ⟨S2000000x1x5, .f32⟩
  | 31 => ⟨S2000000x5x5, .f32⟩
  | 32 => ⟨S2000000x5x5, .f32⟩
  | 33 => ⟨S2000000x5x5, .f32⟩
  | 34 => ⟨S2000000x5x5, .f32⟩
  | 35 => ⟨S_, .f32⟩
  | 36 => ⟨S_, .f32⟩
  | 37 => ⟨S2000000x5x5, .f32⟩
  | 38 => ⟨S2000000x5x5, .f32⟩
  | 39 => ⟨S_, .f32⟩
  | 40 => ⟨S2000000, .f32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x1, .i32⟩
  | 57 => ⟨S2000000x2, .i32⟩
  | 58 => ⟨S2000000x5x5, .f32⟩
  | 59 => ⟨S2000000x5x5, .f32⟩
  | 60 => ⟨S_, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000, .f32⟩
  | 75 => ⟨S_, .f32⟩
  | 76 => ⟨S2000000, .f32⟩
  | 77 => ⟨S2000000, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S2000000, .f32⟩
  | 98 => ⟨S2000000, .f32⟩
  | 99 => ⟨S2000000, .f32⟩
  | 100 => ⟨S2000000, .f32⟩
  | 101 => ⟨S2000000, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S2000000, .f32⟩
  | 114 => ⟨S2000000, .f32⟩
  | 115 => ⟨S2000000, .f32⟩
  | 116 => ⟨S_, .f32⟩
  | 117 => ⟨S2000000, .f32⟩
  | 118 => ⟨S2000000, .i1⟩
  | 119 => ⟨S_, .f32⟩
  | 120 => ⟨S_, .f32⟩
  | 121 => ⟨S2000000, .f32⟩
  | 122 => ⟨S2000000, .f32⟩
  | 123 => ⟨S_, .f32⟩
  | 124 => ⟨S50000, .f32⟩
  | 125 => ⟨S2000000x1, .i32⟩
  | 126 => ⟨S50000, .f32⟩
  | 127 => ⟨S_, .f32⟩
  | _ => ⟨S50000x3, .f32⟩

abbrev hbmTy0_2 (i : Nat) : BufTy := match i % 128 with
  | 0 => ⟨S50000, .f32⟩
  | 1 => ⟨S50000, .f32⟩
  | 2 => ⟨S_, .f32⟩
  | 3 => ⟨S_, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_cst_17 : Ref sig .tc := ⟨.hbm, 88, rfl⟩
abbrev main_call0_v0 : Ref sig .tc := ⟨.hbm, 89, rfl⟩
abbrev main_call0_v1 : Ref sig .tc := ⟨.hbm, 90, rfl⟩
abbrev main_v61 : Ref sig .tc := ⟨.hbm, 91, rfl⟩
abbrev main_cst_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_19 : Ref sig .tc := ⟨.hbm, 96, rfl⟩
abbrev main_v65 : Ref sig .tc := ⟨.hbm, 97, rfl⟩
abbrev main_v66 : Ref sig .tc := ⟨.hbm, 98, rfl⟩
abbrev main_c_20 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_21 : Ref sig .tc := ⟨.hbm, 105, rfl⟩
abbrev main_v72 : Ref sig .tc := ⟨.hbm, 106, rfl⟩
abbrev main_v73 : Ref sig .tc := ⟨.hbm, 107, rfl⟩
abbrev main_c_22 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_23 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_24 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_25 : Ref sig .tc := ⟨.hbm, 125, rfl⟩
abbrev main_v88 : Ref sig .tc := ⟨.hbm, 126, rfl⟩
abbrev main_v89 : Ref sig .tc := ⟨.hbm, 127, rfl⟩
abbrev main_c_26 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_27 : Ref sig .tc := ⟨.hbm, 137, rfl⟩
abbrev main_v98 : Ref sig .tc := ⟨.hbm, 138, rfl⟩
abbrev main_v99 : Ref sig .tc := ⟨.hbm, 139, rfl⟩
abbrev main_c_28 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_29 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_30 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_31 : Ref sig .tc := ⟨.hbm, 163, rfl⟩
abbrev main_call1_v0 : Ref sig .tc := ⟨.hbm, 164, rfl⟩
abbrev main_call1_v1 : Ref sig .tc := ⟨.hbm, 165, rfl⟩
abbrev main_v120 : Ref sig .tc := ⟨.hbm, 166, rfl⟩
abbrev main_cst_32 : Ref sig .tc := ⟨.hbm, 167, rfl⟩
abbrev main_v121 : Ref sig .tc := ⟨.hbm, 168, rfl⟩
abbrev main_c_33 : Ref sig .tc := ⟨.hbm, 169, rfl⟩
abbrev main_v122 : Ref sig .tc := ⟨.hbm, 170, rfl⟩
abbrev main_v123 : Ref sig .tc := ⟨.hbm, 171, rfl⟩
abbrev main_c_34 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_35 : Ref sig .tc := ⟨.hbm, 176, rfl⟩
abbrev main_v127 : Ref sig .tc := ⟨.hbm, 177, rfl⟩
abbrev main_v128 : Ref sig .tc := ⟨.hbm, 178, rfl⟩
abbrev main_c_36 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_37 : Ref sig .tc := ⟨.hbm, 188, rfl⟩
abbrev main_v137 : Ref sig .tc := ⟨.hbm, 189, rfl⟩
abbrev main_cst_38 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_c_39 : Ref sig .tc := ⟨.hbm, 194, rfl⟩
abbrev main_v141 : Ref sig .tc := ⟨.hbm, 195, rfl⟩
abbrev main_v142 : Ref sig .tc := ⟨.hbm, 196, rfl⟩
abbrev main_c_40 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_41 : Ref sig .tc := ⟨.hbm, 203, rfl⟩
abbrev main_v148 : Ref sig .tc := ⟨.hbm, 204, rfl⟩
abbrev main_v149 : Ref sig .tc := ⟨.hbm, 205, rfl⟩
abbrev main_c_42 : Ref sig .tc := ⟨.hbm, 206, rfl⟩
abbrev main_v150 : Ref sig .tc := ⟨.hbm, 207, rfl⟩
abbrev main_v151 : Ref sig .tc := ⟨.hbm, 208, rfl⟩
abbrev main_c_43 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_44 : Ref sig .tc := ⟨.hbm, 218, rfl⟩
abbrev main_v160 : Ref sig .tc := ⟨.hbm, 219, rfl⟩
abbrev main_v161 : Ref sig .tc := ⟨.hbm, 220, rfl⟩
abbrev main_cst_45 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_46 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_47 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_48 : Ref sig .tc := ⟨.hbm, 244, rfl⟩
abbrev main_v182 : Ref sig .tc := ⟨.hbm, 245, rfl⟩
abbrev main_v183 : Ref sig .tc := ⟨.hbm, 246, rfl⟩
abbrev main_cst_49 : Ref sig .tc := ⟨.hbm, 247, rfl⟩
abbrev main_call2_v0 : Ref sig .tc := ⟨.hbm, 248, rfl⟩
abbrev main_call2_v1 : Ref sig .tc := ⟨.hbm, 249, rfl⟩
abbrev main_v184 : Ref sig .tc := ⟨.hbm, 250, rfl⟩
abbrev main_cst_50 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_cst_51 : Ref sig .tc := ⟨.hbm, 255, rfl⟩
abbrev main_v188 : Ref sig .tc := ⟨.hbm, 256, rfl⟩
abbrev main_v189 : Ref sig .tc := ⟨.hbm, 257, rfl⟩
abbrev main_cst_52 : Ref sig .tc := ⟨.hbm, 258, rfl⟩
abbrev main_v190 : Ref sig .tc := ⟨.hbm, 259, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x3_S2000000_d1 : S2000000x3.ReducesTo [1] S2000000
  h_S_ : 0 < S_.numel
  bcast_S_S50000 : S_.BroadcastsInDim S50000 (![] : Fin 0 → Fin S50000.rank)
  bcast_S2000000x5_S2000000x5x1_0_1 : S2000000x5.BroadcastsInDim S2000000x5x1 (![0, 1] : Fin 2 → Fin S2000000x5x1.rank)
  bcast_S_S2000000x5x1 : S_.BroadcastsInDim S2000000x5x1 (![] : Fin 0 → Fin S2000000x5x1.rank)
  bcast_S2000000x5_S2000000x1x5_0_2 : S2000000x5.BroadcastsInDim S2000000x1x5 (![0, 2] : Fin 2 → Fin S2000000x1x5.rank)
  bcast_S_S2000000x1x5 : S_.BroadcastsInDim S2000000x1x5 (![] : Fin 0 → Fin S2000000x1x5.rank)
  bcast_S2000000x5x1_S2000000x5x5_0_1_2 : S2000000x5x1.BroadcastsInDim S2000000x5x5 (![0, 1, 2] : Fin 3 → Fin S2000000x5x5.rank)
  bcast_S2000000x1x5_S2000000x5x5_0_1_2 : S2000000x1x5.BroadcastsInDim S2000000x5x5 (![0, 1, 2] : Fin 3 → Fin S2000000x5x5.rank)
  bcast_S2000000x1_S2000000x5_0_1 : S2000000x1.BroadcastsInDim S2000000x5 (![0, 1] : Fin 2 → Fin S2000000x5.rank)
  bcast_S_S2000000x5x5 : S_.BroadcastsInDim S2000000x5x5 (![] : Fin 0 → Fin S2000000x5x5.rank)
  reducesTo_S2000000x5x5_S2000000_d1_2 : S2000000x5x5.ReducesTo [1, 2] S2000000
  concatenates_S2000000x1_S2000000x1_S2000000x2_d1 : Shape.Concatenates [S2000000x1, S2000000x1] S2000000x2 1
  reducesTo_S50000_S_d0 : S50000.ReducesTo [0] S_
  gather_S50000_S2000000x1_S2000000_n_0_n_n_0_1_1_wf : GatherDims.WF S50000 S2000000x1 S2000000 [] [0] [] [0] [] 1 ![1]
  gather_S50000x3_S2000000x1_S2000000x3_1_0_n_n_0_1_13_wf : GatherDims.WF S50000x3 S2000000x1 S2000000x3 [1] [0] [] [0] [] 1 ![1, 3]
  gather_S95_S2000000x1_S2000000_n_0_n_n_0_1_1_wf : GatherDims.WF S95 S2000000x1 S2000000 [] [0] [] [0] [] 1 ![1]
  scatter_S50000_S2000000x1_S2000000_n_0_0_1_wf : ScatterDims.WF S50000 S2000000x1 S2000000 [] [0] [0] 1
  gather_S95x5_S2000000x1_S2000000x5_1_0_n_n_0_1_15_wf : GatherDims.WF S95x5 S2000000x1 S2000000x5 [1] [0] [] [0] [] 1 ![1, 5]
  gather_S95x95x5x5_S2000000x2_S2000000x5x5_12_01_n_n_01_1_1155_wf : GatherDims.WF S95x95x5x5 S2000000x2 S2000000x5x5 [1, 2] [0, 1] [] [0, 1] [] 1 ![1, 1, 5, 5]

variable [Facts₀]

def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def gather_S50000x3_S2000000x1_S2000000x3_1_0_n_n_0_1_13 : GatherDims S50000x3 S2000000x1 S2000000x3 where
  offsetDims := [1]
  collapsedSliceDims := [0]
  operandBatchingDims := []
  startIndicesBatchingDims := []
  startIndexMap := [0]
  indexVectorDim := 1
  sliceSizes := ![1, 3]
  wf := gather_S50000x3_S2000000x1_S2000000x3_1_0_n_n_0_1_13_wf
def gather_S95_S2000000x1_S2000000_n_0_n_n_0_1_1 : GatherDims S95 S2000000x1 S2000000 where
  offsetDims := []
  collapsedSliceDims := [0]
  operandBatchingDims := []
  startIndicesBatchingDims := []
  startIndexMap := [0]
  indexVectorDim := 1
  sliceSizes := ![1]
  wf := gather_S95_S2000000x1_S2000000_n_0_n_n_0_1_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S95x5_S2000000x1_S2000000x5_1_0_n_n_0_1_15 : GatherDims S95x5 S2000000x1 S2000000x5 where
  offsetDims := [1]
  collapsedSliceDims := [0]
  operandBatchingDims := []
  startIndicesBatchingDims := []
  startIndexMap := [0]
  indexVectorDim := 1
  sliceSizes := ![1, 5]
  wf := gather_S95x5_S2000000x1_S2000000x5_1_0_n_n_0_1_15_wf
def gather_S95x95x5x5_S2000000x2_S2000000x5x5_12_01_n_n_01_1_1155 : GatherDims S95x95x5x5 S2000000x2 S2000000x5x5 where
  offsetDims := [1, 2]
  collapsedSliceDims := [0, 1]
  operandBatchingDims := []
  startIndicesBatchingDims := []
  startIndexMap := [0, 1]
  indexVectorDim := 1
  sliceSizes := ![1, 1, 5, 5]
  wf := gather_S95x95x5x5_S2000000x2_S2000000x5x5_12_01_n_n_01_1_1155_wf

class Facts : Prop extends Facts₀ where

variable [Facts]
-- ==== Proof.KRun.lean ====
/-
  The idealized kernel's run with its result named.  Every weakly fair execution of the program ends with the
  result buffer at the contents the last stretch of host operations leaves there, computed by folding the
  program's five segments (host operations, the counting-function region, host operations, the energy region,
  host operations) from the launch memory; the arguments end as launched.
-/
import proofs.«136451_j74294344286992_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is one of the buffers the host holds throughout. -/
theorem result_unscoped : ¬ (Proc.devRef .tc main_v122 : DevRef τ sig).isScoped := by decide

set_option backward.isDefEq.respectTransparency.types false in
/-- The run: the result ends at the last boundary's contents, the arguments as launched. -/
theorem run_result : θ_run defs (onTc (τ := τ) (main (F := F))) ⟨m, fun _ => 0, ρ⟩ (fun r => ∀ c : Dev nD,
      r.2.mem ((c.tc : Thread nD τ).loc main_v122) = W5 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v122 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Val

end
-- ==== Proof.KTail.lean ====
/-
  The last stretch of host operations: the result is one half of the energy region's 1×1 output,
  re-laid as a scalar.
-/
import proofs.«136451_j74294344286992_1_alg».proof.Proof.Gen.KernelIdeal.Frame
import Idealize.ShloMosaic.PureOps.Ideal
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.Tactic Idealize.SL.Sem
open Idealize.ShloMosaic.ValueIdx
open Cert.KernelIdeal Cert.KernelIdeal.Gen

variable (m : (ℓ : Loc nD τ sig) → Buf (Elt Ideal) ℓ) (ρ : Dev nD → PrngReg)

/-- The result after the last host operations: half the one entry of the energy region's output. -/
theorem result_tail (c : Dev nD) :
    W5 (F := Ideal) m ρ c (Proc.devRef .tc main_v122)
      = fun _ => Ideal.ofBits .f32 0x3F000000#32 * (W4 m ρ c (Proc.devRef .tc main_v120)) (ix2 0 0) := by
  show StableHlo.after hostOps2 (W4 m ρ c) (Proc.devRef .tc main_v122) = _
  after_results
  funext i
  show Ideal.ofBits .f32 0x3F000000#32 * _ = Ideal.ofBits .f32 0x3F000000#32 * _
  refine congrArg _ ?_
  obtain rfl : i = ix0 := eq_ix0 i
  show shapeCast S_ (W4 m ρ c (Proc.devRef .tc main_v120)) shapeCasts_S1x1_S_ ix0 = _
  exact shapeCast_apply _ _ ix0 (ix2 0 0) (by decide)

end Cert.KernelIdeal.Val

end
-- ==== Proof.KRegion1Arr.lean ====
/-
  The energy region's output array after the region.  The output is one 1×1 block that every grid point
  revisits; it is written back once, after the last point (point 61), and that block is the whole array.
  So the array ends holding what the body leaves in the output's buffer after point 61.
-/
import proofs.«136451_j74294344286992_1_alg».proof.Proof.Gen.KernelIdeal.Frame
import Idealize.ShloMosaic.Lib.Pipeline.Value

set_option maxRecDepth 16384

noncomputable section

namespace Cert.KernelIdeal.Val1

open Idealize.ShloMosaic Idealize.ShloMosaic.TcCoe Idealize.ShloMosaic.Tactic Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem last_lt : 61 < cfg1.N := by rw [show cfg1.N = 62 from N_1]; decide

/-- The last grid point. -/
def tLast : Fin cfg1.N := ⟨61, last_lt⟩

theorem tLast_val : tLast.val = 61 := rfl

/-- At every point the output's block index is (0, 0) and its block is 1×1 (decided once over the grid). -/
theorem idx1_9 : ∀ t : Fin cfg1.N, win1_9.index t (0 : Fin 2) = 0 ∧ win1_9.index t (1 : Fin 2) = 0 :=
  (by decide +kernel : ∀ t : Fin grid1.N, _)
theorem xsize1_9 : ∀ t : Fin cfg1.N, win1_9.xsize (grid1.coords t) (0 : Fin 2) = 1 ∧ win1_9.xsize (grid1.coords t) (1 : Fin 2) = 1 :=
  (by decide +kernel : ∀ t : Fin grid1.N, _)

/-- The one write-back of the output, after point 61, writes what the body left there: block (0, 0) of the
    1×1 array read through zero offsets is the array. -/
theorem flushed9_eq (c : Dev nD) (t : Fin cfg1.N) (hf : (cfg1.win 9).flush t = true) :
    (dat1 V c).flushed 9 t = ((cfg1.win 9).blk t).view.read (Elt F) (outsAt1 V c tLast.val tLast.isLt) := by
  have hN : cfg1.N = 62 := N_1
  have h61 : t.val = 61 := by have := (flush1_9 t).mp hf; have := t.isLt; omega
  obtain rfl : t = tLast := Fin.ext (h61.trans tLast_val.symm)
  show (cfg1.win 9).cut (grid1.coords tLast) ((dat1 V c).after 9 tLast) = _
  rw [after1_9]
  have hz' : (fun a => win1_9.index tLast a * main_v120.ty.shape.size a) = fun _ => 0 := funext fun a => by
    match a with
    | ⟨0, _⟩ => show win1_9.index tLast 0 * _ = 0; rw [(idx1_9 tLast).1, Nat.zero_mul]
    | ⟨1, _⟩ => show win1_9.index tLast 1 * _ = 0; rw [(idx1_9 tLast).2, Nat.zero_mul]
  exact (Memref.read_access_unit_zero (Elt F) main_v120 hz' (fun a => by rw [congrFun hz' a]; simp) (outsAt1 V c tLast.val tLast.isLt)).symm

/-- The output array after the region: the running total after the last point. -/
theorem final9 (c : Dev nD) : (dat1 V c).arrAt 9 cfg1.N = outsAt1 V c tLast.val tLast.isLt :=
  (dat1 V c).arrAt_eq_of_cover 9 (outsAt1 V c tLast.val tLast.isLt) (flushed9_eq V c) fun i =>
    ⟨tLast, (flush1_9 tLast).mpr (by rw [tLast_val]), by
      show i ∈ ((View.whole main_v120).slice (win1_9.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_9.index tLast 0 * win1_9.size 0 ≤ (i 0 : Nat) ∧ (i 0 : Nat) < win1_9.index tLast 0 * win1_9.size 0 + win1_9.xsize (grid1.coords tLast) 0
                  rw [(idx1_9 tLast).1, (xsize1_9 tLast).1]; omega
      | ⟨1, _⟩ => show win1_9.index tLast 1 * win1_9.size 1 ≤ (i 1 : Nat) ∧ (i 1 : Nat) < win1_9.index tLast 1 * win1_9.size 1 + win1_9.xsize (grid1.coords tLast) 1
                  rw [(idx1_9 tLast).2, (xsize1_9 tLast).2]; omega⟩

end Cert.KernelIdeal.Val1

end
-- ==== Proof.LibClamp.lean ====
/-
  A start index of a gather, read as a signed integer and clamped into the table's range [0, N - 1]
  (the slice has one element on that axis).
-/
import Idealize.ShloMosaic.Lib.ValueIdx

namespace Cert.IndexOps

/-- The signed value of z, clamped into [0, N - 1], as an index of an axis of extent N. -/
def clampIdx (N : Nat) (hN : 0 < N) {w : Nat} (z : BitVec w) : Fin N := ⟨min z.toInt.toNat (N - 1), by omega⟩

theorem clampIdx_val (N : Nat) (hN : 0 < N) {w : Nat} (z : BitVec w) :
    (clampIdx N hN z).val = min z.toInt.toNat (N - 1) := rfl

/-- Inside the range the clamp is the identity. -/
theorem clampIdx_of_lt (N : Nat) (hN : 0 < N) {w : Nat} (z : BitVec w) (h0 : 0 ≤ z.toInt) (h1 : z.toInt < N) :
    ((clampIdx N hN z).val : Int) = z.toInt := by
  rw [clampIdx_val]
  omega

end Cert.IndexOps
-- ==== Proof.Spec.lean ====
/-
  The pairwise dispersion energy, stated once as functions of scalars and of the argument arrays.

  For a directed pair e with endpoints i = I e and j = J e and element numbers a = Z i, b = Z j:
    r      = sqrt (|x_j - x_i|^2 + eps)                              the distance, shifted by a small positive eps
    count  = [r < 25] / (1 + exp (-16 (rc / r - 1))),  rc = rcov a + rcov b      the counting function
    cn k   = sum of count e over the pairs e with I e = k                        the coordination number of atom k
    w p q  = [ref a p >= 0 and ref b q >= 0] exp (-4 (cn i - ref a p)^2 - 4 (cn j - ref b q)^2)
    c6     = (sum over p q of w p q * C6 a b p q) / (sum over p q of w p q + eps)
    energy = [r < 50] * -(c6 / (r^6 + r0^6) + 2 c6 qq / (r^8 + r0^8)),  qq = 3 r4r2 a r4r2 b,  r0 = 0.4 sqrt qq + 4.8
  and the total is half the sum of the pair energies.  Every float literal is kept as its binary word.
  An index into a table is read the way both programs read it: a negative value wraps once by the table's
  extent, and the result is clamped into the table.
-/
import Idealize.ShloMosaic.PureOps.Ideal
import Idealize.ShloMosaic.Lib.ValueIdx
import proofs.«136451_j74294344286992_1_alg».proof.Proof.LibClamp

noncomputable section

namespace Cert.Disp

open Idealize.ShloMosaic Idealize.ShloMosaic.ValueIdx Cert.IndexOps

/-- A float literal, by its binary word. -/
abbrev lit (b : BitVec 32) : EReal := Ideal.ofBits .f32 b

/-- A negative index wraps once by the extent `n`. -/
def wrapIdx (n z : BitVec 32) : BitVec 32 := Scalar.select (IntOp.cmpi .slt z 0#32) (IntOp.addi z n) z

/-- The atom an index word names: wrapped, then clamped into the 50000 atoms. -/
def atomOf (z : BitVec 32) : Fin 50000 := clampIdx 50000 (by decide) (wrapIdx 50000#32 z)

/-- The row of a 95-row element table an element number names: wrapped, then clamped. -/
def elemOf (z : BitVec 32) : Fin 95 := clampIdx 95 (by decide) (wrapIdx 95#32 z)

/-! ## The scalar formulas -/

/-- The shifted distance between two points. -/
def dist (xi yi zi xj yj zj : EReal) : EReal :=
  Ideal.sqrt ((xj - xi) * (xj - xi) + (yj - yi) * (yj - yi) + (zj - zi) * (zj - zi) + lit 0x1E3CE508#32)

/-- The counting function of a pair at distance `r` with summed covalent radii `rc`. -/
def count (r rc : EReal) : EReal :=
  Scalar.select (Ideal.cmp .olt r (lit 0x41C80000#32))
    (Ideal.div (lit 0x3F800000#32)
      (lit 0x3F800000#32 + Ideal.exp (lit 0xC1800000#32 * (Ideal.div rc r - lit 0x3F800000#32))))
    (lit 0x00000000#32)

/-- The Gaussian weight of one pair of reference slots, zero when either slot is absent (negative). -/
def weight (cni cnj ra rb : EReal) : EReal :=
  Scalar.select (IntOp.andi (Ideal.cmp .oge ra (lit 0x00000000#32)) (Ideal.cmp .oge rb (lit 0x00000000#32)))
    (Ideal.exp (lit 0xC0800000#32 * ((cni - ra) * (cni - ra)) - lit 0x40800000#32 * ((cnj - rb) * (cnj - rb))))
    (lit 0x00000000#32)

/-- The interpolated C6 coefficient from the 25 weights and the 25 table entries. -/
def c6interp (w c : Fin 5 → Fin 5 → EReal) : EReal :=
  Ideal.div (∑ p : Fin 5, ∑ q : Fin 5, w p q * c p q) ((∑ p : Fin 5, ∑ q : Fin 5, w p q) + lit 0x1E3CE508#32)

/-- The damped pair energy before its sign and cutoff: `c6 / (r^6 + r0^6) + 2 c8 / (r^8 + r0^8)`. -/
def damped (r c6 qa qb : EReal) : EReal :=
  let qq := lit 0x40400000#32 * qa * qb
  let c8 := c6 * qq
  let r0 := lit 0x3ECCCCCD#32 * Ideal.sqrt qq + lit 0x4099999A#32
  let r2 := r * r
  let r6 := r2 * r2 * r2
  let r8 := r6 * r2
  let s2 := r0 * r0
  let s6 := s2 * s2 * s2
  let s8 := s6 * s2
  Ideal.div (lit 0x3F800000#32 * c6) (r6 + s6) + Ideal.div (lit 0x40000000#32 * c8) (r8 + s8)

/-- The pair energy: minus the damped term inside the cutoff, zero outside. -/
def energy (r c6 qa qb : EReal) : EReal :=
  Scalar.select (Ideal.cmp .olt r (lit 0x42480000#32)) (-(damped r c6 qa qb)) (lit 0x00000000#32)

/-! ## The arrays -/

section Arrays

variable (P : (⟨2, ![50000, 3]⟩ : Shape).Idx → EReal) (Z : (⟨1, ![50000]⟩ : Shape).Idx → BitVec 32)
  (I J : (⟨1, ![2000000]⟩ : Shape).Idx → BitVec 32)
  (RC R4 : (⟨1, ![95]⟩ : Shape).Idx → EReal) (C6 : (⟨4, ![95, 95, 5, 5]⟩ : Shape).Idx → EReal)
  (CR : (⟨2, ![95, 5]⟩ : Shape).Idx → EReal)

/-- The element-table row of atom `k`. -/
def elemAt (k : Fin 50000) : Fin 95 := elemOf (Z (ix1 k))

/-- The distance of the pair whose endpoints are named by the index words `zi`, `zj`. -/
def distAt (zi zj : BitVec 32) : EReal :=
  dist (P (ix2 (atomOf zi) 0)) (P (ix2 (atomOf zi) 1)) (P (ix2 (atomOf zi) 2))
    (P (ix2 (atomOf zj) 0)) (P (ix2 (atomOf zj) 1)) (P (ix2 (atomOf zj) 2))

/-- The counting function of that pair. -/
def countAt (zi zj : BitVec 32) : EReal :=
  count (distAt P zi zj) (RC (ix1 (elemAt Z (atomOf zi))) + RC (ix1 (elemAt Z (atomOf zj))))

/-- The coordination number of atom `k`: the counting function summed over the pairs that start at `k`
    (a pair's start is its first index word as a signed integer, with no wrap: a word outside `[0, 50000)` starts nowhere). -/
def cn (k : Fin 50000) : EReal :=
  ∑ e ∈ Finset.univ.filter (fun e : Fin 2000000 => (I (ix1 e)).toInt = (k.val : Int)), countAt P Z RC (I (ix1 e)) (J (ix1 e))

/-- The energy of the pair named by `zi`, `zj`. -/
def energyAt (zi zj : BitVec 32) : EReal :=
  let a := elemAt Z (atomOf zi)
  let b := elemAt Z (atomOf zj)
  let cni := cn P Z I J RC (atomOf zi)
  let cnj := cn P Z I J RC (atomOf zj)
  energy (distAt P zi zj)
    (c6interp (fun p q => weight cni cnj (CR (ix2 a p)) (CR (ix2 b q))) (fun p q => C6 (ix4 a b p q)))
    (R4 (ix1 a)) (R4 (ix1 b))

/-- The energy of pair `e`. -/
def pairEnergy (e : Fin 2000000) : EReal := energyAt P Z I J RC R4 C6 CR (I (ix1 e)) (J (ix1 e))

/-- THE TOTAL: half the sum of the pair energies. -/
def total : EReal := lit 0x3F000000#32 * ∑ e : Fin 2000000, pairEnergy P Z I J RC R4 C6 CR e

/-- The total as the reference arranges it: per atom, half the energies of the pairs that start there, summed over the atoms. -/
def totalByAtom : EReal :=
  ∑ k : Fin 50000, lit 0x3F000000#32 *
    ∑ e ∈ Finset.univ.filter (fun e : Fin 2000000 => (I (ix1 e)).toInt = (k.val : Int)), pairEnergy P Z I J RC R4 C6 CR e

end Arrays

end Cert.Disp

end
-- ==== Proof.Algebra.lean ====
/-
  The one law that joins the two arrangements of the total.  The reference halves, per atom, the energy of
  the pairs that start at that atom and then adds up the atoms; the kernel adds up all the pairs and halves
  once.  On the extended reals multiplying by a finite non-negative factor distributes over every sum, even
  one that holds infinities, and when every pair starts at some atom the per-atom groups partition the pairs.
-/
import proofs.«136451_j74294344286992_1_alg».proof.Proof.Spec
import Mathlib.Data.EReal.Operations
import Mathlib.Algebra.BigOperators.Group.Finset.Basic

noncomputable section

namespace Cert.Disp

open Idealize.ShloMosaic Idealize.ShloMosaic.ValueIdx

/-- The word of `+0.0` is zero. -/
theorem lit_zero : lit 0x00000000#32 = 0 := by
  simp [lit, Ideal.ofBits, Ideal.ieee]

/-- The word of `1.0` is one. -/
theorem lit_one : lit 0x3F800000#32 = 1 := by
  simp [lit, Ideal.ofBits, Ideal.ieee, -EReal.coe_mul]; norm_num

/-- The word of `0.5` is the real one half. -/
theorem lit_half : lit 0x3F000000#32 = ((1 / 2 : ℝ) : EReal) := by
  simp [lit, Ideal.ofBits, Ideal.ieee, -EReal.coe_mul]; norm_num

/-- A finite non-negative factor distributes over a finite sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

section Arrays

variable (P : (⟨2, ![50000, 3]⟩ : Shape).Idx → EReal) (Z : (⟨1, ![50000]⟩ : Shape).Idx → BitVec 32)
  (I J : (⟨1, ![2000000]⟩ : Shape).Idx → BitVec 32)
  (RC R4 : (⟨1, ![95]⟩ : Shape).Idx → EReal) (C6 : (⟨4, ![95, 95, 5, 5]⟩ : Shape).Idx → EReal)
  (CR : (⟨2, ![95, 5]⟩ : Shape).Idx → EReal)

/-- When every pair starts at one of the 50000 atoms, halving per atom and adding the atoms is halving the sum of all pairs. -/
theorem totalByAtom_eq_total
    (hI : ∀ e : Fin 2000000, 0 ≤ (I (ix1 e)).toInt ∧ (I (ix1 e)).toInt < 50000) :
    totalByAtom P Z I J RC R4 C6 CR = total P Z I J RC R4 C6 CR := by
  classical
  unfold totalByAtom total
  rw [lit_half, coe_mul_sum _ (by norm_num)]
  -- the atom a pair starts at, as an index
  let g : Fin 2000000 → Fin 50000 := fun e => ⟨(I (ix1 e)).toInt.toNat, by have := hI e; omega⟩
  have hg : ∀ (e : Fin 2000000) (k : Fin 50000), ((I (ix1 e)).toInt = (k.val : Int)) ↔ g e = k := by
    intro e k
    have := hI e
    constructor
    · intro h; apply Fin.ext; show (I (ix1 e)).toInt.toNat = k.val; omega
    · intro h; have h' : (I (ix1 e)).toInt.toNat = k.val := congrArg Fin.val h; omega
  rw [← Finset.sum_fiberwise Finset.univ g (fun e => ((1 / 2 : ℝ) : EReal) * pairEnergy P Z I J RC R4 C6 CR e)]
  refine Finset.sum_congr rfl fun k _ => ?_
  rw [coe_mul_sum _ (by norm_num)]
  refine Finset.sum_congr ?_ fun _ _ => rfl
  ext e
  simp only [Finset.mem_filter, Finset.mem_univ, true_and]
  exact hg e k

end Arrays

end Cert.Disp

end
-- ==== Proof.Padded.lean ====
/-
  The kernel's arrangement of the total.  The kernel pads the two lists of index words with zero words to
  62 · 32768 = 2031616 entries and carries a mask that is 1 on the 2000000 real pairs and 0 on the padding.
  Every masked term of a padded entry is zero, so the coordination numbers and the total computed over the
  padded lists are the ones computed over the real pairs; and the sum over the 62 tiles of 32768 lanes is
  the sum over the padded entries.
-/
import proofs.«136451_j74294344286992_1_alg».proof.Proof.Spec
import proofs.«136451_j74294344286992_1_alg».proof.Proof.Algebra
import Mathlib.Algebra.BigOperators.Fin

noncomputable section

namespace Cert.Disp

open Idealize.ShloMosaic Idealize.ShloMosaic.ValueIdx

/-- A list of 2000000 index words padded with zero words to 2031616. -/
def padI (I : (⟨1, ![2000000]⟩ : Shape).Idx → BitVec 32) (e : Fin 2031616) : BitVec 32 :=
  if h : e.val < 2000000 then I (ix1 ⟨e.val, h⟩) else 0#32

/-- The validity mask: the word of 1.0 on the real pairs, of 0.0 on the padding. -/
def maskAt (e : Fin 2031616) : EReal := if e.val < 2000000 then lit 0x3F800000#32 else lit 0x00000000#32

/-- A real pair as a padded entry. -/
def realEntry (e : Fin 2000000) : Fin 2031616 := ⟨e.val, by have := e.isLt; omega⟩

theorem padI_real (I : (⟨1, ![2000000]⟩ : Shape).Idx → BitVec 32) (e : Fin 2000000) : padI I (realEntry e) = I (ix1 e) := by
  unfold padI realEntry
  rw [dif_pos e.isLt]

theorem maskAt_real (e : Fin 2000000) : maskAt (realEntry e) = 1 := by
  unfold maskAt realEntry
  rw [if_pos e.isLt, lit_one]

theorem maskAt_pad (e : Fin 2031616) (h : 2000000 ≤ e.val) : maskAt e = 0 := by
  unfold maskAt
  rw [if_neg (by omega), lit_zero]

/-- A sum over the padded entries whose padding terms vanish is the sum over the real pairs. -/
theorem sum_padded {M : Type*} [AddCommMonoid M] (f : Fin 2031616 → M) (h0 : ∀ e : Fin 2031616, 2000000 ≤ e.val → f e = 0) :
    ∑ e : Fin 2031616, f e = ∑ e : Fin 2000000, f (realEntry e) := by
  classical
  let g : ℕ → M := fun n => if h : n < 2031616 then f ⟨n, h⟩ else 0
  have h1 : ∑ e : Fin 2031616, f e = ∑ n ∈ Finset.range 2031616, g n := by
    rw [← Fin.sum_univ_eq_sum_range]
    refine Finset.sum_congr rfl fun e _ => ?_
    show f e = if h : e.val < 2031616 then f ⟨e.val, h⟩ else 0
    rw [dif_pos e.isLt]
  have h2 : ∑ e : Fin 2000000, f (realEntry e) = ∑ n ∈ Finset.range 2000000, g n := by
    rw [← Fin.sum_univ_eq_sum_range]
    refine Finset.sum_congr rfl fun e _ => ?_
    show f (realEntry e) = if h : e.val < 2031616 then f ⟨e.val, h⟩ else 0
    rw [dif_pos (by have := e.isLt; omega)]
    rfl
  rw [h1, h2]
  symm
  refine Finset.sum_subset (Finset.range_subset_range.2 (by norm_num)) fun n hn hn' => ?_
  have hlt : n < 2031616 := Finset.mem_range.1 hn
  have hge : 2000000 ≤ n := by
    by_contra hc
    exact hn' (Finset.mem_range.2 (by omega))
  show (if h : n < 2031616 then f ⟨n, h⟩ else 0) = 0
  rw [dif_pos hlt]
  exact h0 ⟨n, hlt⟩ hge

/-- The lane `l` of tile `s` as a padded entry. -/
def laneEntry (s : Fin 62) (l : Fin 32768) : Fin 2031616 := ⟨s.val * 32768 + l.val, by have := s.isLt; have := l.isLt; omega⟩

/-- The sum over 62 tiles of 32768 lanes is the sum over the 2031616 entries. -/
theorem sum_tiles {M : Type*} [AddCommMonoid M] (f : Fin 2031616 → M) :
    ∑ s : Fin 62, ∑ l : Fin 32768, f (laneEntry s l) = ∑ e : Fin 2031616, f e := by
  classical
  rw [← Fintype.sum_prod_type']
  let φ : Fin 62 × Fin 32768 ≃ Fin 2031616 := finProdFinEquiv
  rw [← Equiv.sum_comp φ f]
  refine Finset.sum_congr rfl fun x _ => ?_
  refine congrArg f (Fin.ext ?_)
  show x.1.val * 32768 + x.2.val = (finProdFinEquiv x).val
  rw [finProdFinEquiv_apply_val]
  omega

/-- Coordination numbers accumulated from a [1, 2031616] array `cf` of masked counting-function values: from the zero
    word, the entries whose padded first index word is `k` as a signed integer. -/
def cnOver (cf : (⟨2, ![1, 2031616]⟩ : Shape).Idx → EReal) (I : (⟨1, ![2000000]⟩ : Shape).Idx → BitVec 32) (k : Fin 50000) : EReal :=
  lit 0x00000000#32 + ∑ e ∈ Finset.univ.filter (fun e : Fin 2031616 => (padI I e).toInt = (k.val : Int)), cf (ix2 0 e)

section Arrays

variable (P : (⟨2, ![50000, 3]⟩ : Shape).Idx → EReal) (Z : (⟨1, ![50000]⟩ : Shape).Idx → BitVec 32)
  (I J : (⟨1, ![2000000]⟩ : Shape).Idx → BitVec 32)
  (RC R4 : (⟨1, ![95]⟩ : Shape).Idx → EReal) (C6 : (⟨4, ![95, 95, 5, 5]⟩ : Shape).Idx → EReal)
  (CR : (⟨2, ![95, 5]⟩ : Shape).Idx → EReal)

/-- The masked counting function of a padded entry. -/
def cfPad (e : Fin 2031616) : EReal := countAt P Z RC (padI I e) (padI J e) * maskAt e

/-- The coordination numbers as the kernel accumulates them: over the padded entries, from the zero word. -/
def cnPad (k : Fin 50000) : EReal :=
  lit 0x00000000#32 + ∑ e ∈ Finset.univ.filter (fun e : Fin 2031616 => (padI I e).toInt = (k.val : Int)), cfPad P Z I J RC e

/-- The masked energy of a padded entry, over the kernel's coordination numbers. -/
def lanePad (e : Fin 2031616) : EReal :=
  let a := elemAt Z (atomOf (padI I e))
  let b := elemAt Z (atomOf (padI J e))
  energy (distAt P (padI I e) (padI J e))
    (c6interp (fun p q => weight (cnPad P Z I J RC (atomOf (padI I e))) (cnPad P Z I J RC (atomOf (padI J e))) (CR (ix2 a p)) (CR (ix2 b q)))
      (fun p q => C6 (ix4 a b p q)))
    (R4 (ix1 a)) (R4 (ix1 b)) * maskAt e

/-- The kernel's total: half the sum over the tiles and lanes. -/
def totalPad : EReal := lit 0x3F000000#32 * ∑ s : Fin 62, ∑ l : Fin 32768, lanePad P Z I J RC R4 C6 CR (laneEntry s l)

/-- The kernel's coordination numbers are the specification's: the padding adds zeros. -/
theorem cnPad_eq_cn (k : Fin 50000) : cnPad P Z I J RC k = cn P Z I J RC k := by
  classical
  unfold cnPad cn
  rw [lit_zero, zero_add, Finset.sum_filter, Finset.sum_filter]
  rw [sum_padded]
  · refine Finset.sum_congr rfl fun e _ => ?_
    rw [padI_real]
    by_cases h : (I (ix1 e)).toInt = (k.val : Int)
    · rw [if_pos h, if_pos h]
      unfold cfPad
      rw [padI_real, padI_real, maskAt_real, mul_one]
    · rw [if_neg h, if_neg h]
  · intro e he
    split
    · unfold cfPad
      rw [maskAt_pad e he, mul_zero]
    · rfl

/-- THE KERNEL'S TOTAL IS THE SPECIFICATION'S. -/
theorem totalPad_eq_total : totalPad P Z I J RC R4 C6 CR = total P Z I J RC R4 C6 CR := by
  unfold totalPad total
  refine congrArg _ ?_
  rw [sum_tiles, sum_padded]
  · refine Finset.sum_congr rfl fun e _ => ?_
    unfold lanePad pairEnergy energyAt
    simp only [padI_real, maskAt_real, mul_one, cnPad_eq_cn]
  · intro e he
    unfold lanePad
    rw [maskAt_pad e he, mul_zero]

end Arrays

end Cert.Disp

end
-- ==== Proof.KRegion1Blk.lean ====
/-
  The energy region's input blocks read as entries of the whole arrays.  Every input window of the region is
  blocked along its last axis in 62 tiles of 32768 lanes, with block index (0, …, 0, g) at grid point g; so the
  element at lane `l` of the block at point `s` is the array's element at position `s · 32768 + l` of that axis,
  with the leading coordinates unchanged.
-/
import proofs.«136451_j74294344286992_1_alg».proof.Proof.Gen.KernelIdeal.Frame
import proofs.«136451_j74294344286992_1_alg».proof.Proof.Padded
import Idealize.ShloMosaic.Lib.Pipeline.Value

set_option maxRecDepth 16384

noncomputable section

namespace Cert.KernelIdeal.Val1

open Idealize.ShloMosaic Idealize.ShloMosaic.TcCoe Idealize.ShloMosaic.Tactic Idealize.SL.Sem Idealize.ShloMosaic.ValueIdx
open Cert.KernelIdeal Cert.KernelIdeal.Gen

variable (V : (c : Dev nD) → (b : Ref sig .tc) → Buf (Elt Ideal) ((c : Thread nD τ).loc b))

theorem pt_lt (s : Fin 62) : s.val < cfg1.N := by rw [show cfg1.N = 62 from N_1]; exact s.isLt

/-- Tile `s` as a grid point of the region. -/
abbrev pt (s : Fin 62) : Fin cfg1.N := ⟨s.val, pt_lt s⟩

/-! ## The block indices, decided once over the grid -/

theorem idx1_0 : ∀ t : Fin cfg1.N, win1_0.index t (0 : Fin 2) = 0 ∧ win1_0.index t (1 : Fin 2) = t.val :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = t.val :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)
theorem idx1_6 : ∀ t : Fin cfg1.N, win1_6.index t (0 : Fin 2) = 0 ∧ win1_6.index t (1 : Fin 2) = t.val :=
  (by decide +kernel : ∀ t : Fin grid1.N, _)
theorem idx1_7 : ∀ t : Fin cfg1.N, win1_7.index t (0 : Fin 2) = 0 ∧ win1_7.index t (1 : Fin 2) = t.val :=
  (by decide +kernel : ∀ t : Fin grid1.N, _)
theorem idx1_8 : ∀ t : Fin cfg1.N, win1_8.index t (0 : Fin 2) = 0 ∧ win1_8.index t (1 : Fin 2) = t.val :=
  (by decide +kernel : ∀ t : Fin grid1.N, _)
theorem idx1_5 : ∀ t : Fin cfg1.N, win1_5.index t (0 : Fin 3) = 0 ∧ win1_5.index t (1 : Fin 3) = 0 ∧ win1_5.index t (2 : Fin 3) = t.val :=
  (by decide +kernel : ∀ t : Fin grid1.N, _)

/-! ## The blocks -/

/-- Window 0 (the distances): lane `l` of tile `s` is the array's entry `s · 32768 + l`. -/
theorem blk1_0 (c : Dev nD) (s : Fin 62) (l : Fin 32768) :
    iblk1 V c 0 (pt s) (ix2 0 l) = V c main_v53_1 (ix2 0 (Cert.Disp.laneEntry s l)) := by
  show V c (Pipeline.arrRef spec1 0) (((cfg1.win 0).blk (pt s)).view.emb (ix2 0 l)) = V c main_v53_1 _
  refine congrArg (V c main_v53_1) ?_
  funext a
  refine Fin.ext ?_
  match a with
  | ⟨0, _⟩ =>
    show win1_0.index (pt s) 0 * 1 + 1 * 0 = 0
    rw [(idx1_0 (pt s)).1]
  | ⟨1, _⟩ =>
    show win1_0.index (pt s) 1 * 32768 + 1 * l.val = s.val * 32768 + l.val
    rw [(idx1_0 (pt s)).2]; show s.val * 32768 + 1 * l.val = s.val * 32768 + l.val; omega

/-- Window 1 (the first endpoint's coordination number): lane `l` of tile `s` is the array's entry `s · 32768 + l`. -/
theorem blk1_1 (c : Dev nD) (s : Fin 62) (l : Fin 32768) :
    iblk1 V c 1 (pt s) (ix2 0 l) = V c main_v65 (ix2 0 (Cert.Disp.laneEntry s l)) := by
  show V c (Pipeline.arrRef spec1 1) (((cfg1.win 1).blk (pt s)).view.emb (ix2 0 l)) = V c main_v65 _
  refine congrArg (V c main_v65) ?_
  funext a
  refine Fin.ext ?_
  match a with
  | ⟨0, _⟩ =>
    show win1_1.index (pt s) 0 * 1 + 1 * 0 = 0
    rw [(idx1_1 (pt s)).1]
  | ⟨1, _⟩ =>
    show win1_1.index (pt s) 1 * 32768 + 1 * l.val = s.val * 32768 + l.val
    rw [(idx1_1 (pt s)).2]; show s.val * 32768 + 1 * l.val = s.val * 32768 + l.val; omega

/-- Window 2 (the second endpoint's coordination number): lane `l` of tile `s` is the array's entry `s · 32768 + l`. -/
theorem blk1_2 (c : Dev nD) (s : Fin 62) (l : Fin 32768) :
    iblk1 V c 2 (pt s) (ix2 0 l) = V c main_v73 (ix2 0 (Cert.Disp.laneEntry s l)) := by
  show V c (Pipeline.arrRef spec1 2) (((cfg1.win 2).blk (pt s)).view.emb (ix2 0 l)) = V c main_v73 _
  refine congrArg (V c main_v73) ?_
  funext a
  refine Fin.ext ?_
  match a with
  | ⟨0, _⟩ =>
    show win1_2.index (pt s) 0 * 1 + 1 * 0 = 0
    rw [(idx1_2 (pt s)).1]
  | ⟨1, _⟩ =>
    show win1_2.index (pt s) 1 * 32768 + 1 * l.val = s.val * 32768 + l.val
    rw [(idx1_2 (pt s)).2]; show s.val * 32768 + 1 * l.val = s.val * 32768 + l.val; omega

/-- Window 3 (the first endpoint's reference slots): row `p`, lane `l` of tile `s` is the array's entry `(p, s · 32768 + l)`. -/
theorem blk1_3 (c : Dev nD) (s : Fin 62) (p : Fin 5) (l : Fin 32768) :
    iblk1 V c 3 (pt s) (ix2 p l) = V c main_v81 (ix2 p (Cert.Disp.laneEntry s l)) := by
  show V c (Pipeline.arrRef spec1 3) (((cfg1.win 3).blk (pt s)).view.emb (ix2 p l)) = V c main_v81 _
  refine congrArg (V c main_v81) ?_
  funext a
  refine Fin.ext ?_
  match a with
  | ⟨0, _⟩ =>
    show win1_3.index (pt s) 0 * 5 + 1 * p.val = p.val
    rw [(idx1_3 (pt s)).1]; omega
  | ⟨1, _⟩ =>
    show win1_3.index (pt s) 1 * 32768 + 1 * l.val = s.val * 32768 + l.val
    rw [(idx1_3 (pt s)).2]; show s.val * 32768 + 1 * l.val = s.val * 32768 + l.val; omega

/-- Window 4 (the second endpoint's reference slots): row `p`, lane `l` of tile `s` is the array's entry `(p, s · 32768 + l)`. -/
theorem blk1_4 (c : Dev nD) (s : Fin 62) (p : Fin 5) (l : Fin 32768) :
    iblk1 V c 4 (pt s) (ix2 p l) = V c main_v88 (ix2 p (Cert.Disp.laneEntry s l)) := by
  show V c (Pipeline.arrRef spec1 4) (((cfg1.win 4).blk (pt s)).view.emb (ix2 p l)) = V c main_v88 _
  refine congrArg (V c main_v88) ?_
  funext a
  refine Fin.ext ?_
  match a with
  | ⟨0, _⟩ =>
    show win1_4.index (pt s) 0 * 5 + 1 * p.val = p.val
    rw [(idx1_4 (pt s)).1]; omega
  | ⟨1, _⟩ =>
    show win1_4.index (pt s) 1 * 32768 + 1 * l.val = s.val * 32768 + l.val
    rw [(idx1_4 (pt s)).2]; show s.val * 32768 + 1 * l.val = s.val * 32768 + l.val; omega

/-- Window 5 (the C6 table entries): slot pair `(p, q)`, lane `l` of tile `s` is the array's entry `(p, q, s · 32768 + l)`. -/
theorem blk1_5 (c : Dev nD) (s : Fin 62) (p q : Fin 5) (l : Fin 32768) :
    iblk1 V c 5 (pt s) (ix3 p q l) = V c main_v103 (ix3 p q (Cert.Disp.laneEntry s l)) := by
  show V c (Pipeline.arrRef spec1 5) (((cfg1.win 5).blk (pt s)).view.emb (ix3 p q l)) = V c main_v103 _
  refine congrArg (V c main_v103) ?_
  funext a
  refine Fin.ext ?_
  match a with
  | ⟨0, _⟩ =>
    show win1_5.index (pt s) 0 * 5 + 1 * p.val = p.val
    rw [(idx1_5 (pt s)).1]; omega
  | ⟨1, _⟩ =>
    show win1_5.index (pt s) 1 * 5 + 1 * q.val = q.val
    rw [(idx1_5 (pt s)).2.1]; omega
  | ⟨2, _⟩ =>
    show win1_5.index (pt s) 2 * 32768 + 1 * l.val = s.val * 32768 + l.val
    rw [(idx1_5 (pt s)).2.2]; show s.val * 32768 + 1 * l.val = s.val * 32768 + l.val; omega

/-- Window 6 (the first endpoint's r4r2): lane `l` of tile `s` is the array's entry `s · 32768 + l`. -/
theorem blk1_6 (c : Dev nD) (s : Fin 62) (l : Fin 32768) :
    iblk1 V c 6 (pt s) (ix2 0 l) = V c main_v111 (ix2 0 (Cert.Disp.laneEntry s l)) := by
  show V c (Pipeline.arrRef spec1 6) (((cfg1.win 6).blk (pt s)).view.emb (ix2 0 l)) = V c main_v111 _
  refine congrArg (V c main_v111) ?_
  funext a
  refine Fin.ext ?_
  match a with
  | ⟨0, _⟩ =>
    show win1_6.index (pt s) 0 * 1 + 1 * 0 = 0
    rw [(idx1_6 (pt s)).1]
  | ⟨1, _⟩ =>
    show win1_6.index (pt s) 1 * 32768 + 1 * l.val = s.val * 32768 + l.val
    rw [(idx1_6 (pt s)).2]; show s.val * 32768 + 1 * l.val = s.val * 32768 + l.val; omega

/-- Window 7 (the second endpoint's r4r2): lane `l` of tile `s` is the array's entry `s · 32768 + l`. -/
theorem blk1_7 (c : Dev nD) (s : Fin 62) (l : Fin 32768) :
    iblk1 V c 7 (pt s) (ix2 0 l) = V c main_v119 (ix2 0 (Cert.Disp.laneEntry s l)) := by
  show V c (Pipeline.arrRef spec1 7) (((cfg1.win 7).blk (pt s)).view.emb (ix2 0 l)) = V c main_v119 _
  refine congrArg (V c main_v119) ?_
  funext a
  refine Fin.ext ?_
  match a with
  | ⟨0, _⟩ =>
    show win1_7.index (pt s) 0 * 1 + 1 * 0 = 0
    rw [(idx1_7 (pt s)).1]
  | ⟨1, _⟩ =>
    show win1_7.index (pt s) 1 * 32768 + 1 * l.val = s.val * 32768 + l.val
    rw [(idx1_7 (pt s)).2]; show s.val * 32768 + 1 * l.val = s.val * 32768 + l.val; omega

/-- Window 8 (the validity mask): lane `l` of tile `s` is the array's entry `s · 32768 + l`. -/
theorem blk1_8 (c : Dev nD) (s : Fin 62) (l : Fin 32768) :
    iblk1 V c 8 (pt s) (ix2 0 l) = V c main_v7 (ix2 0 (Cert.Disp.laneEntry s l)) := by
  show V c (Pipeline.arrRef spec1 8) (((cfg1.win 8).blk (pt s)).view.emb (ix2 0 l)) = V c main_v7 _
  refine congrArg (V c main_v7) ?_
  funext a
  refine Fin.ext ?_
  match a with
  | ⟨0, _⟩ =>
    show win1_8.index (pt s) 0 * 1 + 1 * 0 = 0
    rw [(idx1_8 (pt s)).1]
  | ⟨1, _⟩ =>
    show win1_8.index (pt s) 1 * 32768 + 1 * l.val = s.val * 32768 + l.val
    rw [(idx1_8 (pt s)).2]; show s.val * 32768 + 1 * l.val = s.val * 32768 + l.val; omega

end Cert.KernelIdeal.Val1

end
-- ==== Proof.KRegion1Defs.lean ====
/-
  The energy region's body at one lane, and over one tile, as functions of the region's nine input blocks:
  the distances, the two coordination numbers, the two rows of five reference slots, the 5×5 table entries,
  the two r4r2 values and the validity mask.  A lane's value is its pair energy times its mask; a tile's is
  the sum over its 32768 lanes.
-/
import proofs.«136451_j74294344286992_1_alg».proof.KernelIdeal
import proofs.«136451_j74294344286992_1_alg».proof.Proof.Spec
import Idealize.ShloMosaic.Lib.ValueIdx

noncomputable section

namespace Cert.KernelIdeal.Val1

open Idealize.ShloMosaic Idealize.ShloMosaic.ValueIdx Cert.KernelIdeal

/-- The masked pair energy at lane `l` of a tile. -/
def laneEnergy (x0 x1 x2 : Vec Ideal S1x32768 .f32) (x3 x4 : Vec Ideal S5x32768 .f32) (x5 : Vec Ideal S5x5x32768 .f32)
    (x6 x7 x8 : Vec Ideal S1x32768 .f32) (l : Fin 32768) : EReal :=
  Cert.Disp.energy (x0 (ix2 0 l))
    (Cert.Disp.c6interp (fun p q => Cert.Disp.weight (x1 (ix2 0 l)) (x2 (ix2 0 l)) (x3 (ix2 p l)) (x4 (ix2 q l))) (fun p q => x5 (ix3 p q l)))
    (x6 (ix2 0 l)) (x7 (ix2 0 l)) * x8 (ix2 0 l)

/-- The sum of a tile's 32768 masked pair energies. -/
def tileSum (x0 x1 x2 : Vec Ideal S1x32768 .f32) (x3 x4 : Vec Ideal S5x32768 .f32) (x5 : Vec Ideal S5x5x32768 .f32)
    (x6 x7 x8 : Vec Ideal S1x32768 .f32) : EReal :=
  ∑ l : Fin 32768, laneEnergy x0 x1 x2 x3 x4 x5 x6 x7 x8 l

end Cert.KernelIdeal.Val1

end
-- ==== Proof.KRegion0.lean ====
/-
  The first of the kernel's two passes, read as whole arrays.

  The pass walks the 2031616 pair columns in 62 blocks of 32768 columns.  At each block it loads the three
  coordinate rows of the two position arrays, the summed covalent radii and the validity mask, and stores
  two rows: the shifted distance of the pair, and the counting function of that distance times the mask.
  Every operation is lane by lane, so what is stored at a lane depends only on the same lane of the loaded
  rows.  Block g of every array is columns 32768 g … 32768 g + 32767, the blocks tile the arrays, and
  therefore after the pass column e of the distance array holds the distance of the points in column e of
  the two position arrays, and column e of the count array holds the counting function of that distance
  and of column e of the radii, times column e of the mask.
-/
import proofs.«136451_j74294344286992_1_alg».proof.Proof.Gen.KernelIdeal.Frame
import proofs.«136451_j74294344286992_1_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Val0

open Cert.KernelIdeal Cert.KernelIdeal.Gen

/-! ## The two results as functions of the four input arrays -/

/-- The distance of the pair in column `e`: the first array holds the starting points, the second the end points. -/
def rAt (A0 A1 : (⟨2, ![3, 2031616]⟩ : Shape).Idx → EReal) (e : Fin 2031616) : EReal :=
  Cert.Disp.dist (A0 (ix2 0 e)) (A0 (ix2 1 e)) (A0 (ix2 2 e)) (A1 (ix2 0 e)) (A1 (ix2 1 e)) (A1 (ix2 2 e))

/-- The masked counting function of the pair in column `e`. -/
def cfAt (A0 A1 : (⟨2, ![3, 2031616]⟩ : Shape).Idx → EReal) (A2 A3 : (⟨2, ![1, 2031616]⟩ : Shape).Idx → EReal)
    (e : Fin 2031616) : EReal :=
  Cert.Disp.count (rAt A0 A1 e) (A2 (ix2 0 e)) * A3 (ix2 0 e)

/-! ## What the body stores at a lane -/

theorem hz : (![0, 0] : Fin 2 → Nat) = fun _ => 0 := funext fun a => by fin_cases a <;> rfl

/-- Row 0 of a position block, read through its one-row rectangle. -/
theorem ld_row0 (x : Vec Ideal S3x32768 .f32) (l : Fin 32768) : View.ld x r0_0 (ix2 0 l) = x (ix2 0 l) := by
  show x (r0_0.idx (ix2 0 l)) = x (ix2 0 l)
  refine congrArg x ?_
  funext a; apply Fin.ext
  match a with
  | ⟨0, _⟩ => rfl
  | ⟨1, _⟩ => show 0 + 1 * l.val = l.val; omega

/-- Row 1 of a position block. -/
theorem ld_row1 (x : Vec Ideal S3x32768 .f32) (l : Fin 32768) : View.ld x r0_1 (ix2 0 l) = x (ix2 1 l) := by
  show x (r0_1.idx (ix2 0 l)) = x (ix2 1 l)
  refine congrArg x ?_
  funext a; apply Fin.ext
  match a with
  | ⟨0, _⟩ => rfl
  | ⟨1, _⟩ => show 0 + 1 * l.val = l.val; omega

/-- Row 2 of a position block. -/
theorem ld_row2 (x : Vec Ideal S3x32768 .f32) (l : Fin 32768) : View.ld x r0_2 (ix2 0 l) = x (ix2 2 l) := by
  show x (r0_2.idx (ix2 0 l)) = x (ix2 2 l)
  refine congrArg x ?_
  funext a; apply Fin.ext
  match a with
  | ⟨0, _⟩ => rfl
  | ⟨1, _⟩ => show 0 + 1 * l.val = l.val; omega

/-- A one-row block read through the rectangle of all of it is the block. -/
theorem ld_full (x : Vec Ideal S1x32768 .f32) (j : S1x32768.Idx) : View.ld x r0_3 j = x j :=
  congrFun (View.ld_unit_zero (S := S1x32768) hz _ x) j

/-- The distance payload at a lane: the body subtracts the first array's row from the second's, squares,
    adds the three squares and the shift, and takes the root, in the order the distance formula is written. -/
theorem pay2_at (v0 v2 v5 v7 v10 v12 : Vec Ideal S1x32768 .f32) (j : S1x32768.Idx) :
    k0_pay2 v0 v2 v5 v7 v10 v12 j = Cert.Disp.dist (v2 j) (v7 j) (v12 j) (v0 j) (v5 j) (v10 j) := by
  unfold k0_pay2
  simp only [shapeCast_self]
  rfl

/-- The stored count at a lane: the cutoff test selects between the sigmoid of the scaled ratio and zero,
    and the result is multiplied by the mask row. -/
theorem pay1_at (v0 v2 v5 v7 v10 v12 v23 v39 : Vec Ideal S1x32768 .f32) (j : S1x32768.Idx) :
    k0_pay1 (k0_pay3 v0 v2 v5 v7 v10 v12) (k0_pay4 v0 v2 v5 v7 v10 v12 v23) (k0_pay5 (F := Ideal)) v39 j
      = Cert.Disp.count (Cert.Disp.dist (v2 j) (v7 j) (v12 j) (v0 j) (v5 j) (v10 j)) (v23 j) * v39 j := by
  unfold k0_pay1 k0_pay3 k0_pay4 k0_pay5
  simp only [shapeCast_self]
  show Scalar.select (Ideal.cmp .olt (k0_pay2 v0 v2 v5 v7 v10 v12 j) _) (Ideal.div _ (_ + Ideal.exp (_ * (Ideal.div (v23 j) (k0_pay2 v0 v2 v5 v7 v10 v12 j) - _)))) _ * v39 j = _
  rw [pay2_at]
  rfl

/-- The distance row the body leaves, at lane `l`, from the blocks it loaded. -/
theorem out5_at (x0 x1 : Vec Ideal S3x32768 .f32) (x2 x3 : Vec Ideal S1x32768 .f32) (l : Fin 32768) :
    out0_5 x0 x1 x2 x3 (ix2 0 l)
      = Cert.Disp.dist (x0 (ix2 0 l)) (x0 (ix2 1 l)) (x0 (ix2 2 l)) (x1 (ix2 0 l)) (x1 (ix2 1 l)) (x1 (ix2 2 l)) := by
  unfold out0_5
  rw [View.canon_unit_zero hz, pay2_at, ld_row0, ld_row0, ld_row1, ld_row1, ld_row2, ld_row2]

/-- The count row the body leaves, at lane `l`, from the blocks it loaded. -/
theorem out4_at (x0 x1 : Vec Ideal S3x32768 .f32) (x2 x3 : Vec Ideal S1x32768 .f32) (l : Fin 32768) :
    out0_4 x0 x1 x2 x3 (ix2 0 l)
      = Cert.Disp.count (Cert.Disp.dist (x0 (ix2 0 l)) (x0 (ix2 1 l)) (x0 (ix2 2 l)) (x1 (ix2 0 l)) (x1 (ix2 1 l)) (x1 (ix2 2 l)))
          (x2 (ix2 0 l)) * x3 (ix2 0 l) := by
  unfold out0_4
  rw [View.canon_unit_zero hz, pay1_at, ld_row0, ld_row0, ld_row1, ld_row1, ld_row2, ld_row2, ld_full, ld_full]

/-! ## From blocks to arrays -/

/-- Over variables: when lane `l` of the loaded position blocks is column `e` of the arrays, the distance row at lane `l`
    is the distance of column `e`. -/
theorem blk_r (A0 A1 : (⟨2, ![3, 2031616]⟩ : Shape).Idx → EReal) (x0 x1 : Vec Ideal S3x32768 .f32) (x2 x3 : Vec Ideal S1x32768 .f32)
    (l : Fin 32768) (e : Fin 2031616)
    (h0 : ∀ k : Fin 3, x0 (ix2 k l) = A0 (ix2 k e)) (h1 : ∀ k : Fin 3, x1 (ix2 k l) = A1 (ix2 k e)) :
    out0_5 x0 x1 x2 x3 (ix2 0 l) = rAt A0 A1 e := by
  rw [out5_at, h0 0, h0 1, h0 2, h1 0, h1 1, h1 2]; rfl

/-- The same for the count row, with the radii and mask blocks. -/
theorem blk_cf (A0 A1 : (⟨2, ![3, 2031616]⟩ : Shape).Idx → EReal) (A2 A3 : (⟨2, ![1, 2031616]⟩ : Shape).Idx → EReal)
    (x0 x1 : Vec Ideal S3x32768 .f32) (x2 x3 : Vec Ideal S1x32768 .f32)
    (l : Fin 32768) (e : Fin 2031616)
    (h0 : ∀ k : Fin 3, x0 (ix2 k l) = A0 (ix2 k e)) (h1 : ∀ k : Fin 3, x1 (ix2 k l) = A1 (ix2 k e))
    (h2 : x2 (ix2 0 l) = A2 (ix2 0 e)) (h3 : x3 (ix2 0 l) = A3 (ix2 0 e)) :
    out0_4 x0 x1 x2 x3 (ix2 0 l) = cfAt A0 A1 A2 A3 e := by
  rw [out4_at, h0 0, h0 1, h0 2, h1 0, h1 1, h1 2, h2, h3]; rfl

/-- The printed index maps, decided once over the 62 points: every window's block index at point `t` is `(0, t)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

section Blocks

variable (V : (c : Dev nD) → (b : Ref sig .tc) → Buf (Elt Ideal) ((c : Thread nD τ).loc b))

/-- Block `t` of the first position array: row `k`, lane `l` is row `k`, column `32768 t + l` of the array. -/
theorem iblk_0 (c : Dev nD) (t : Fin cfg0.N) (k : Fin 3) (l : Fin 32768) (e : Fin 2031616) (he : e.val = t.val * 32768 + l.val) :
    (iblk0 (F := Ideal) V c 0 t : Vec Ideal S3x32768 .f32) (ix2 k l)
      = (V c (Pipeline.arrRef spec0 0) : (⟨2, ![3, 2031616]⟩ : Shape).Idx → EReal) (ix2 k e) := by
  obtain ⟨e0, e1, -⟩ := idx_facts t
  show (V c (Pipeline.arrRef spec0 0) : (⟨2, ![3, 2031616]⟩ : Shape).Idx → EReal) (((cfg0.win 0).blk t).view.emb (ix2 k l)) = _
  refine congrArg _ ?_
  funext a; apply Fin.ext
  match a with
  | ⟨0, _⟩ => show win0_0.index t (0 : Fin 2) * 3 + 1 * k.val = k.val; rw [e0]; omega
  | ⟨1, _⟩ => show win0_0.index t (1 : Fin 2) * 32768 + 1 * l.val = e.val; rw [e1, he]; omega

/-- Block `t` of the second position array, likewise. -/
theorem iblk_1 (c : Dev nD) (t : Fin cfg0.N) (k : Fin 3) (l : Fin 32768) (e : Fin 2031616) (he : e.val = t.val * 32768 + l.val) :
    (iblk0 (F := Ideal) V c 1 t : Vec Ideal S3x32768 .f32) (ix2 k l)
      = (V c (Pipeline.arrRef spec0 1) : (⟨2, ![3, 2031616]⟩ : Shape).Idx → EReal) (ix2 k e) := by
  obtain ⟨-, -, e0, e1, -⟩ := idx_facts t
  show (V c (Pipeline.arrRef spec0 1) : (⟨2, ![3, 2031616]⟩ : Shape).Idx → EReal) (((cfg0.win 1).blk t).view.emb (ix2 k l)) = _
  refine congrArg _ ?_
  funext a; apply Fin.ext
  match a with
  | ⟨0, _⟩ => show win0_1.index t (0 : Fin 2) * 3 + 1 * k.val = k.val; rw [e0]; omega
  | ⟨1, _⟩ => show win0_1.index t (1 : Fin 2) * 32768 + 1 * l.val = e.val; rw [e1, he]; omega

/-- Block `t` of the radii row: lane `l` is column `32768 t + l`. -/
theorem iblk_2 (c : Dev nD) (t : Fin cfg0.N) (l : Fin 32768) (e : Fin 2031616) (he : e.val = t.val * 32768 + l.val) :
    (iblk0 (F := Ideal) V c 2 t : Vec Ideal S1x32768 .f32) (ix2 0 l)
      = (V c (Pipeline.arrRef spec0 2) : (⟨2, ![1, 2031616]⟩ : Shape).Idx → EReal) (ix2 0 e) := by
  obtain ⟨-, -, -, -, e0, e1, -⟩ := idx_facts t
  show (V c (Pipeline.arrRef spec0 2) : (⟨2, ![1, 2031616]⟩ : Shape).Idx → EReal) (((cfg0.win 2).blk t).view.emb (ix2 0 l)) = _
  refine congrArg _ ?_
  funext a; apply Fin.ext
  match a with
  | ⟨0, _⟩ => show win0_2.index t (0 : Fin 2) * 1 + 1 * 0 = 0; rw [e0]
  | ⟨1, _⟩ => show win0_2.index t (1 : Fin 2) * 32768 + 1 * l.val = e.val; rw [e1, he]; omega

/-- Block `t` of the mask row, likewise. -/
theorem iblk_3 (c : Dev nD) (t : Fin cfg0.N) (l : Fin 32768) (e : Fin 2031616) (he : e.val = t.val * 32768 + l.val) :
    (iblk0 (F := Ideal) V c 3 t : Vec Ideal S1x32768 .f32) (ix2 0 l)
      = (V c (Pipeline.arrRef spec0 3) : (⟨2, ![1, 2031616]⟩ : Shape).Idx → EReal) (ix2 0 e) := by
  obtain ⟨-, -, -, -, -, -, e0, e1, -⟩ := idx_facts t
  show (V c (Pipeline.arrRef spec0 3) : (⟨2, ![1, 2031616]⟩ : Shape).Idx → EReal) (((cfg0.win 3).blk t).view.emb (ix2 0 l)) = _
  refine congrArg _ ?_
  funext a; apply Fin.ext
  match a with
  | ⟨0, _⟩ => show win0_3.index t (0 : Fin 2) * 1 + 1 * 0 = 0; rw [e0]
  | ⟨1, _⟩ => show win0_3.index t (1 : Fin 2) * 32768 + 1 * l.val = e.val; rw [e1, he]; omega

/-- The distance array as one function of the two position arrays. -/
abbrev rArr (c : Dev nD) : (⟨2, ![1, 2031616]⟩ : Shape).Idx → EReal :=
  fun j => rAt (V c (Pipeline.arrRef spec0 0)) (V c (Pipeline.arrRef spec0 1)) (j 1)

/-- The count array as one function of the four input arrays. -/
abbrev cfArr (c : Dev nD) : (⟨2, ![1, 2031616]⟩ : Shape).Idx → EReal :=
  fun j => cfAt (V c (Pipeline.arrRef spec0 0)) (V c (Pipeline.arrRef spec0 1)) (V c (Pipeline.arrRef spec0 2)) (V c (Pipeline.arrRef spec0 3)) (j 1)

/-- What point `t` writes back to the distance array is block `t` of `rArr`. -/
theorem flushed_r (c : Dev nD) (t : Fin cfg0.N) :
    (dat0 (F := Ideal) V c).flushed 5 t = ((cfg0.win 5).blk t).view.read (Elt Ideal) (rArr V c) := by
  have hN : cfg0.N = 62 := N_0
  have ht : t.val < 62 := hN ▸ t.isLt
  obtain ⟨-, -, -, -, -, -, -, -, -, -, e0, e1⟩ := idx_facts t
  show (cfg0.win 5).cut (grid0.coords t) ((dat0 V c).after 5 t) = _
  rw [after0_5]
  funext y
  have hy0 : (y 0).val < 1 := (y 0).isLt
  have hy1 : (y 1).val < 32768 := (y 1).isLt
  have hx : (cfg0.win 5).xinj (grid0.coords t) y = (ix2 0 ⟨(y 1).val, hy1⟩ : S1x32768.Idx) := by
    funext a; apply Fin.ext
    match a with
    | ⟨0, _⟩ => show (y 0).val = 0; omega
    | ⟨1, _⟩ => rfl
  show out0_5 (iblk0 V c 0 t) (iblk0 V c 1 t) (iblk0 V c 2 t) (iblk0 V c 3 t) ((cfg0.win 5).xinj (grid0.coords t) y)
    = rAt (V c (Pipeline.arrRef spec0 0)) (V c (Pipeline.arrRef spec0 1)) ((((cfg0.win 5).blk t).view.emb y) 1)
  refine (congrArg (out0_5 (iblk0 V c 0 t) (iblk0 V c 1 t) (iblk0 V c 2 t) (iblk0 V c 3 t)) hx).trans ?_
  refine (blk_r (V c (Pipeline.arrRef spec0 0)) (V c (Pipeline.arrRef spec0 1)) (iblk0 V c 0 t) (iblk0 V c 1 t) (iblk0 V c 2 t) (iblk0 V c 3 t)
    ⟨(y 1).val, hy1⟩ ⟨t.val * 32768 + (y 1).val, by omega⟩
    (fun k => iblk_0 V c t k ⟨(y 1).val, hy1⟩ ⟨t.val * 32768 + (y 1).val, by omega⟩ rfl)
    (fun k => iblk_1 V c t k ⟨(y 1).val, hy1⟩ ⟨t.val * 32768 + (y 1).val, by omega⟩ rfl)).trans ?_
  refine congrArg (rAt (V c (Pipeline.arrRef spec0 0)) (V c (Pipeline.arrRef spec0 1))) (Fin.ext ?_)
  show t.val * 32768 + (y 1).val = win0_5.index t (1 : Fin 2) * 32768 + 1 * (y 1).val
  rw [e1]; omega

/-- What point `t` writes back to the count array is block `t` of `cfArr`. -/
theorem flushed_cf (c : Dev nD) (t : Fin cfg0.N) :
    (dat0 (F := Ideal) V c).flushed 4 t = ((cfg0.win 4).blk t).view.read (Elt Ideal) (cfArr V c) := by
  have hN : cfg0.N = 62 := N_0
  have ht : t.val < 62 := hN ▸ t.isLt
  obtain ⟨-, -, -, -, -, -, -, -, e0, e1, -⟩ := idx_facts t
  show (cfg0.win 4).cut (grid0.coords t) ((dat0 V c).after 4 t) = _
  rw [after0_4]
  funext y
  have hy0 : (y 0).val < 1 := (y 0).isLt
  have hy1 : (y 1).val < 32768 := (y 1).isLt
  have hx : (cfg0.win 4).xinj (grid0.coords t) y = (ix2 0 ⟨(y 1).val, hy1⟩ : S1x32768.Idx) := by
    funext a; apply Fin.ext
    match a with
    | ⟨0, _⟩ => show (y 0).val = 0; omega
    | ⟨1, _⟩ => rfl
  show out0_4 (iblk0 V c 0 t) (iblk0 V c 1 t) (iblk0 V c 2 t) (iblk0 V c 3 t) ((cfg0.win 4).xinj (grid0.coords t) y)
    = cfAt (V c (Pipeline.arrRef spec0 0)) (V c (Pipeline.arrRef spec0 1)) (V c (Pipeline.arrRef spec0 2)) (V c (Pipeline.arrRef spec0 3))
        ((((cfg0.win 4).blk t).view.emb y) 1)
  refine (congrArg (out0_4 (iblk0 V c 0 t) (iblk0 V c 1 t) (iblk0 V c 2 t) (iblk0 V c 3 t)) hx).trans ?_
  refine (blk_cf (V c (Pipeline.arrRef spec0 0)) (V c (Pipeline.arrRef spec0 1)) (V c (Pipeline.arrRef spec0 2)) (V c (Pipeline.arrRef spec0 3))
    (iblk0 V c 0 t) (iblk0 V c 1 t) (iblk0 V c 2 t) (iblk0 V c 3 t)
    ⟨(y 1).val, hy1⟩ ⟨t.val * 32768 + (y 1).val, by omega⟩
    (fun k => iblk_0 V c t k ⟨(y 1).val, hy1⟩ ⟨t.val * 32768 + (y 1).val, by omega⟩ rfl)
    (fun k => iblk_1 V c t k ⟨(y 1).val, hy1⟩ ⟨t.val * 32768 + (y 1).val, by omega⟩ rfl)
    (iblk_2 V c t ⟨(y 1).val, hy1⟩ ⟨t.val * 32768 + (y 1).val, by omega⟩ rfl)
    (iblk_3 V c t ⟨(y 1).val, hy1⟩ ⟨t.val * 32768 + (y 1).val, by omega⟩ rfl)).trans ?_
  refine congrArg (cfAt (V c (Pipeline.arrRef spec0 0)) (V c (Pipeline.arrRef spec0 1)) (V c (Pipeline.arrRef spec0 2)) (V c (Pipeline.arrRef spec0 3))) (Fin.ext ?_)
  show t.val * 32768 + (y 1).val = win0_4.index t (1 : Fin 2) * 32768 + 1 * (y 1).val
  rw [e1]; omega

end Blocks

/-! ## The blocks tile the arrays -/

/-- A column of the count array is in point `t`'s block iff each coordinate is in the block's range on its axis. -/
theorem mem_blk4 (t : Fin cfg0.N) (i : (⟨2, ![1, 2031616]⟩ : Shape).Idx) :
    i ∈ ((cfg0.win 4).blk t).view.set ↔ ∀ a : Fin 2, win0_4.index t a * S1x32768.size a ≤ (i a).val ∧ (i a).val < win0_4.index t a * S1x32768.size a + S1x32768.size a := by
  show i ∈ ((View.whole main_v53_0).slice (win0_4.rect t)).set ↔ _
  rw [View.set_slice_whole, Rect.mem_set_unit]
  exact Iff.rfl

/-- The same for the distance array. -/
theorem mem_blk5 (t : Fin cfg0.N) (i : (⟨2, ![1, 2031616]⟩ : Shape).Idx) :
    i ∈ ((cfg0.win 5).blk t).view.set ↔ ∀ a : Fin 2, win0_5.index t a * S1x32768.size a ≤ (i a).val ∧ (i a).val < win0_5.index t a * S1x32768.size a + S1x32768.size a := by
  show i ∈ ((View.whole main_v53_1).slice (win0_5.rect t)).set ↔ _
  rw [View.set_slice_whole, Rect.mem_set_unit]
  exact Iff.rfl

/-- Column `e` of the count array lies in the block of point `e / 32768`, which is written back. -/
theorem cover4 (i : (⟨2, ![1, 2031616]⟩ : Shape).Idx) :
    ∃ t : Fin cfg0.N, (cfg0.win 4).flush t = true ∧ i ∈ ((cfg0.win 4).blk t).view.set := by
  have hN : cfg0.N = 62 := N_0
  have hi0 : (i 0).val < 1 := (i 0).isLt
  have hi1 : (i 1).val < 2031616 := (i 1).isLt
  obtain ⟨t, htv⟩ : ∃ t : Fin cfg0.N, t.val = (i 1).val / 32768 := ⟨⟨(i 1).val / 32768, by rw [hN]; omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; rw [e0]; omega
  | ⟨1, _⟩ => show win0_4.index t (1 : Fin 2) * 32768 ≤ (i 1).val ∧ (i 1).val < win0_4.index t (1 : Fin 2) * 32768 + 32768; rw [e1, htv]; omega

/-- The same for the distance array. -/
theorem cover5 (i : (⟨2, ![1, 2031616]⟩ : Shape).Idx) :
    ∃ t : Fin cfg0.N, (cfg0.win 5).flush t = true ∧ i ∈ ((cfg0.win 5).blk t).view.set := by
  have hN : cfg0.N = 62 := N_0
  have hi0 : (i 0).val < 1 := (i 0).isLt
  have hi1 : (i 1).val < 2031616 := (i 1).isLt
  obtain ⟨t, htv⟩ : ∃ t : Fin cfg0.N, t.val = (i 1).val / 32768 := ⟨⟨(i 1).val / 32768, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 32768 ≤ (i 1).val ∧ (i 1).val < win0_5.index t (1 : Fin 2) * 32768 + 32768; rw [e1, htv]; omega

/-! ## The two arrays after the pass -/

section Arrays

variable (V : (c : Dev nD) → (b : Ref sig .tc) → Buf (Elt Ideal) ((c : Thread nD τ).loc b))

/-- THE COUNT ARRAY after the pass: column `e` holds the masked counting function of column `e` of the four inputs. -/
theorem arr_cf (c : Dev nD) :
    (dat0 (F := Ideal) V c).arrAt 4 cfg0.N
      = fun j => cfAt (V c (Pipeline.arrRef spec0 0)) (V c (Pipeline.arrRef spec0 1)) (V c (Pipeline.arrRef spec0 2)) (V c (Pipeline.arrRef spec0 3)) (j 1) :=
  (dat0 (F := Ideal) V c).arrAt_eq_of_cover 4 (cfArr V c) (fun t _ => flushed_cf V c t) cover4

/-- THE DISTANCE ARRAY after the pass: column `e` holds the distance of the points in column `e` of the two position arrays. -/
theorem arr_r (c : Dev nD) :
    (dat0 (F := Ideal) V c).arrAt 5 cfg0.N
      = fun j => rAt (V c (Pipeline.arrRef spec0 0)) (V c (Pipeline.arrRef spec0 1)) (j 1) :=
  (dat0 (F := Ideal) V c).arrAt_eq_of_cover 5 (rArr V c) (fun t _ => flushed_r V c t) cover5

end Arrays

end Cert.KernelIdeal.Val0

end
-- ==== Proof.KValue.lean ====
/-
  The kernel's result as the padded total.

  The result is one half of the energy region's 1×1 output, which after the last grid point holds the sum
  over the 62 tiles of each tile's sum of masked pair energies.  A lane's energy is a function of the same
  lane of nine arrays.  The distance array is what the counting region left; the two coordination-number
  arrays are accumulated from the count array that region left; the remaining arrays are table entries
  looked up at the padded index words.  Entry by entry these are the ingredients of the padded lane
  energy, so each tile's sum is the sum of the padded lane energies of its lanes, and the result is the
  padded total.
-/
import proofs.«136451_j74294344286992_1_alg».proof.Proof.Gen.KernelIdeal.Frame
import proofs.«136451_j74294344286992_1_alg».proof.Proof.KTail
import proofs.«136451_j74294344286992_1_alg».proof.Proof.KRegion1Arr
import proofs.«136451_j74294344286992_1_alg».proof.Proof.KRegion1Blk
import proofs.«136451_j74294344286992_1_alg».proof.Proof.KRegion1Defs
import proofs.«136451_j74294344286992_1_alg».proof.Proof.KRegion0
import proofs.«136451_j74294344286992_1_alg».proof.Proof.Padded

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Val1 Cert.KernelIdeal.Val0 Cert.Disp

variable (m : (ℓ : Loc nD τ sig) → Buf (Elt Ideal) ℓ) (ρ : Dev nD → PrngReg) (c : Dev nD)

/-! ## The eight arguments as the launch memory holds them -/

/-- The atoms' positions. -/
abbrev argP : (⟨2, ![50000, 3]⟩ : Shape).Idx → EReal := m ((c : Thread nD τ).loc main_arg0)
/-- The atoms' element numbers. -/
abbrev argZ : (⟨1, ![50000]⟩ : Shape).Idx → BitVec 32 := m ((c : Thread nD τ).loc main_arg1)
/-- The pairs' first index words. -/
abbrev argI : (⟨1, ![2000000]⟩ : Shape).Idx → BitVec 32 := m ((c : Thread nD τ).loc main_arg2)
/-- The pairs' second index words. -/
abbrev argJ : (⟨1, ![2000000]⟩ : Shape).Idx → BitVec 32 := m ((c : Thread nD τ).loc main_arg3)
/-- The covalent radii. -/
abbrev argRC : (⟨1, ![95]⟩ : Shape).Idx → EReal := m ((c : Thread nD τ).loc main_arg4)
/-- The r4r2 table. -/
abbrev argR4 : (⟨1, ![95]⟩ : Shape).Idx → EReal := m ((c : Thread nD τ).loc main_arg5)
/-- The C6 table. -/
abbrev argC6 : (⟨4, ![95, 95, 5, 5]⟩ : Shape).Idx → EReal := m ((c : Thread nD τ).loc main_arg6)
/-- The reference coordination numbers. -/
abbrev argCR : (⟨2, ![95, 5]⟩ : Shape).Idx → EReal := m ((c : Thread nD τ).loc main_arg7)

/-! ## A lane's energy from its nine ingredients -/

/-- Over variables: when lane `l` of the nine blocks holds the distance, the two coordination numbers, the two rows of
    reference slots, the table entries, the two r4r2 values and the mask, the lane's energy is the masked pair energy of
    those ingredients. -/
theorem lane_of (x0 x1 x2 : Vec Ideal S1x32768 .f32) (x3 x4 : Vec Ideal S5x32768 .f32) (x5 : Vec Ideal S5x5x32768 .f32)
    (x6 x7 x8 : Vec Ideal S1x32768 .f32) (l : Fin 32768)
    (d cni cnj qa qb mk : EReal) (ra rb : Fin 5 → EReal) (cc : Fin 5 → Fin 5 → EReal)
    (h0 : x0 (ix2 0 l) = d) (h1 : x1 (ix2 0 l) = cni) (h2 : x2 (ix2 0 l) = cnj)
    (h3 : ∀ p : Fin 5, x3 (ix2 p l) = ra p) (h4 : ∀ q : Fin 5, x4 (ix2 q l) = rb q)
    (h5 : ∀ p q : Fin 5, x5 (ix3 p q l) = cc p q)
    (h6 : x6 (ix2 0 l) = qa) (h7 : x7 (ix2 0 l) = qb) (h8 : x8 (ix2 0 l) = mk) :
    laneEnergy x0 x1 x2 x3 x4 x5 x6 x7 x8 l
      = energy d (c6interp (fun p q => weight cni cnj (ra p) (rb q)) (fun p q => cc p q)) qa qb * mk := by
  unfold laneEnergy
  rw [h0, h1, h2, h6, h7, h8]
  have e3 : (fun p q : Fin 5 => weight cni cnj (x3 (ix2 p l)) (x4 (ix2 q l))) = fun p q => weight cni cnj (ra p) (rb q) :=
    funext fun p => funext fun q => by rw [h3 p, h4 q]
  have e5 : (fun p q : Fin 5 => x5 (ix3 p q l)) = fun p q => cc p q := funext fun p => funext fun q => h5 p q
  rw [e3, e5]

/-- The coordination numbers accumulated from an array that holds the padded masked counts are the padded coordination numbers. -/
theorem cnOver_of (cf : (⟨2, ![1, 2031616]⟩ : Shape).Idx → EReal)
    (P : (⟨2, ![50000, 3]⟩ : Shape).Idx → EReal) (Z : (⟨1, ![50000]⟩ : Shape).Idx → BitVec 32)
    (I J : (⟨1, ![2000000]⟩ : Shape).Idx → BitVec 32) (RC : (⟨1, ![95]⟩ : Shape).Idx → EReal)
    (hcf : ∀ e : Fin 2031616, cf (ix2 0 e) = cfPad P Z I J RC e) (k : Fin 50000) :
    cnOver cf I k = cnPad P Z I J RC k := by
  unfold cnOver cnPad
  exact congrArg _ (Finset.sum_congr rfl fun e _ => hcf e)

/-! ## The counting region's two arrays, entry by entry -/

/-- The distance array the counting region leaves: entry `e` is the distance of the pair the padded index words name. -/
theorem w2_dist
    (h29 : ∀ (e : Fin 2031616) (k : Fin 3), V1 m ρ c main_v29 (ix2 k e) = (argP m c) (ix2 (atomOf (padI (argI m c) e)) k))
    (h36 : ∀ (e : Fin 2031616) (k : Fin 3), V1 m ρ c main_v36 (ix2 k e) = (argP m c) (ix2 (atomOf (padI (argJ m c) e)) k))
    (e : Fin 2031616) :
    (W2 m ρ c (Proc.devRef .tc main_v53_1) : (⟨2, ![1, 2031616]⟩ : Shape).Idx → EReal) (ix2 0 e)
      = distAt (argP m c) (padI (argI m c) e) (padI (argJ m c) e) := by
  refine (congrFun ((W2_arr m ρ c 5).trans (arr_r (V1 m ρ) c)) (ix2 0 e)).trans ?_
  show rAt (V1 m ρ c main_v29) (V1 m ρ c main_v36) e = _
  unfold rAt distAt
  rw [h29 e 0, h29 e 1, h29 e 2, h36 e 0, h36 e 1, h36 e 2]

/-- The count array the counting region leaves: entry `e` is the padded masked count. -/
theorem w2_count
    (h29 : ∀ (e : Fin 2031616) (k : Fin 3), V1 m ρ c main_v29 (ix2 k e) = (argP m c) (ix2 (atomOf (padI (argI m c) e)) k))
    (h36 : ∀ (e : Fin 2031616) (k : Fin 3), V1 m ρ c main_v36 (ix2 k e) = (argP m c) (ix2 (atomOf (padI (argJ m c) e)) k))
    (h52 : ∀ e : Fin 2031616, V1 m ρ c main_v52 (ix2 0 e) = (argRC m c) (ix1 (elemAt (argZ m c) (atomOf (padI (argI m c) e)))) + (argRC m c) (ix1 (elemAt (argZ m c) (atomOf (padI (argJ m c) e)))))
    (h7 : ∀ e : Fin 2031616, V1 m ρ c main_v7 (ix2 0 e) = maskAt e)
    (e : Fin 2031616) :
    (W2 m ρ c (Proc.devRef .tc main_v53_0) : (⟨2, ![1, 2031616]⟩ : Shape).Idx → EReal) (ix2 0 e)
      = cfPad (argP m c) (argZ m c) (argI m c) (argJ m c) (argRC m c) e := by
  refine (congrFun ((W2_arr m ρ c 4).trans (arr_cf (V1 m ρ) c)) (ix2 0 e)).trans ?_
  show cfAt (V1 m ρ c main_v29) (V1 m ρ c main_v36) (V1 m ρ c main_v52) (V1 m ρ c main_v7) e = _
  unfold cfAt rAt cfPad countAt distAt
  rw [h29 e 0, h29 e 1, h29 e 2, h36 e 0, h36 e 1, h36 e 2, h52 e, h7 e]

/-! ## A lane of the energy region -/

/-- Lane `l` of tile `s`: its energy is the padded lane energy of entry `32768 s + l`. -/
theorem lane_eq
    (h29 : ∀ (e : Fin 2031616) (k : Fin 3), V1 m ρ c main_v29 (ix2 k e) = (argP m c) (ix2 (atomOf (padI (argI m c) e)) k))
    (h36 : ∀ (e : Fin 2031616) (k : Fin 3), V1 m ρ c main_v36 (ix2 k e) = (argP m c) (ix2 (atomOf (padI (argJ m c) e)) k))
    (h52 : ∀ e : Fin 2031616, V1 m ρ c main_v52 (ix2 0 e) = (argRC m c) (ix1 (elemAt (argZ m c) (atomOf (padI (argI m c) e)))) + (argRC m c) (ix1 (elemAt (argZ m c) (atomOf (padI (argJ m c) e)))))
    (h7 : ∀ e : Fin 2031616, V1 m ρ c main_v7 (ix2 0 e) = maskAt e)
    (g53 : V3 m ρ c main_v53_1 = W2 m ρ c (Proc.devRef .tc main_v53_1))
    (g65 : ∀ e : Fin 2031616, V3 m ρ c main_v65 (ix2 0 e) = cnOver (W2 m ρ c (Proc.devRef .tc main_v53_0)) (argI m c) (atomOf (padI (argI m c) e)))
    (g73 : ∀ e : Fin 2031616, V3 m ρ c main_v73 (ix2 0 e) = cnOver (W2 m ρ c (Proc.devRef .tc main_v53_0)) (argI m c) (atomOf (padI (argJ m c) e)))
    (g81 : ∀ (e : Fin 2031616) (p : Fin 5), V3 m ρ c main_v81 (ix2 p e) = (argCR m c) (ix2 (elemAt (argZ m c) (atomOf (padI (argI m c) e))) p))
    (g88 : ∀ (e : Fin 2031616) (q : Fin 5), V3 m ρ c main_v88 (ix2 q e) = (argCR m c) (ix2 (elemAt (argZ m c) (atomOf (padI (argJ m c) e))) q))
    (g103 : ∀ (e : Fin 2031616) (p q : Fin 5), V3 m ρ c main_v103 (ix3 p q e) = (argC6 m c) (ix4 (elemAt (argZ m c) (atomOf (padI (argI m c) e))) (elemAt (argZ m c) (atomOf (padI (argJ m c) e))) p q))
    (g111 : ∀ e : Fin 2031616, V3 m ρ c main_v111 (ix2 0 e) = (argR4 m c) (ix1 (elemAt (argZ m c) (atomOf (padI (argI m c) e)))))
    (g119 : ∀ e : Fin 2031616, V3 m ρ c main_v119 (ix2 0 e) = (argR4 m c) (ix1 (elemAt (argZ m c) (atomOf (padI (argJ m c) e)))))
    (g7 : ∀ e : Fin 2031616, V3 m ρ c main_v7 (ix2 0 e) = maskAt e)
    (s : Fin 62) (l : Fin 32768) :
    laneEnergy (iblk1 (V3 m ρ) c 0 (pt s)) (iblk1 (V3 m ρ) c 1 (pt s)) (iblk1 (V3 m ρ) c 2 (pt s)) (iblk1 (V3 m ρ) c 3 (pt s)) (iblk1 (V3 m ρ) c 4 (pt s)) (iblk1 (V3 m ρ) c 5 (pt s)) (iblk1 (V3 m ρ) c 6 (pt s)) (iblk1 (V3 m ρ) c 7 (pt s)) (iblk1 (V3 m ρ) c 8 (pt s)) l
      = lanePad (argP m c) (argZ m c) (argI m c) (argJ m c) (argRC m c) (argR4 m c) (argC6 m c) (argCR m c) (laneEntry s l) := by
  have hcf := w2_count m ρ c h29 h36 h52 h7
  have e0 := (blk1_0 (V3 m ρ) c s l).trans ((congrFun g53 (ix2 0 (laneEntry s l))).trans (w2_dist m ρ c h29 h36 (laneEntry s l)))
  have e1 := (blk1_1 (V3 m ρ) c s l).trans ((g65 (laneEntry s l)).trans (cnOver_of _ (argP m c) (argZ m c) (argI m c) (argJ m c) (argRC m c) hcf _))
  have e2 := (blk1_2 (V3 m ρ) c s l).trans ((g73 (laneEntry s l)).trans (cnOver_of _ (argP m c) (argZ m c) (argI m c) (argJ m c) (argRC m c) hcf _))
  have e3 := fun p : Fin 5 => (blk1_3 (V3 m ρ) c s p l).trans (g81 (laneEntry s l) p)
  have e4 := fun q : Fin 5 => (blk1_4 (V3 m ρ) c s q l).trans (g88 (laneEntry s l) q)
  have e5 := fun p q : Fin 5 => (blk1_5 (V3 m ρ) c s p q l).trans (g103 (laneEntry s l) p q)
  have e6 := (blk1_6 (V3 m ρ) c s l).trans (g111 (laneEntry s l))
  have e7 := (blk1_7 (V3 m ρ) c s l).trans (g119 (laneEntry s l))
  have e8 := (blk1_8 (V3 m ρ) c s l).trans (g7 (laneEntry s l))
  refine (lane_of (iblk1 (V3 m ρ) c 0 (pt s)) (iblk1 (V3 m ρ) c 1 (pt s)) (iblk1 (V3 m ρ) c 2 (pt s)) (iblk1 (V3 m ρ) c 3 (pt s)) (iblk1 (V3 m ρ) c 4 (pt s)) (iblk1 (V3 m ρ) c 5 (pt s)) (iblk1 (V3 m ρ) c 6 (pt s)) (iblk1 (V3 m ρ) c 7 (pt s)) (iblk1 (V3 m ρ) c 8 (pt s)) l
    _ _ _ _ _ _ (fun p => (argCR m c) (ix2 (elemAt (argZ m c) (atomOf (padI (argI m c) (laneEntry s l)))) p))
    (fun q => (argCR m c) (ix2 (elemAt (argZ m c) (atomOf (padI (argJ m c) (laneEntry s l)))) q))
    (fun p q => (argC6 m c) (ix4 (elemAt (argZ m c) (atomOf (padI (argI m c) (laneEntry s l)))) (elemAt (argZ m c) (atomOf (padI (argJ m c) (laneEntry s l)))) p q))
    e0 e1 e2 e3 e4 e5 e6 e7 e8).trans ?_
  unfold lanePad
  rfl

/-! ## The result -/

/-- THE KERNEL'S RESULT IS THE PADDED TOTAL, given what the energy region accumulates and what the host operations
    before the two regions leave in the regions' input arrays. -/
theorem kernel_value_of
    (hacc : outsAt1 (F := Ideal) (V3 m ρ) c tLast.val tLast.isLt = fun _ => ∑ s : Fin 62, tileSum (iblk1 (V3 m ρ) c 0 (pt s)) (iblk1 (V3 m ρ) c 1 (pt s)) (iblk1 (V3 m ρ) c 2 (pt s)) (iblk1 (V3 m ρ) c 3 (pt s)) (iblk1 (V3 m ρ) c 4 (pt s)) (iblk1 (V3 m ρ) c 5 (pt s)) (iblk1 (V3 m ρ) c 6 (pt s)) (iblk1 (V3 m ρ) c 7 (pt s)) (iblk1 (V3 m ρ) c 8 (pt s)))
    (h29 : ∀ (e : Fin 2031616) (k : Fin 3), V1 m ρ c main_v29 (ix2 k e) = (argP m c) (ix2 (atomOf (padI (argI m c) e)) k))
    (h36 : ∀ (e : Fin 2031616) (k : Fin 3), V1 m ρ c main_v36 (ix2 k e) = (argP m c) (ix2 (atomOf (padI (argJ m c) e)) k))
    (h52 : ∀ e : Fin 2031616, V1 m ρ c main_v52 (ix2 0 e) = (argRC m c) (ix1 (elemAt (argZ m c) (atomOf (padI (argI m c) e)))) + (argRC m c) (ix1 (elemAt (argZ m c) (atomOf (padI (argJ m c) e)))))
    (h7 : ∀ e : Fin 2031616, V1 m ρ c main_v7 (ix2 0 e) = maskAt e)
    (g53 : V3 m ρ c main_v53_1 = W2 m ρ c (Proc.devRef .tc main_v53_1))
    (g65 : ∀ e : Fin 2031616, V3 m ρ c main_v65 (ix2 0 e) = cnOver (W2 m ρ c (Proc.devRef .tc main_v53_0)) (argI m c) (atomOf (padI (argI m c) e)))
    (g73 : ∀ e : Fin 2031616, V3 m ρ c main_v73 (ix2 0 e) = cnOver (W2 m ρ c (Proc.devRef .tc main_v53_0)) (argI m c) (atomOf (padI (argJ m c) e)))
    (g81 : ∀ (e : Fin 2031616) (p : Fin 5), V3 m ρ c main_v81 (ix2 p e) = (argCR m c) (ix2 (elemAt (argZ m c) (atomOf (padI (argI m c) e))) p))
    (g88 : ∀ (e : Fin 2031616) (q : Fin 5), V3 m ρ c main_v88 (ix2 q e) = (argCR m c) (ix2 (elemAt (argZ m c) (atomOf (padI (argJ m c) e))) q))
    (g103 : ∀ (e : Fin 2031616) (p q : Fin 5), V3 m ρ c main_v103 (ix3 p q e) = (argC6 m c) (ix4 (elemAt (argZ m c) (atomOf (padI (argI m c) e))) (elemAt (argZ m c) (atomOf (padI (argJ m c) e))) p q))
    (g111 : ∀ e : Fin 2031616, V3 m ρ c main_v111 (ix2 0 e) = (argR4 m c) (ix1 (elemAt (argZ m c) (atomOf (padI (argI m c) e)))))
    (g119 : ∀ e : Fin 2031616, V3 m ρ c main_v119 (ix2 0 e) = (argR4 m c) (ix1 (elemAt (argZ m c) (atomOf (padI (argJ m c) e)))))
    (g7 : ∀ e : Fin 2031616, V3 m ρ c main_v7 (ix2 0 e) = maskAt e) :
    W5 (F := Ideal) m ρ c (Proc.devRef .tc main_v122) = fun _ => totalPad (argP m c) (argZ m c) (argI m c) (argJ m c) (argRC m c) (argR4 m c) (argC6 m c) (argCR m c) := by
  have h4 := ((W4_arr m ρ c 9).trans (final9 (V3 m ρ) c)).trans hacc
  refine (result_tail m ρ c).trans ?_
  funext i
  refine (congrArg (fun X : (⟨2, ![1, 1]⟩ : Shape).Idx → EReal => Ideal.ofBits .f32 0x3F000000#32 * X (ix2 0 0)) h4).trans ?_
  unfold totalPad
  refine congrArg (fun x : EReal => lit 0x3F000000#32 * x) (Finset.sum_congr rfl fun s _ => ?_)
  unfold tileSum
  exact Finset.sum_congr rfl fun l _ => lane_eq m ρ c h29 h36 h52 h7 g53 g65 g73 g81 g88 g103 g111 g119 g7 s l

end Cert.KernelIdeal.Val

end
-- ==== Proof.KRegion1.lean ====
/-
  The value the energy kernel leaves in its 1×1 output after each of its 62 grid points, as a function of the
  nine input blocks at the points.

  At a grid point the body computes, lane by lane over the 32768 lanes of a tile, the 25 Gaussian weights of
  the pairs of reference slots, their running sum and the running weighted sum of the 25 table entries (each
  started from a zero splat), the interpolated coefficient, the damped pair energy and its cutoff; multiplies by
  the validity mask; sums over the lanes; and adds the sum to what the output held.  At the first point the
  output is zeroed first.  So after point t the output holds the sum, over the points s ≤ t, of the tile sums.

  The steps: the index a one-row (one-entry) load of a block reads at a lane; the body's arithmetic evaluated at
  a lane, where the chain of 25 additions from the zero word is the double sum over the slots and `0 - x` is
  `-x`; the stored value as the previous contents plus the lane sum; the two control cases' stored pieces read
  back; and the induction over the grid points.
-/
import proofs.«136451_j74294344286992_1_alg».proof.Proof.Gen.KernelIdeal.Frame
import proofs.«136451_j74294344286992_1_alg».proof.Proof.Spec
import proofs.«136451_j74294344286992_1_alg».proof.Proof.Algebra
import proofs.«136451_j74294344286992_1_alg».proof.Proof.KRegion1Defs
import Idealize.ShloMosaic.Lib.Pipeline.Value
import Idealize.ShloMosaic.Lib.ValueIdx
import Idealize.ShloMosaic.PureOps.Ideal.Laws
import Idealize.ShloMosaic.Lib.Tactic

noncomputable section
open Idealize.ShloMosaic Idealize.ShloMosaic.TcCoe Idealize.SL.Sem Idealize.ShloMosaic.ValueIdx
namespace Cert.KernelIdeal.Val1
open Cert.KernelIdeal Cert.KernelIdeal.Gen Cert.Disp

/-! ## Indices -/

theorem hz2 : (![0, 0] : Fin 2 → Nat) = fun _ => 0 := funext fun a => by fin_cases a <;> rfl

/-- Row `k` of a [5, 32768] block: where lane `l` of a one-row load sits. -/
theorem idx_row (k : Nat) (p : Fin 5) (hp : p.val = k)
    (inb : ∀ a, (![k, 0] : Fin 2 → Nat) a + S1x32768.size a ≤ S5x32768.size a) (l : Fin 32768) :
    (Rect.unit (s := S5x32768) ![k, 0] S1x32768.size inb).toLoadRect.idx (ix2 0 l) = ix2 p l := by
  subst hp
  refine funext fun a => Fin.ext ?_
  match a with
  | ⟨0, _⟩ => show p.val + 1 * 0 = p.val; omega
  | ⟨1, _⟩ => show 0 + 1 * l.val = l.val; omega

/-- Entry `(k₁, k₂)` of a [5, 5, 32768] block: where lane `l` of a one-entry load sits. -/
theorem idx_ent (k1 k2 : Nat) (p q : Fin 5) (hp : p.val = k1) (hq : q.val = k2)
    (inb : ∀ a, (![k1, k2, 0] : Fin 3 → Nat) a + S1x1x32768.size a ≤ S5x5x32768.size a) (l : Fin 32768) :
    (Rect.unit (s := S5x5x32768) ![k1, k2, 0] S1x1x32768.size inb).toLoadRect.idx (ix3 0 0 l) = ix3 p q l := by
  subst hp; subst hq
  refine funext fun a => Fin.ext ?_
  match a with
  | ⟨0, _⟩ => show p.val + 1 * 0 = p.val; omega
  | ⟨1, _⟩ => show q.val + 1 * 0 = q.val; omega
  | ⟨2, _⟩ => show 0 + 1 * l.val = l.val; omega

/-- Dropping the two unit axes of a [1, 1, 32768] vector keeps the lane. -/
theorem sc3_ap {α : Type} (v : S1x1x32768.Idx → α) (h : S1x1x32768.ShapeCasts S1x32768) (l : Fin 32768) :
    shapeCast S1x32768 v h (ix2 0 l) = v (ix3 0 0 l) := by
  refine shapeCast_apply v h (ix2 0 l) (ix3 0 0 l) ?_
  rw [Shape.rowMajor_val_three, Shape.rowMajor_val_two]
  rfl

/-! ## The lane sum and the stored value -/

/-- The sum over the lanes of a [1, 32768] vector. -/
theorem lane_sum (src : FVec Ideal S1x32768 .f32) (hφ : FKind.Formats .f32)
    (hacc : (0x00000000#32 : BitVec 32) = 0x00000000#32) :
    multiReduction .add [1] S1 src 0x00000000#32 reduces_S1x32768_S1 hφ hacc (ix1 0) = ∑ l : Fin 32768, src (ix2 0 l) := by
  refine (Ideal.multiReduction_add_single src 0x00000000#32 reduces_S1x32768_S1 hφ hacc (ix1 0)).trans ?_
  refine Finset.sum_congr rfl fun l _ => congrArg src ?_
  funext a
  match a with
  | ⟨0, _⟩ => exact Fin.ext rfl
  | ⟨1, _⟩ => exact Fin.ext rfl

/-- The stored value: what the output held, plus the lane sum of the masked pair energies inside the cutoff. -/
theorem pay1_eq (v4 v575 : FVec Ideal S1x32768 .f32) (cst : Ideal .f32) (v580 : Vec Ideal S1x32768 .f32) (v585 : Vec Ideal S1x1 .f32) :
    k1_pay1 v4 v575 cst v580 v585 = fun _ => v585 (ix2 0 0)
      + ∑ l : Fin 32768, Scalar.select (Ideal.cmp .olt (v4 (ix2 0 l)) cst) (v575 (ix2 0 l)) (lit 0x00000000#32) * v580 (ix2 0 l) := by
  funext j
  obtain rfl : j = ix2 0 0 := by
    funext a
    match a with
    | ⟨0, _⟩ => exact Subsingleton.elim (α := Fin 1) _ _
    | ⟨1, _⟩ => exact Subsingleton.elim (α := Fin 1) _ _
  unfold k1_pay1
  simp only [shapeCast_self]
  refine congrArg (v585 (ix2 0 0) + ·) ?_
  refine (shapeCast_apply _ shapeCasts_S1_S1x1 (ix2 0 0) (ix1 0) ?_).trans ?_
  · rw [Shape.rowMajor_val_one, Shape.rowMajor_val_two]; rfl
  refine (lane_sum _ _ _).trans ?_
  rfl

/-! ## One lane's arithmetic -/

/-- The 25 additions from the zero word, in the order the kernel makes them, are the double sum. -/
theorem chain25 (f : Fin 5 → Fin 5 → EReal) :
    lit 0x00000000#32 + f 0 0 + f 0 1 + f 0 2 + f 0 3 + f 0 4 + f 1 0 + f 1 1 + f 1 2 + f 1 3 + f 1 4 + f 2 0 + f 2 1 + f 2 2 + f 2 3 + f 2 4 + f 3 0 + f 3 1 + f 3 2 + f 3 3 + f 3 4 + f 4 0 + f 4 1 + f 4 2 + f 4 3 + f 4 4 = ∑ p : Fin 5, ∑ q : Fin 5, f p q := by
  rw [lit_zero]
  simp only [Fin.sum_univ_five, zero_add, add_assoc]

/-- The damped term, spelt out. -/
theorem damped_fold (r c6 qa qb : EReal) :
    Ideal.div (Ideal.ofBits .f32 0x3F800000#32 * c6)
        (r * r * (r * r) * (r * r)
          + (Ideal.ofBits .f32 0x3ECCCCCD#32 * Ideal.sqrt (Ideal.ofBits .f32 0x40400000#32 * qa * qb) + Ideal.ofBits .f32 0x4099999A#32)
            * (Ideal.ofBits .f32 0x3ECCCCCD#32 * Ideal.sqrt (Ideal.ofBits .f32 0x40400000#32 * qa * qb) + Ideal.ofBits .f32 0x4099999A#32)
            * ((Ideal.ofBits .f32 0x3ECCCCCD#32 * Ideal.sqrt (Ideal.ofBits .f32 0x40400000#32 * qa * qb) + Ideal.ofBits .f32 0x4099999A#32)
              * (Ideal.ofBits .f32 0x3ECCCCCD#32 * Ideal.sqrt (Ideal.ofBits .f32 0x40400000#32 * qa * qb) + Ideal.ofBits .f32 0x4099999A#32))
            * ((Ideal.ofBits .f32 0x3ECCCCCD#32 * Ideal.sqrt (Ideal.ofBits .f32 0x40400000#32 * qa * qb) + Ideal.ofBits .f32 0x4099999A#32)
              * (Ideal.ofBits .f32 0x3ECCCCCD#32 * Ideal.sqrt (Ideal.ofBits .f32 0x40400000#32 * qa * qb) + Ideal.ofBits .f32 0x4099999A#32)))
      + Ideal.div (Ideal.ofBits .f32 0x40000000#32 * (c6 * (Ideal.ofBits .f32 0x40400000#32 * qa * qb)))
        (r * r * (r * r) * (r * r) * (r * r)
          + (Ideal.ofBits .f32 0x3ECCCCCD#32 * Ideal.sqrt (Ideal.ofBits .f32 0x40400000#32 * qa * qb) + Ideal.ofBits .f32 0x4099999A#32)
            * (Ideal.ofBits .f32 0x3ECCCCCD#32 * Ideal.sqrt (Ideal.ofBits .f32 0x40400000#32 * qa * qb) + Ideal.ofBits .f32 0x4099999A#32)
            * ((Ideal.ofBits .f32 0x3ECCCCCD#32 * Ideal.sqrt (Ideal.ofBits .f32 0x40400000#32 * qa * qb) + Ideal.ofBits .f32 0x4099999A#32)
              * (Ideal.ofBits .f32 0x3ECCCCCD#32 * Ideal.sqrt (Ideal.ofBits .f32 0x40400000#32 * qa * qb) + Ideal.ofBits .f32 0x4099999A#32))
            * ((Ideal.ofBits .f32 0x3ECCCCCD#32 * Ideal.sqrt (Ideal.ofBits .f32 0x40400000#32 * qa * qb) + Ideal.ofBits .f32 0x4099999A#32)
              * (Ideal.ofBits .f32 0x3ECCCCCD#32 * Ideal.sqrt (Ideal.ofBits .f32 0x40400000#32 * qa * qb) + Ideal.ofBits .f32 0x4099999A#32))
            * ((Ideal.ofBits .f32 0x3ECCCCCD#32 * Ideal.sqrt (Ideal.ofBits .f32 0x40400000#32 * qa * qb) + Ideal.ofBits .f32 0x4099999A#32)
              * (Ideal.ofBits .f32 0x3ECCCCCD#32 * Ideal.sqrt (Ideal.ofBits .f32 0x40400000#32 * qa * qb) + Ideal.ofBits .f32 0x4099999A#32)))
      = damped r c6 qa qb := rfl

/-- One lane: the kernel's chain of 25 weights and its `0 - x` are the specification's double sums and `-x`. -/
theorem lane_core (r cni cnj qa qb m : EReal) (ra rb : Fin 5 → EReal) (c : Fin 5 → Fin 5 → EReal) :
    Scalar.select (Ideal.cmp .olt r (lit 0x42480000#32))
        (lit 0x00000000#32 - damped r
          (Ideal.div (lit 0x00000000#32 + weight cni cnj (ra 0) (rb 0) * c 0 0 + weight cni cnj (ra 0) (rb 1) * c 0 1 + weight cni cnj (ra 0) (rb 2) * c 0 2 + weight cni cnj (ra 0) (rb 3) * c 0 3 + weight cni cnj (ra 0) (rb 4) * c 0 4 + weight cni cnj (ra 1) (rb 0) * c 1 0 + weight cni cnj (ra 1) (rb 1) * c 1 1 + weight cni cnj (ra 1) (rb 2) * c 1 2 + weight cni cnj (ra 1) (rb 3) * c 1 3 + weight cni cnj (ra 1) (rb 4) * c 1 4 + weight cni cnj (ra 2) (rb 0) * c 2 0 + weight cni cnj (ra 2) (rb 1) * c 2 1 + weight cni cnj (ra 2) (rb 2) * c 2 2 + weight cni cnj (ra 2) (rb 3) * c 2 3 + weight cni cnj (ra 2) (rb 4) * c 2 4 + weight cni cnj (ra 3) (rb 0) * c 3 0 + weight cni cnj (ra 3) (rb 1) * c 3 1 + weight cni cnj (ra 3) (rb 2) * c 3 2 + weight cni cnj (ra 3) (rb 3) * c 3 3 + weight cni cnj (ra 3) (rb 4) * c 3 4 + weight cni cnj (ra 4) (rb 0) * c 4 0 + weight cni cnj (ra 4) (rb 1) * c 4 1 + weight cni cnj (ra 4) (rb 2) * c 4 2 + weight cni cnj (ra 4) (rb 3) * c 4 3 + weight cni cnj (ra 4) (rb 4) * c 4 4)
            (lit 0x00000000#32 + weight cni cnj (ra 0) (rb 0) + weight cni cnj (ra 0) (rb 1) + weight cni cnj (ra 0) (rb 2) + weight cni cnj (ra 0) (rb 3) + weight cni cnj (ra 0) (rb 4) + weight cni cnj (ra 1) (rb 0) + weight cni cnj (ra 1) (rb 1) + weight cni cnj (ra 1) (rb 2) + weight cni cnj (ra 1) (rb 3) + weight cni cnj (ra 1) (rb 4) + weight cni cnj (ra 2) (rb 0) + weight cni cnj (ra 2) (rb 1) + weight cni cnj (ra 2) (rb 2) + weight cni cnj (ra 2) (rb 3) + weight cni cnj (ra 2) (rb 4) + weight cni cnj (ra 3) (rb 0) + weight cni cnj (ra 3) (rb 1) + weight cni cnj (ra 3) (rb 2) + weight cni cnj (ra 3) (rb 3) + weight cni cnj (ra 3) (rb 4) + weight cni cnj (ra 4) (rb 0) + weight cni cnj (ra 4) (rb 1) + weight cni cnj (ra 4) (rb 2) + weight cni cnj (ra 4) (rb 3) + weight cni cnj (ra 4) (rb 4) + lit 0x1E3CE508#32)) qa qb)
        (lit 0x00000000#32) * m
      = energy r (c6interp (fun p q => weight cni cnj (ra p) (rb q)) c) qa qb * m := by
  rw [chain25 (fun p q => weight cni cnj (ra p) (rb q) * c p q), chain25 (fun p q => weight cni cnj (ra p) (rb q))]
  unfold energy c6interp
  rw [lit_zero, zero_sub]

theorem andi_ap {s : Shape} {w : Nat} (x y : IVec s w) (i : s.Idx) : andi x y i = IntOp.andi (x i) (y i) := rfl
theorem exp_ap {s : Shape} {φ : FTy} (x : FVec Ideal s φ) (i : s.Idx) : exp x i = Ideal.exp (x i) := rfl
theorem sqrt_ap {s : Shape} {φ : FTy} (x : FVec Ideal s φ) (i : s.Idx) : sqrt x i = Ideal.sqrt (x i) := rfl
theorem cmpf_ap {s : Shape} {φ : FTy} (p : CmpFPredicate) (a b : FVec Ideal s φ) (i : s.Idx) : cmpf p a b i = Ideal.cmp p (a i) (b i) := rfl

/-- The Gaussian weight, as the kernel spells it. -/
theorem weight_fold (cni cnj ra rb : EReal) :
    Scalar.select (IntOp.andi (Ideal.cmp .oge ra (Ideal.ofBits .f32 0x00000000#32)) (Ideal.cmp .oge rb (Ideal.ofBits .f32 0x00000000#32)))
      (Ideal.exp (Ideal.ofBits .f32 0xC0800000#32 * ((cni - ra) * (cni - ra)) - Ideal.ofBits .f32 0x40800000#32 * ((cnj - rb) * (cnj - rb))))
      (Ideal.ofBits .f32 0x00000000#32) = weight cni cnj ra rb := rfl

/-! ## What each control case leaves in the output -/

set_option maxHeartbeats 1000000 in
theorem out_B (c : Dev nD) (i : grid1.Coords) (arg1 : Memref sig .tc .vmem S1x32768 .f32) (harg1 : arg1.IsWhole) (arg2 : Memref sig .tc .vmem S1x32768 .f32) (harg2 : arg2.IsWhole) (arg3 : Memref sig .tc .vmem S1x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S5x5x32768 .f32) (harg6 : arg6.IsWhole) (arg7 : Memref sig .tc .vmem S1x32768 .f32) (harg7 : arg7.IsWhole) (arg8 : Memref sig .tc .vmem S1x32768 .f32) (harg8 : arg8.IsWhole) (arg9 : Memref sig .tc .vmem S1x32768 .f32) (harg9 : arg9.IsWhole) (arg10 : Memref sig .tc .vmem S1x1 .f32) (harg10 : arg10.IsWhole) (hc0 : ¬cond1_0 i) (x0 : Vec Ideal S1x32768 .f32) (x1 : Vec Ideal S1x32768 .f32) (x2 : Vec Ideal S1x32768 .f32) (x3 : Vec Ideal S5x32768 .f32) (x4 : Vec Ideal S5x32768 .f32) (x5 : Vec Ideal S5x5x32768 .f32) (x6 : Vec Ideal S1x32768 .f32) (x7 : Vec Ideal S1x32768 .f32) (x8 : Vec Ideal S1x32768 .f32) (xo9 : Vec Ideal S1x1 .f32) :
    out1_B_9 (F := Ideal) c i arg1 harg1 arg2 harg2 arg3 harg3 arg4 harg4 arg5 harg5 arg6 harg6 arg7 harg7 arg8 harg8 arg9 harg9 arg10 harg10 hc0 x0 x1 x2 x3 x4 x5 x6 x7 x8 xo9 = fun _ => xo9 (ix2 0 0) + tileSum x0 x1 x2 x3 x4 x5 x6 x7 x8 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 x7 x8 xo9)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x32768) hz2, View.ld_unit_zero (S := S1x1) hz2]
  refine (pay1_eq _ _ _ _ _).trans ?_
  funext _
  unfold tileSum
  refine congrArg (xo9 (ix2 0 0) + ·) (Finset.sum_congr rfl fun l _ => ?_)
  simp only [k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, shapeCast_self, sc3_ap, View.ld, idx_row 0 0 rfl, idx_row 1 1 rfl, idx_row 2 2 rfl, idx_row 3 3 rfl, idx_row 4 4 rfl, idx_ent 0 0 0 0 rfl rfl, idx_ent 0 1 0 1 rfl rfl, idx_ent 0 2 0 2 rfl rfl, idx_ent 0 3 0 3 rfl rfl, idx_ent 0 4 0 4 rfl rfl, idx_ent 1 0 1 0 rfl rfl, idx_ent 1 1 1 1 rfl rfl, idx_ent 1 2 1 2 rfl rfl, idx_ent 1 3 1 3 rfl rfl, idx_ent 1 4 1 4 rfl rfl, idx_ent 2 0 2 0 rfl rfl, idx_ent 2 1 2 1 rfl rfl, idx_ent 2 2 2 2 rfl rfl, idx_ent 2 3 2 3 rfl rfl, idx_ent 2 4 2 4 rfl rfl, idx_ent 3 0 3 0 rfl rfl, idx_ent 3 1 3 1 rfl rfl, idx_ent 3 2 3 2 rfl rfl, idx_ent 3 3 3 3 rfl rfl, idx_ent 3 4 3 4 rfl rfl, idx_ent 4 0 4 0 rfl rfl, idx_ent 4 1 4 1 rfl rfl, idx_ent 4 2 4 2 rfl rfl, idx_ent 4 3 4 3 rfl rfl, idx_ent 4 4 4 4 rfl rfl,
      mulf_apply, addf_apply, subf_apply, divf_apply, select_apply, cmpf_ap, broadcast_apply, andi_ap, exp_ap, sqrt_ap,
      Ideal.ofBits_def, weight_fold, damped_fold]
  exact lane_core (x0 (ix2 0 l)) (x1 (ix2 0 l)) (x2 (ix2 0 l)) (x6 (ix2 0 l)) (x7 (ix2 0 l)) (x8 (ix2 0 l)) (fun p => x3 (ix2 p l)) (fun q => x4 (ix2 q l)) (fun p q => x5 (ix3 p q l))

set_option maxHeartbeats 1000000 in
theorem out_A (c : Dev nD) (i : grid1.Coords) (arg1 : Memref sig .tc .vmem S1x32768 .f32) (harg1 : arg1.IsWhole) (arg2 : Memref sig .tc .vmem S1x32768 .f32) (harg2 : arg2.IsWhole) (arg3 : Memref sig .tc .vmem S1x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S5x5x32768 .f32) (harg6 : arg6.IsWhole) (arg7 : Memref sig .tc .vmem S1x32768 .f32) (harg7 : arg7.IsWhole) (arg8 : Memref sig .tc .vmem S1x32768 .f32) (harg8 : arg8.IsWhole) (arg9 : Memref sig .tc .vmem S1x32768 .f32) (harg9 : arg9.IsWhole) (arg10 : Memref sig .tc .vmem S1x1 .f32) (harg10 : arg10.IsWhole) (hc0 : cond1_0 i) (x0 : Vec Ideal S1x32768 .f32) (x1 : Vec Ideal S1x32768 .f32) (x2 : Vec Ideal S1x32768 .f32) (x3 : Vec Ideal S5x32768 .f32) (x4 : Vec Ideal S5x32768 .f32) (x5 : Vec Ideal S5x5x32768 .f32) (x6 : Vec Ideal S1x32768 .f32) (x7 : Vec Ideal S1x32768 .f32) (x8 : Vec Ideal S1x32768 .f32) :
    out1_A_9 (F := Ideal) c i arg1 harg1 arg2 harg2 arg3 harg3 arg4 harg4 arg5 harg5 arg6 harg6 arg7 harg7 arg8 harg8 arg9 harg9 arg10 harg10 hc0 x0 x1 x2 x3 x4 x5 x6 x7 x8 = fun _ => tileSum x0 x1 x2 x3 x4 x5 x6 x7 x8 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6 x7 x8)]
  unfold kernelRun1_A
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x32768) hz2, View.ld_unit_zero (S := S1x1) hz2, View.readCov_unit_zero (S := S1x1) _ hz2]
  refine (pay1_eq _ _ _ _ _).trans ?_
  funext _
  unfold tileSum
  refine (congrArg (· + _) (?_ : _ = (0 : EReal))).trans ((zero_add _).trans (Finset.sum_congr rfl fun l _ => ?_))
  · exact lit_zero
  simp only [k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, shapeCast_self, sc3_ap, View.ld, idx_row 0 0 rfl, idx_row 1 1 rfl, idx_row 2 2 rfl, idx_row 3 3 rfl, idx_row 4 4 rfl, idx_ent 0 0 0 0 rfl rfl, idx_ent 0 1 0 1 rfl rfl, idx_ent 0 2 0 2 rfl rfl, idx_ent 0 3 0 3 rfl rfl, idx_ent 0 4 0 4 rfl rfl, idx_ent 1 0 1 0 rfl rfl, idx_ent 1 1 1 1 rfl rfl, idx_ent 1 2 1 2 rfl rfl, idx_ent 1 3 1 3 rfl rfl, idx_ent 1 4 1 4 rfl rfl, idx_ent 2 0 2 0 rfl rfl, idx_ent 2 1 2 1 rfl rfl, idx_ent 2 2 2 2 rfl rfl, idx_ent 2 3 2 3 rfl rfl, idx_ent 2 4 2 4 rfl rfl, idx_ent 3 0 3 0 rfl rfl, idx_ent 3 1 3 1 rfl rfl, idx_ent 3 2 3 2 rfl rfl, idx_ent 3 3 3 3 rfl rfl, idx_ent 3 4 3 4 rfl rfl, idx_ent 4 0 4 0 rfl rfl, idx_ent 4 1 4 1 rfl rfl, idx_ent 4 2 4 2 rfl rfl, idx_ent 4 3 4 3 rfl rfl, idx_ent 4 4 4 4 rfl rfl,
      mulf_apply, addf_apply, subf_apply, divf_apply, select_apply, cmpf_ap, broadcast_apply, andi_ap, exp_ap, sqrt_ap,
      Ideal.ofBits_def, weight_fold, damped_fold]
  exact lane_core (x0 (ix2 0 l)) (x1 (ix2 0 l)) (x2 (ix2 0 l)) (x6 (ix2 0 l)) (x7 (ix2 0 l)) (x8 (ix2 0 l)) (fun p => x3 (ix2 p l)) (fun q => x4 (ix2 q l)) (fun p q => x5 (ix3 p q l))

/-! ## The induction over the grid points -/

/-- The tile sum of the input blocks at a grid point. -/
def tile (V : (c : Dev nD) → (b : Ref sig .tc) → Buf (Elt Ideal) ((c : Thread nD τ).loc b)) (c : Dev nD) (t : Fin cfg1.N) : EReal :=
  tileSum (iblk1 V c 0 t) (iblk1 V c 1 t) (iblk1 V c 2 t) (iblk1 V c 3 t) (iblk1 V c 4 t) (iblk1 V c 5 t) (iblk1 V c 6 t) (iblk1 V c 7 t) (iblk1 V c 8 t)

/-- After grid point `n` the output holds the sum of the tile sums of the points up to `n`: the first point stores
    zero and adds its tile sum, every later point adds its own to what the point before left. -/
theorem outsAt1_run (V : (c : Dev nD) → (b : Ref sig .tc) → Buf (Elt Ideal) ((c : Thread nD τ).loc b)) (c : Dev nD) :
    ∀ (n : ℕ) (h : n < cfg1.N),
      outsAt1 (F := Ideal) V c n h = fun _ => ∑ s : Fin (n + 1), tile V c ⟨s.val, Nat.lt_of_lt_of_le s.isLt h⟩
  | 0, h => by
    refine (outsAt1_A V c ⟨0, h⟩ rfl).trans ?_
    refine (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)).trans ?_
    funext _
    rw [Fin.sum_univ_one]
    rfl
  | n + 1, h => by
    have hN : cfg1.N = 62 := N_1
    have hB : ¬(⟨n + 1, h⟩ : Fin cfg1.N).val % 62 = 0 := by dsimp only; omega
    refine (outsAt1_B V c ⟨n + 1, h⟩ hB).trans ?_
    refine (out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩)
      (outsAt1 V c ((⟨n + 1, h⟩ : Fin cfg1.N).val - 1) (Nat.lt_of_le_of_lt (Nat.sub_le _ _) (⟨n + 1, h⟩ : Fin cfg1.N).isLt))).trans ?_
    funext _
    rw [Fin.sum_univ_castSucc]
    refine congrArg₂ (· + ·) ?_ rfl
    exact congrFun (outsAt1_run V c n (Nat.lt_of_succ_lt h)) (ix2 0 0)

/-- The value the energy kernel leaves in its 1×1 output after grid point `t`: the sum over the points `s ≤ t` of the
    lane sums of the masked pair energies of the input blocks at `s`. -/
theorem outsAt1_eq (V : (c : Dev nD) → (b : Ref sig .tc) → Buf (Elt Ideal) ((c : Thread nD τ).loc b)) (c : Dev nD) (t : Fin cfg1.N) :
    outsAt1 (F := Ideal) V c t.val t.isLt = fun _ => ∑ s : Fin (t.val + 1),
      tileSum (iblk1 V c 0 ⟨s.val, Nat.lt_of_lt_of_le s.isLt t.isLt⟩) (iblk1 V c 1 ⟨s.val, Nat.lt_of_lt_of_le s.isLt t.isLt⟩) (iblk1 V c 2 ⟨s.val, Nat.lt_of_lt_of_le s.isLt t.isLt⟩) (iblk1 V c 3 ⟨s.val, Nat.lt_of_lt_of_le s.isLt t.isLt⟩) (iblk1 V c 4 ⟨s.val, Nat.lt_of_lt_of_le s.isLt t.isLt⟩) (iblk1 V c 5 ⟨s.val, Nat.lt_of_lt_of_le s.isLt t.isLt⟩) (iblk1 V c 6 ⟨s.val, Nat.lt_of_lt_of_le s.isLt t.isLt⟩) (iblk1 V c 7 ⟨s.val, Nat.lt_of_lt_of_le s.isLt t.isLt⟩) (iblk1 V c 8 ⟨s.val, Nat.lt_of_lt_of_le s.isLt t.isLt⟩) :=
  outsAt1_run V c t.val t.isLt

/-- At the last grid point: the sum over all 62 tiles. -/
theorem outsAt1_last (V : (c : Dev nD) → (b : Ref sig .tc) → Buf (Elt Ideal) ((c : Thread nD τ).loc b)) (c : Dev nD) (h : 61 < cfg1.N) :
    outsAt1 (F := Ideal) V c 61 h = fun _ => ∑ s : Fin 62,
      tileSum (iblk1 V c 0 ⟨s.val, Nat.lt_of_lt_of_le s.isLt h⟩) (iblk1 V c 1 ⟨s.val, Nat.lt_of_lt_of_le s.isLt h⟩) (iblk1 V c 2 ⟨s.val, Nat.lt_of_lt_of_le s.isLt h⟩) (iblk1 V c 3 ⟨s.val, Nat.lt_of_lt_of_le s.isLt h⟩) (iblk1 V c 4 ⟨s.val, Nat.lt_of_lt_of_le s.isLt h⟩) (iblk1 V c 5 ⟨s.val, Nat.lt_of_lt_of_le s.isLt h⟩) (iblk1 V c 6 ⟨s.val, Nat.lt_of_lt_of_le s.isLt h⟩) (iblk1 V c 7 ⟨s.val, Nat.lt_of_lt_of_le s.isLt h⟩) (iblk1 V c 8 ⟨s.val, Nat.lt_of_lt_of_le s.isLt h⟩) :=
  outsAt1_run V c 61 h

end Cert.KernelIdeal.Val1
end
-- ==== Proof.LibIndexOps.lean ====
/-
  Index-dependent array operations read at one index, from the definitions of the array library.

  A gather whose start indices are run-time integers reads the operand at the start index, taken as a signed
  integer and clamped into the operand's range on each indexed axis, the other coordinates passing through:
  a flat table (gather_flat_apply), the rows and the columns of a matrix (gather_rows_apply, gather_cols_apply),
  and a two-dimensional tile of a four-dimensional table addressed by a pair of indices, in either layout
  (gather_tile_lead_apply, gather_tile_trail_apply).
  An accumulating scatter into a flat array adds to each element the updates whose (signed, unclamped) index
  is that element's position (scatter_flat_resultIdx, scatterAdd_flat_apply).
  Two arrays laid end to end read the first below its extent and the second past it
  (concatenate_flat_apply, concatenate_cols_apply).
-/
import proofs.«136451_j74294344286992_1_alg».proof.Proof.LibClamp
import Idealize.ShloMosaic.Lib.Pipeline.Value

noncomputable section

open scoped BigOperators

namespace Cert.IndexOps

open Idealize.ShloMosaic Idealize.ShloMosaic.ValueIdx

section Gather
variable {α : Type}

/-- A flat table of extent N gathered at E start indices: element e is the table at the e-th start index, read
    signed and clamped into [0, N - 1]. -/
theorem gather_flat_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (clampIdx N hN (idx (ix2 e 0)))) := by
  obtain ⟨od, cd, ob, sb, sm, iv, ss, wf⟩ := d
  simp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun i => min (idx i).toInt.toNat (N - 1)) (?_ : _ = ix2 e 0)
  funext b; refine Fin.ext ?_
  match b with
  | ⟨0, _⟩ => rfl
  | ⟨1, _⟩ => rfl

/-- Rows of an N by K matrix gathered at E start indices: row e of the result is the row at the e-th start index,
    read signed and clamped into [0, N - 1]. -/
theorem gather_rows_apply {N K E w : Nat} (hN : 0 < N)
    (d : GatherDims ⟨2, ![N, K]⟩ ⟨2, ![E, 1]⟩ ⟨2, ![E, K]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![N, K]⟩ : Shape).Idx → α) (idx : IVec ⟨2, ![E, 1]⟩ w) (e : Fin E) (k : Fin K) :
    Host.gather d x idx (ix2 e k) = x (ix2 (clampIdx N hN (idx (ix2 e 0))) k) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: collapsed, addressed by the start index
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun i => min (idx i).toInt.toNat (N - 1)) (?_ : _ = ix2 e 0)
    funext b; refine Fin.ext ?_
    match b with
    | ⟨0, _⟩ => rfl
    | ⟨1, _⟩ => rfl
  | ⟨1, _⟩ =>
    -- the column axis: an offset axis, its coordinate passes through
    show 0 + GatherDims.offCoord _ (ix2 e k) 1 = k.val
    rw [Nat.zero_add]
    rfl

/-- Columns of a K by N matrix gathered at E start indices: column e of the result is the column at the e-th
    start index, read signed and clamped into [0, N - 1]. -/
theorem gather_cols_apply {N K E w : Nat} (hN : 0 < N)
    (d : GatherDims ⟨2, ![K, N]⟩ ⟨2, ![E, 1]⟩ ⟨2, ![K, E]⟩)
    (hod : d.offsetDims = [0]) (hcd : d.collapsedSliceDims = [1]) (hob : d.operandBatchingDims = [])
    (hsb : d.startIndicesBatchingDims = []) (hsm : d.startIndexMap = [1]) (hiv : d.indexVectorDim = 1)
    (hss : d.sliceSizes = ![K, 1])
    (x : (⟨2, ![K, N]⟩ : Shape).Idx → α) (idx : IVec ⟨2, ![E, 1]⟩ w) (k : Fin K) (e : Fin E) :
    Host.gather d x idx (ix2 k e) = x (ix2 k (clampIdx N hN (idx (ix2 e 0)))) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: an offset axis, its coordinate passes through
    show 0 + GatherDims.offCoord _ (ix2 k e) 0 = k.val
    rw [Nat.zero_add]
    rfl
  | ⟨1, _⟩ =>
    -- the column axis: collapsed, addressed by the start index
    show GatherDims.start _ (ix2 k e) idx 1 + GatherDims.batchCoord _ (ix2 k e) 1 + GatherDims.offCoord _ (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun i => min (idx i).toInt.toNat (N - 1)) (?_ : _ = ix2 e 0)
    funext b; refine Fin.ext ?_
    match b with
    | ⟨0, _⟩ => rfl
    | ⟨1, _⟩ => rfl

/-- A P by Q tile of an A by B by P by Q table gathered at E pairs of start indices: tile e of the result is the
    tile at the e-th pair, each component read signed and clamped into its axis's range. -/
theorem gather_tile_lead_apply {A B P Q E w : Nat} (hA : 0 < A) (hB : 0 < B)
    (d : GatherDims ⟨4, ![A, B, P, Q]⟩ ⟨2, ![E, 2]⟩ ⟨3, ![E, P, Q]⟩)
    (hod : d.offsetDims = [1, 2]) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1, P, Q])
    (x : (⟨4, ![A, B, P, Q]⟩ : Shape).Idx → α) (idx : IVec ⟨2, ![E, 2]⟩ w) (e : Fin E) (p : Fin P) (q : Fin Q) :
    Host.gather d x idx (ix3 e p q)
      = x (ix4 (clampIdx A hA (idx (ix2 e 0))) (clampIdx B hB (idx (ix2 e 1))) p q) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the first table axis: collapsed, addressed by the first component of the start index
    show GatherDims.start _ (ix3 e p q) idx 0 + GatherDims.batchCoord _ (ix3 e p q) 0 + GatherDims.offCoord _ (ix3 e p q) 0 = _
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos (List.mem_cons.mpr (Or.inl rfl))]
    refine congrArg (fun i => min (idx i).toInt.toNat (A - 1)) (?_ : _ = ix2 e 0)
    funext b; refine Fin.ext ?_
    match b with
    | ⟨0, _⟩ => rfl
    | ⟨1, _⟩ => rfl
  | ⟨1, _⟩ =>
    -- the second table axis: collapsed, addressed by the second component
    show GatherDims.start _ (ix3 e p q) idx 1 + GatherDims.batchCoord _ (ix3 e p q) 1 + GatherDims.offCoord _ (ix3 e p q) 1 = _
    rw [GatherDims.batchCoord_eq_zero _ _ _ List.not_mem_nil,
      GatherDims.offCoord_eq_zero _ _ _ (fun h => ((GatherDims.mem_sKept _ _).mp h).1 (List.mem_cons.mpr (Or.inr (List.mem_singleton.mpr rfl))))]
    simp only [Nat.add_zero]
    unfold GatherDims.start
    rw [dif_pos (List.mem_cons.mpr (Or.inr (List.mem_singleton.mpr rfl)))]
    refine congrArg (fun i => min (idx i).toInt.toNat (B - 1)) (?_ : _ = ix2 e 1)
    funext b; refine Fin.ext ?_
    match b with
    | ⟨0, _⟩ => rfl
    | ⟨1, _⟩ => rfl
  | ⟨2, _⟩ =>
    -- the tile's row axis: an offset axis, its coordinate passes through
    show 0 + GatherDims.offCoord _ (ix3 e p q) 2 = p.val
    rw [Nat.zero_add]
    rfl
  | ⟨3, _⟩ =>
    -- the tile's column axis: an offset axis, its coordinate passes through
    show 0 + GatherDims.offCoord _ (ix3 e p q) 3 = q.val
    rw [Nat.zero_add]
    rfl

/-- The same table laid P by Q by A by B: tile e of the result, on the last axis, is the tile at the e-th pair of
    start indices, each component read signed and clamped into its axis's range. -/
theorem gather_tile_trail_apply {A B P Q E w : Nat} (hA : 0 < A) (hB : 0 < B)
    (d : GatherDims ⟨4, ![P, Q, A, B]⟩ ⟨2, ![E, 2]⟩ ⟨3, ![P, Q, E]⟩)
    (hod : d.offsetDims = [0, 1]) (hcd : d.collapsedSliceDims = [2, 3]) (hob : d.operandBatchingDims = [])
    (hsb : d.startIndicesBatchingDims = []) (hsm : d.startIndexMap = [2, 3]) (hiv : d.indexVectorDim = 1)
    (hss : d.sliceSizes = ![P, Q, 1, 1])
    (x : (⟨4, ![P, Q, A, B]⟩ : Shape).Idx → α) (idx : IVec ⟨2, ![E, 2]⟩ w) (p : Fin P) (q : Fin Q) (e : Fin E) :
    Host.gather d x idx (ix3 p q e)
      = x (ix4 p q (clampIdx A hA (idx (ix2 e 0))) (clampIdx B hB (idx (ix2 e 1)))) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the tile's row axis: an offset axis, its coordinate passes through
    show 0 + GatherDims.offCoord _ (ix3 p q e) 0 = p.val
    rw [Nat.zero_add]
    rfl
  | ⟨1, _⟩ =>
    -- the tile's column axis: an offset axis, its coordinate passes through
    show 0 + GatherDims.offCoord _ (ix3 p q e) 1 = q.val
    rw [Nat.zero_add]
    rfl
  | ⟨2, _⟩ =>
    -- the first table axis: collapsed, addressed by the first component of the start index
    show GatherDims.start _ (ix3 p q e) idx 2 + GatherDims.batchCoord _ (ix3 p q e) 2 + GatherDims.offCoord _ (ix3 p q e) 2 = _
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos (List.mem_cons.mpr (Or.inl rfl))]
    refine congrArg (fun i => min (idx i).toInt.toNat (A - 1)) (?_ : _ = ix2 e 0)
    funext b; refine Fin.ext ?_
    match b with
    | ⟨0, _⟩ => rfl
    | ⟨1, _⟩ => rfl
  | ⟨3, _⟩ =>
    -- the second table axis: collapsed, addressed by the second component
    show GatherDims.start _ (ix3 p q e) idx 3 + GatherDims.batchCoord _ (ix3 p q e) 3 + GatherDims.offCoord _ (ix3 p q e) 3 = _
    rw [GatherDims.batchCoord_eq_zero _ _ _ List.not_mem_nil,
      GatherDims.offCoord_eq_zero _ _ _ (fun h => ((GatherDims.mem_sKept _ _).mp h).1 (List.mem_cons.mpr (Or.inr (List.mem_singleton.mpr rfl))))]
    simp only [Nat.add_zero]
    unfold GatherDims.start
    rw [dif_pos (List.mem_cons.mpr (Or.inr (List.mem_singleton.mpr rfl)))]
    refine congrArg (fun i => min (idx i).toInt.toNat (B - 1)) (?_ : _ = ix2 e 1)
    funext b; refine Fin.ext ?_
    match b with
    | ⟨0, _⟩ => rfl
    | ⟨1, _⟩ => rfl

end Gather

section Scatter

/-- Update e of a scatter into a flat array of extent N lands on position a exactly when its index, read signed,
    is a (no clamping: an index outside [0, N - 1] lands nowhere). -/
theorem scatter_flat_resultIdx {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (idx : IVec ⟨2, ![E, 1]⟩ w) (e : Fin E) (a : Fin N) :
    d.resultIdx? (ix1 e) idx = some (ix1 a) ↔ (idx (ix2 e 0)).toInt = (a.val : Int) := by
  obtain ⟨uw, iw, sd, iv, wf⟩ := d
  simp only at huw hiw hsd hiv
  subst huw hiw hsd hiv
  -- on the one operand axis the start is the e-th index read signed, and the window coordinate is 0
  have key : ∀ a' : Fin (⟨1, ![N]⟩ : Shape).rank,
      ScatterDims.start (⟨[], [0], [0], 1, wf⟩ : ScatterDims ⟨1, ![N]⟩ ⟨2, ![E, 1]⟩ ⟨1, ![E]⟩) (ix1 e) idx a'
        + (ScatterDims.window (⟨[], [0], [0], 1, wf⟩ : ScatterDims ⟨1, ![N]⟩ ⟨2, ![E, 1]⟩ ⟨1, ![E]⟩) (ix1 e) a' : Int)
        = (idx (ix2 e 0)).toInt := by
    intro a'
    obtain rfl : a' = 0 := Subsingleton.elim _ _
    have hw : ScatterDims.window (⟨[], [0], [0], 1, wf⟩ : ScatterDims ⟨1, ![N]⟩ ⟨2, ![E, 1]⟩ ⟨1, ![E]⟩) (ix1 e) 0 = 0 := rfl
    rw [hw]
    unfold ScatterDims.start
    rw [dif_pos (List.mem_singleton.mpr rfl)]
    simp only [Nat.cast_zero, add_zero]
    refine congrArg (fun i => (idx i).toInt) (?_ : _ = ix2 e 0)
    funext b; refine Fin.ext ?_
    match b with
    | ⟨0, _⟩ => rfl
    | ⟨1, _⟩ => rfl
  generalize (⟨[], [0], [0], 1, wf⟩ : ScatterDims ⟨1, ![N]⟩ ⟨2, ![E, 1]⟩ ⟨1, ![E]⟩) = D at key ⊢
  unfold ScatterDims.resultIdx?
  split
  · next hc =>
    -- the landing position is inside the array: it is a exactly when the signed index is a
    have hc0 := hc 0
    rw [key 0] at hc0
    rw [Option.some.injEq]
    constructor
    · intro hf
      have h0 : (D.start (ix1 e) idx 0 + (D.window (ix1 e) 0 : Int)).toNat = a.val :=
        congrArg (fun f : (⟨1, ![N]⟩ : Shape).Idx => (f 0).val) hf
      rw [key 0] at h0
      omega
    · intro hz
      funext a'
      obtain rfl : a' = 0 := Subsingleton.elim _ _
      refine Fin.ext ?_
      show (D.start (ix1 e) idx 0 + (D.window (ix1 e) 0 : Int)).toNat = a.val
      rw [key 0]
      omega
  · next hc =>
    -- the landing position is outside the array, so the signed index is no position of it
    constructor
    · intro h
      exact absurd h (by simp)
    · intro hz
      exfalso
      apply hc
      intro a'
      obtain rfl : a' = 0 := Subsingleton.elim _ _
      rw [key 0]
      show 0 ≤ _ ∧ _ < (N : Int)
      have := a.isLt
      omega

/-- The accumulating scatter into a flat array at position a: the element there plus the sum of the updates whose
    index, read signed, is a. -/
theorem scatterAdd_flat_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (a : Fin N) :
    Ideal.hostScatterAdd d x idx upd (ix1 a)
      = x (ix1 a) + ∑ e ∈ Finset.univ.filter (fun e : Fin E => (idx (ix2 e 0)).toInt = (a.val : Int)), upd (ix1 e) := by
  unfold Ideal.hostScatterAdd
  congr 1
  -- the update positions are the indices e of Fin E, through e ↦ ix1 e
  refine Finset.sum_nbij' (fun j => (j 0 : Fin E)) (fun e => ix1 e) ?_ ?_ ?_ ?_ ?_
  · intro j hj
    have h2 := (Finset.mem_filter.mp hj).2
    rw [eq_ix1 j] at h2
    exact Finset.mem_filter.mpr ⟨Finset.mem_univ _, (scatter_flat_resultIdx d huw hiw hsd hiv idx (j 0) a).mp h2⟩
  · intro e he
    exact Finset.mem_filter.mpr ⟨Finset.mem_univ _,
      (scatter_flat_resultIdx d huw hiw hsd hiv idx e a).mpr (Finset.mem_filter.mp he).2⟩
  · intro j _
    exact (eq_ix1 j).symm
  · intro e _
    rfl
  · intro j _
    exact congrArg upd (eq_ix1 j)

end Scatter

section Concatenate
variable {α : Type}

/-- Two flat arrays of extents n and p laid end to end: position j reads the first array below n and the second,
    at j - n, from n on. -/
theorem concatenate_flat_apply {n p t : Nat} (ht : t = n + p)
    (a : (⟨1, ![n]⟩ : Shape).Idx → α) (b : (⟨1, ![p]⟩ : Shape).Idx → α)
    (h : Shape.Concatenates [⟨1, ![n]⟩, ⟨1, ![p]⟩] ⟨1, ![t]⟩ 0) (j : Fin t) :
    concatenate ⟨1, ![t]⟩ 0 [⟨⟨1, ![n]⟩, a⟩, ⟨⟨1, ![p]⟩, b⟩] h (ix1 j)
      = if hj : j.val < n then a (ix1 ⟨j.val, hj⟩) else b (ix1 ⟨j.val - n, by omega⟩) := by
  by_cases hj : j.val < n
  · rw [dif_pos hj]
    exact concatenate_pair_apply_left 0 a b h (ix1 j) rfl (ix1 ⟨j.val, hj⟩) (fun c => by
      obtain rfl : c = 0 := Subsingleton.elim _ _
      rfl)
  · rw [dif_neg hj]
    exact concatenate_pair_apply_right 0 a b h (ix1 j) rfl rfl (ix1 ⟨j.val - n, by omega⟩)
      (fun c hc => absurd (Subsingleton.elim _ _) hc)
      (by show j.val - n + n = j.val; omega)

/-- Two columns of height E laid side by side: the entry in row e reads the first column at column 0 and the second
    at column 1. -/
theorem concatenate_cols_apply {E : Nat}
    (a b : (⟨2, ![E, 1]⟩ : Shape).Idx → α)
    (h : Shape.Concatenates [⟨2, ![E, 1]⟩, ⟨2, ![E, 1]⟩] ⟨2, ![E, 2]⟩ 1) (e : Fin E) (c : Fin 2) :
    concatenate ⟨2, ![E, 2]⟩ 1 [⟨⟨2, ![E, 1]⟩, a⟩, ⟨⟨2, ![E, 1]⟩, b⟩] h (ix2 e c)
      = if c.val = 0 then a (ix2 e 0) else b (ix2 e 0) := by
  match c with
  | ⟨0, _⟩ =>
    rw [if_pos rfl]
    exact concatenate_pair_apply_left 1 a b h (ix2 e 0) rfl (ix2 e 0) (fun c => by
      match c with
      | ⟨0, _⟩ => rfl
      | ⟨1, _⟩ => rfl)
  | ⟨1, _⟩ =>
    rw [if_neg Nat.one_ne_zero]
    exact concatenate_pair_apply_right 1 a b h (ix2 e 1) rfl rfl (ix2 e 0)
      (fun c hc => by
        match c with
        | ⟨0, _⟩ => rfl
        | ⟨1, _⟩ => exact absurd rfl hc)
      rfl

end Concatenate

end Cert.IndexOps

end
-- ==== Proof.KHost0.lean ====
/-
  The first stretch of host operations, read at an index.

  The program pads the two lists of index words with zero words, wraps each word once by the number of atoms when
  it is negative, and gathers at it (the gather clamps): the element numbers, the positions (transposed first),
  and, at the gathered element numbers wrapped by the number of elements, the covalent radii.  So at entry e the
  counting region's inputs are the two endpoints' positions, the sum of their covalent radii, and the mask that
  is 1.0 on the real pairs and 0.0 on the padding.
-/
import proofs.«136451_j74294344286992_1_alg».proof.Proof.Gen.KernelIdeal.Frame
import proofs.«136451_j74294344286992_1_alg».proof.Proof.Spec
import proofs.«136451_j74294344286992_1_alg».proof.Proof.Padded
import proofs.«136451_j74294344286992_1_alg».proof.Proof.LibIndexOps

set_option maxRecDepth 16384

noncomputable section

namespace Cert.KernelIdeal.ValH

open Idealize.ShloMosaic Idealize.ShloMosaic.TcCoe Idealize.ShloMosaic.Tactic Idealize.SL.Sem
open Idealize.ShloMosaic.ValueIdx
open Cert.KernelIdeal Cert.KernelIdeal.Gen Cert.IndexOps

variable (m : (ℓ : Loc nD τ sig) → Buf (Elt Ideal) ℓ) (ρ : Dev nD → PrngReg) (c : Dev nD)

open Cert.Disp (padI maskAt wrapIdx atomOf elemOf elemAt lit)

/-- Rewrites an operation's result at its own buffer to its function's value, and at any other buffer to what
    was there before. -/
macro "results_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-! ## The program's index pipelines, over arbitrary arrays -/

section Generic
variable {α : Type}

/-- A list of 2000000 words followed by 31616 zero words. -/
abbrev padTerm (I : IVec S2000000 32) : IVec S2031616 32 :=
  concatenate S2031616 0 [⟨S2000000, I⟩, ⟨S31616, broadcastInDim S31616 ![] bcast_S_S31616 (constantI S_ 32 0#32)⟩]
    concatenates_S2000000_S31616_S2031616_d0

theorem padTerm_apply (I : IVec S2000000 32) (e : Fin 2031616) : padTerm I (ix1 e) = padI I e :=
  (concatenate_flat_apply (n := 2000000) (p := 31616) (t := 2031616) rfl I _ concatenates_S2000000_S31616_S2031616_d0 e).trans rfl

/-- A row vector broadcast from a flat one reads the flat one. -/
theorem rowBcast_apply (v : S2031616.Idx → α) (e : Fin 2031616) :
    broadcastInDim S1x2031616 ![1] bcast_S2031616_S1x2031616_1 v (ix2 0 e) = v (ix1 e) :=
  broadcastInDim_apply _ _ v (ix2 0 e) (ix1 e) fun a => by
    obtain rfl : a = 0 := Subsingleton.elim _ _
    rfl

/-- 2000000 words of 1.0 followed by 31616 words of 0.0, as a row. -/
abbrev maskTerm : FVec Ideal S1x2031616 .f32 :=
  broadcastInDim S1x2031616 ![1] bcast_S2031616_S1x2031616_1
    (concatenate S2031616 0
      [⟨S2000000, broadcastInDim S2000000 ![] bcast_S_S2000000 (constant (F := Ideal) S_ .f32 0x3F800000#32)⟩,
        ⟨S31616, broadcastInDim S31616 ![] bcast_S_S31616 (constant (F := Ideal) S_ .f32 0x00000000#32)⟩]
      concatenates_S2000000_S31616_S2031616_d0)

theorem maskTerm_apply (e : Fin 2031616) : maskTerm (ix2 0 e) = maskAt e := by
  refine (rowBcast_apply _ e).trans ?_
  exact (concatenate_flat_apply (n := 2000000) (p := 31616) (t := 2031616) rfl _ _ concatenates_S2000000_S31616_S2031616_d0 e).trans rfl

/-- The column of start indices: each word wrapped once by n when negative. -/
abbrev wrapCol (n : BitVec 32) (z : IVec S2031616 32) : IVec S2031616x1 32 :=
  broadcastInDim S2031616x1 ![0] bcast_S2031616_S2031616x1_0
    (select (cmpi .slt z (broadcastInDim S2031616 ![] bcast_S_S2031616 (constantI S_ 32 0#32)))
      (addi z (broadcastInDim S2031616 ![] bcast_S_S2031616 (constantI S_ 32 n))) z)

theorem wrapCol_apply (n : BitVec 32) (z : IVec S2031616 32) (e : Fin 2031616) :
    wrapCol n z (ix2 e 0) = wrapIdx n (z (ix1 e)) :=
  (broadcastInDim_apply _ _ _ (ix2 e 0) (ix1 e) fun a => by
    obtain rfl : a = 0 := Subsingleton.elim _ _
    rfl).trans rfl

/-- A table over the 50000 atoms gathered at the wrapped index words. -/
theorem gatherAtom_apply (x : S50000.Idx → α) (z : IVec S2031616 32) (e : Fin 2031616) :
    Host.gather gather_S50000_S2031616x1_S2031616_n_0_n_n_0_1_1 x (wrapCol 50000#32 z) (ix1 e)
      = x (ix1 (atomOf (z (ix1 e)))) := by
  refine (gather_flat_apply (N := 50000) (E := 2031616) (by decide) _ rfl rfl rfl rfl rfl rfl rfl x _ e).trans ?_
  rw [wrapCol_apply]
  rfl

/-- A table over the 95 elements gathered at the wrapped element numbers. -/
theorem gatherElem_apply (x : S95.Idx → α) (z : IVec S2031616 32) (e : Fin 2031616) :
    Host.gather gather_S95_S2031616x1_S2031616_n_0_n_n_0_1_1 x (wrapCol 95#32 z) (ix1 e)
      = x (ix1 (elemOf (z (ix1 e)))) := by
  refine (gather_flat_apply (N := 95) (E := 2031616) (by decide) _ rfl rfl rfl rfl rfl rfl rfl x _ e).trans ?_
  rw [wrapCol_apply]
  rfl

/-- The transposed positions gathered at the wrapped index words: coordinate k of the atom the word names. -/
theorem gatherPos_apply (x : S50000x3.Idx → α) (z : IVec S2031616 32) (k : Fin 3) (e : Fin 2031616) :
    Host.gather gather_S3x50000_S2031616x1_S3x2031616_0_1_n_n_1_1_31
        (transpose S3x50000 [1, 0] x transposes_S50000x3_S3x50000_1_0) (wrapCol 50000#32 z) (ix2 k e)
      = x (ix2 (atomOf (z (ix1 e))) k) := by
  refine (gather_cols_apply (N := 50000) (K := 3) (E := 2031616) (by decide) _ rfl rfl rfl rfl rfl rfl rfl _ _ k e).trans ?_
  rw [wrapCol_apply]
  exact transpose_apply [1, 0] x transposes_S50000x3_S3x50000_1_0 _ (ix2 (atomOf (z (ix1 e))) k) fun b => by
    match b with
    | ⟨0, _⟩ => rfl
    | ⟨1, _⟩ => rfl

end Generic

/-! ## The arguments -/

/-- The positions. -/
abbrev argP : S50000x3.Idx → EReal := m ((c : Thread nD τ).loc main_arg0)
/-- The element numbers. -/
abbrev argZ : IVec S50000 32 := m ((c : Thread nD τ).loc main_arg1)
/-- The first index words of the pairs. -/
abbrev argI : IVec S2000000 32 := m ((c : Thread nD τ).loc main_arg2)
/-- The second index words of the pairs. -/
abbrev argJ : IVec S2000000 32 := m ((c : Thread nD τ).loc main_arg3)
/-- The covalent radii. -/
abbrev argRC : S95.Idx → EReal := m ((c : Thread nD τ).loc main_arg4)

/-! ## The buffers after the stretch, as the operations' terms -/

/-- The first index words, padded. -/
theorem W1_v1_term : W1 (F := Ideal) m ρ c (Proc.devRef .tc main_v1) = padTerm (argI m c) := by
  show StableHlo.after hostOps0 (W0 m ρ c) (Proc.devRef .tc main_v1) = _
  after_results_simp
  results_rw
  all_goals rfl

/-- The second index words, padded. -/
theorem W1_v3_term : W1 (F := Ideal) m ρ c (Proc.devRef .tc main_v3) = padTerm (argJ m c) := by
  show StableHlo.after hostOps0 (W0 m ρ c) (Proc.devRef .tc main_v3) = _
  after_results_simp
  results_rw
  all_goals rfl

/-- The element numbers of the first endpoints. -/
theorem W1_v14_term : W1 (F := Ideal) m ρ c (Proc.devRef .tc main_v14) = Host.gather gather_S50000_S2031616x1_S2031616_n_0_n_n_0_1_1 (argZ m c) (wrapCol 50000#32 (padTerm (argI m c))) := by
  show StableHlo.after hostOps0 (W0 m ρ c) (Proc.devRef .tc main_v14) = _
  after_results_simp
  results_rw
  all_goals rfl

/-- The element numbers of the second endpoints. -/
theorem W1_v21_term : W1 (F := Ideal) m ρ c (Proc.devRef .tc main_v21) = Host.gather gather_S50000_S2031616x1_S2031616_n_0_n_n_0_1_1 (argZ m c) (wrapCol 50000#32 (padTerm (argJ m c))) := by
  show StableHlo.after hostOps0 (W0 m ρ c) (Proc.devRef .tc main_v21) = _
  after_results_simp
  results_rw
  all_goals rfl

/-- The positions of the first endpoints. -/
theorem V1_v29_term : V1 (F := Ideal) m ρ c main_v29
    = Host.gather gather_S3x50000_S2031616x1_S3x2031616_0_1_n_n_1_1_31
        (transpose S3x50000 [1, 0] (argP m c) transposes_S50000x3_S3x50000_1_0) (wrapCol 50000#32 (padTerm (argI m c))) := by
  show StableHlo.after hostOps0 (W0 m ρ c) (Proc.devRef .tc main_v29) = _
  after_results_simp
  results_rw
  all_goals rfl

/-- The positions of the second endpoints. -/
theorem V1_v36_term : V1 (F := Ideal) m ρ c main_v36
    = Host.gather gather_S3x50000_S2031616x1_S3x2031616_0_1_n_n_1_1_31
        (transpose S3x50000 [1, 0] (argP m c) transposes_S50000x3_S3x50000_1_0) (wrapCol 50000#32 (padTerm (argJ m c))) := by
  show StableHlo.after hostOps0 (W0 m ρ c) (Proc.devRef .tc main_v36) = _
  after_results_simp
  results_rw
  all_goals rfl

/-- The summed covalent radii. -/
theorem V1_v52_term : V1 (F := Ideal) m ρ c main_v52
    = broadcastInDim S1x2031616 ![1] bcast_S2031616_S1x2031616_1
        (addf (F := Ideal) (φ := .f32) (Host.gather gather_S95_S2031616x1_S2031616_n_0_n_n_0_1_1 (argRC m c) (wrapCol 95#32 (Host.gather gather_S50000_S2031616x1_S2031616_n_0_n_n_0_1_1 (argZ m c) (wrapCol 50000#32 (padTerm (argI m c))))))
          (Host.gather gather_S95_S2031616x1_S2031616_n_0_n_n_0_1_1 (argRC m c) (wrapCol 95#32 (Host.gather gather_S50000_S2031616x1_S2031616_n_0_n_n_0_1_1 (argZ m c) (wrapCol 50000#32 (padTerm (argJ m c))))))) := by
  show StableHlo.after hostOps0 (W0 m ρ c) (Proc.devRef .tc main_v52) = _
  after_results_simp
  results_rw
  all_goals rfl

/-- The mask. -/
theorem V1_v7_term : V1 (F := Ideal) m ρ c main_v7 = maskTerm := by
  show StableHlo.after hostOps0 (W0 m ρ c) (Proc.devRef .tc main_v7) = _
  after_results_simp
  results_rw
  all_goals rfl

/-! ## The same buffers at an entry -/

theorem W1_v1 (e : Fin 2031616) : W1 (F := Ideal) m ρ c (Proc.devRef .tc main_v1) (ix1 e) = padI (argI m c) e := by
  rw [W1_v1_term]
  exact padTerm_apply _ e

theorem W1_v3 (e : Fin 2031616) : W1 (F := Ideal) m ρ c (Proc.devRef .tc main_v3) (ix1 e) = padI (argJ m c) e := by
  rw [W1_v3_term]
  exact padTerm_apply _ e

theorem W1_v14 (e : Fin 2031616) :
    W1 (F := Ideal) m ρ c (Proc.devRef .tc main_v14) (ix1 e) = argZ m c (ix1 (atomOf (padI (argI m c) e))) := by
  rw [W1_v14_term, gatherAtom_apply, padTerm_apply]

theorem W1_v21 (e : Fin 2031616) :
    W1 (F := Ideal) m ρ c (Proc.devRef .tc main_v21) (ix1 e) = argZ m c (ix1 (atomOf (padI (argJ m c) e))) := by
  rw [W1_v21_term, gatherAtom_apply, padTerm_apply]

/-- Coordinate k of the first endpoint of entry e. -/
theorem V1_v29 (k : Fin 3) (e : Fin 2031616) :
    V1 (F := Ideal) m ρ c main_v29 (ix2 k e) = argP m c (ix2 (atomOf (padI (argI m c) e)) k) := by
  rw [V1_v29_term, gatherPos_apply, padTerm_apply]

/-- Coordinate k of the second endpoint of entry e. -/
theorem V1_v36 (k : Fin 3) (e : Fin 2031616) :
    V1 (F := Ideal) m ρ c main_v36 (ix2 k e) = argP m c (ix2 (atomOf (padI (argJ m c) e)) k) := by
  rw [V1_v36_term, gatherPos_apply, padTerm_apply]

/-- The summed covalent radii of entry e's endpoints. -/
theorem V1_v52 (e : Fin 2031616) :
    V1 (F := Ideal) m ρ c main_v52 (ix2 0 e)
      = argRC m c (ix1 (elemAt (argZ m c) (atomOf (padI (argI m c) e))))
        + argRC m c (ix1 (elemAt (argZ m c) (atomOf (padI (argJ m c) e)))) := by
  rw [V1_v52_term, rowBcast_apply, addf_apply, gatherElem_apply, gatherElem_apply, gatherAtom_apply, gatherAtom_apply,
    padTerm_apply, padTerm_apply]
  rfl

/-- The mask at entry e. -/
theorem V1_v7 (e : Fin 2031616) : V1 (F := Ideal) m ρ c main_v7 (ix2 0 e) = maskAt e := by
  rw [V1_v7_term]
  exact maskTerm_apply e

end Cert.KernelIdeal.ValH
end
-- ==== Proof.KHost1.lean ====
/-
  The second stretch of host operations, read at an index.

  The counting region's output is re-laid flat and accumulated per atom, from the zero word, at the pairs' first
  index words (not wrapped: a word outside the atoms lands nowhere): the coordination numbers.  They are gathered
  at the two wrapped index words; the reference table (transposed), the coefficient table (transposed, at the pair
  of element numbers) and the r4r2 table are gathered at the endpoints' wrapped element numbers.  So at entry e the
  energy region's inputs are the two endpoints' coordination numbers, their elements' reference slots, the 5 by 5
  coefficient tile of the two elements, their r4r2 values, the distances as the counting region left them, and the
  mask.
-/
import proofs.«136451_j74294344286992_1_alg».proof.Proof.KHost0

set_option maxRecDepth 16384

noncomputable section

namespace Cert.KernelIdeal.ValH

open Idealize.ShloMosaic Idealize.ShloMosaic.TcCoe Idealize.ShloMosaic.Tactic Idealize.SL.Sem
open Idealize.ShloMosaic.ValueIdx
open Cert.KernelIdeal Cert.KernelIdeal.Gen Cert.IndexOps
open Cert.Disp (padI maskAt wrapIdx atomOf elemOf elemAt lit)

variable (m : (ℓ : Loc nD τ sig) → Buf (Elt Ideal) ℓ) (ρ : Dev nD → PrngReg) (c : Dev nD)

/-! ## The second stretch's pipelines, over arbitrary arrays -/

section Generic1
variable {α : Type}

/-- A column broadcast from a flat vector reads the flat one. -/
theorem colBcast_apply (v : S2031616.Idx → α) (e : Fin 2031616) :
    broadcastInDim S2031616x1 ![0] bcast_S2031616_S2031616x1_0 v (ix2 e 0) = v (ix1 e) :=
  broadcastInDim_apply _ _ v (ix2 e 0) (ix1 e) fun a => by
    obtain rfl : a = 0 := Subsingleton.elim _ _
    rfl

/-- A row re-laid flat reads the row. -/
theorem flatCast_apply (u : S1x2031616.Idx → α) (e : Fin 2031616) :
    shapeCast S2031616 u shapeCasts_S1x2031616_S2031616 (ix1 e) = u (ix2 0 e) := by
  refine (shapeCast_dropUnit_apply ![2031616] u shapeCasts_S1x2031616_S2031616 (ix1 e)).trans (congrArg u ?_)
  funext a
  match a with
  | ⟨0, _⟩ => rfl
  | ⟨1, _⟩ => rfl

/-- At the ideal instance the accumulating scatter into a flat array is the exact sum: the element there plus the
    updates whose index, read signed, is its position. -/
theorem hostScatterAdd_flat {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (a : Fin N) :
    Host.scatterAdd (F := Ideal) d x idx upd (ix1 a)
      = x (ix1 a) + ∑ e ∈ Finset.univ.filter (fun e : Fin E => (idx (ix2 e 0)).toInt = (a.val : Int)), upd (ix1 e) := by
  simp only [Host.scatterAdd, Ideal.hostScatterAdd_def]
  exact scatterAdd_flat_apply d huw hiw hsd hiv x idx upd a

/-- The per-atom sums: from the zero word, each entry's value added at the atom its (unwrapped) index word names. -/
abbrev cnTerm (z : IVec S2031616 32) (cf : FVec Ideal S1x2031616 .f32) : FVec Ideal S50000 .f32 :=
  Host.scatterAdd (F := Ideal) scatter_S50000_S2031616x1_S2031616_n_0_0_1
    (broadcastInDim S50000 ![] bcast_S_S50000 (constant (F := Ideal) S_ .f32 0x00000000#32))
    (broadcastInDim S2031616x1 ![0] bcast_S2031616_S2031616x1_0 z)
    (shapeCast S2031616 cf shapeCasts_S1x2031616_S2031616)

theorem cnTerm_apply (z : IVec S2031616 32) (cf : FVec Ideal S1x2031616 .f32) (k : Fin 50000) :
    cnTerm z cf (ix1 k)
      = lit 0x00000000#32 + ∑ e ∈ Finset.univ.filter (fun e : Fin 2031616 => (z (ix1 e)).toInt = (k.val : Int)), cf (ix2 0 e) := by
  refine (hostScatterAdd_flat (N := 50000) (E := 2031616) scatter_S50000_S2031616x1_S2031616_n_0_0_1 rfl rfl rfl rfl _ _ _ k).trans ?_
  refine congrArg₂ (· + ·) rfl (Finset.sum_congr (Finset.filter_congr fun e _ => ?_) fun e _ => flatCast_apply cf e)
  rw [colBcast_apply]

/-- The transposed reference table gathered at the wrapped element numbers: slot p of the element the word names. -/
theorem gatherRef_apply (x : S95x5.Idx → α) (z : IVec S2031616 32) (p : Fin 5) (e : Fin 2031616) :
    Host.gather gather_S5x95_S2031616x1_S5x2031616_0_1_n_n_1_1_51
        (transpose S5x95 [1, 0] x transposes_S95x5_S5x95_1_0) (wrapCol 95#32 z) (ix2 p e)
      = x (ix2 (elemOf (z (ix1 e))) p) := by
  refine (gather_cols_apply (N := 95) (K := 5) (E := 2031616) (by decide) _ rfl rfl rfl rfl rfl rfl rfl _ _ p e).trans ?_
  rw [wrapCol_apply]
  exact transpose_apply [1, 0] x transposes_S95x5_S5x95_1_0 _ (ix2 (elemOf (z (ix1 e))) p) fun b => by
    match b with
    | ⟨0, _⟩ => rfl
    | ⟨1, _⟩ => rfl

/-- Two concatenations of two pieces are equal when their pieces are. -/
theorem concatenate_pair_congr {t s₁ s₂ : Shape} {a : Fin t.rank} {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂
  rfl

/-- The two columns of wrapped element numbers, side by side. -/
abbrev pairCol (z1 z2 : IVec S2031616 32) : IVec S2031616x2 32 :=
  concatenate S2031616x2 1 [⟨S2031616x1, wrapCol 95#32 z1⟩, ⟨S2031616x1, wrapCol 95#32 z2⟩]
    concatenates_S2031616x1_S2031616x1_S2031616x2_d1

/-- The transposed coefficient table gathered at the pairs of wrapped element numbers: the 5 by 5 tile of the two elements. -/
theorem gatherC6_apply (x : S95x95x5x5.Idx → α) (z1 z2 : IVec S2031616 32) (p q : Fin 5) (e : Fin 2031616) :
    Host.gather gather_S5x5x95x95_S2031616x2_S5x5x2031616_01_23_n_n_23_1_5511
        (transpose S5x5x95x95 [2, 3, 0, 1] x transposes_S95x95x5x5_S5x5x95x95_2_3_0_1) (pairCol z1 z2) (ix3 p q e)
      = x (ix4 (elemOf (z1 (ix1 e))) (elemOf (z2 (ix1 e))) p q) := by
  refine (gather_tile_trail_apply (A := 95) (B := 95) (P := 5) (Q := 5) (E := 2031616) (by decide) (by decide) _
    rfl rfl rfl rfl rfl rfl rfl _ _ p q e).trans ?_
  have h0 : pairCol z1 z2 (ix2 e 0) = wrapIdx 95#32 (z1 (ix1 e)) :=
    ((concatenate_cols_apply _ _ _ e 0).trans (if_pos rfl)).trans (wrapCol_apply _ _ e)
  have h1 : pairCol z1 z2 (ix2 e 1) = wrapIdx 95#32 (z2 (ix1 e)) :=
    ((concatenate_cols_apply _ _ _ e 1).trans (if_neg (by decide))).trans (wrapCol_apply _ _ e)
  rw [h0, h1]
  exact transpose_apply [2, 3, 0, 1] x transposes_S95x95x5x5_S5x5x95x95_2_3_0_1 _
    (ix4 (elemOf (z1 (ix1 e))) (elemOf (z2 (ix1 e))) p q) fun b => by
    match b with
    | ⟨0, _⟩ => rfl
    | ⟨1, _⟩ => rfl
    | ⟨2, _⟩ => rfl
    | ⟨3, _⟩ => rfl

end Generic1

/-! ## The arguments the second stretch reads, and the counting region's output -/

/-- The r4r2 table. -/
abbrev argR4 : S95.Idx → EReal := m ((c : Thread nD τ).loc main_arg5)
/-- The coefficient table. -/
abbrev argC6 : S95x95x5x5.Idx → EReal := m ((c : Thread nD τ).loc main_arg6)
/-- The reference coordination numbers. -/
abbrev argCR : S95x5.Idx → EReal := m ((c : Thread nD τ).loc main_arg7)

/-! ## Buffers the stretch reads: as the first stretch and the counting region left them -/

theorem W2_v1 : W2 (F := Ideal) m ρ c (Proc.devRef .tc main_v1) = padTerm (argI m c) :=
  (W2_of_ne m ρ c main_v1 (by decide)).trans (W1_v1_term m ρ c)

theorem W2_v3 : W2 (F := Ideal) m ρ c (Proc.devRef .tc main_v3) = padTerm (argJ m c) :=
  (W2_of_ne m ρ c main_v3 (by decide)).trans (W1_v3_term m ρ c)

theorem W2_v14 : W2 (F := Ideal) m ρ c (Proc.devRef .tc main_v14)
    = Host.gather gather_S50000_S2031616x1_S2031616_n_0_n_n_0_1_1 (argZ m c) (wrapCol 50000#32 (padTerm (argI m c))) :=
  (W2_of_ne m ρ c main_v14 (by decide)).trans (W1_v14_term m ρ c)

theorem W2_v21 : W2 (F := Ideal) m ρ c (Proc.devRef .tc main_v21)
    = Host.gather gather_S50000_S2031616x1_S2031616_n_0_n_n_0_1_1 (argZ m c) (wrapCol 50000#32 (padTerm (argJ m c))) :=
  (W2_of_ne m ρ c main_v21 (by decide)).trans (W1_v21_term m ρ c)

/-- The mask is an input of the counting region, which leaves it as it found it. -/
theorem W2_v7 : W2 (F := Ideal) m ρ c (Proc.devRef .tc main_v7) = V1 m ρ c main_v7 :=
  (W2_arr m ρ c 3).trans (((dat0 (V1 m ρ) c).arrAt_in 3 rfl cfg0.N).trans (A_eq0 (V1 m ρ) c 3))

theorem W2_arg5 : W2 (F := Ideal) m ρ c (Proc.devRef .tc main_arg5) = argR4 m c := by
  rw [W2_of_ne m ρ c main_arg5 (by decide)]
  show StableHlo.after hostOps0 (W0 m ρ c) (Proc.devRef .tc main_arg5) = _
  after_results_simp
  all_goals rfl

theorem W2_arg6 : W2 (F := Ideal) m ρ c (Proc.devRef .tc main_arg6) = argC6 m c := by
  rw [W2_of_ne m ρ c main_arg6 (by decide)]
  show StableHlo.after hostOps0 (W0 m ρ c) (Proc.devRef .tc main_arg6) = _
  after_results_simp
  all_goals rfl

theorem W2_arg7 : W2 (F := Ideal) m ρ c (Proc.devRef .tc main_arg7) = argCR m c := by
  rw [W2_of_ne m ρ c main_arg7 (by decide)]
  show StableHlo.after hostOps0 (W0 m ρ c) (Proc.devRef .tc main_arg7) = _
  after_results_simp
  all_goals rfl

/-! ## The buffers after the stretch, as the operations' terms -/

/-- The distances: no operation of the stretch writes them. -/
theorem V3_v53_1 : V3 (F := Ideal) m ρ c main_v53_1 = W2 m ρ c (Proc.devRef .tc main_v53_1) := by
  show StableHlo.after hostOps1 (W2 m ρ c) (Proc.devRef .tc main_v53_1) = _
  after_results_simp
  results_rw
  all_goals rfl

theorem V3_v7_term : V3 (F := Ideal) m ρ c main_v7 = W2 m ρ c (Proc.devRef .tc main_v7) := by
  show StableHlo.after hostOps1 (W2 m ρ c) (Proc.devRef .tc main_v7) = _
  after_results_simp
  results_rw
  all_goals rfl

/-- The coordination numbers of the first endpoints. -/
theorem V3_v65_term : V3 (F := Ideal) m ρ c main_v65
    = broadcastInDim S1x2031616 ![1] bcast_S2031616_S1x2031616_1
        (Host.gather gather_S50000_S2031616x1_S2031616_n_0_n_n_0_1_1 (cnTerm (W2 m ρ c (Proc.devRef .tc main_v1)) (W2 m ρ c (Proc.devRef .tc main_v53_0)))
          (wrapCol 50000#32 (W2 m ρ c (Proc.devRef .tc main_v1)))) := by
  show StableHlo.after hostOps1 (W2 m ρ c) (Proc.devRef .tc main_v65) = _
  after_results_simp
  results_rw
  all_goals rfl

/-- The coordination numbers of the second endpoints. -/
theorem V3_v73_term : V3 (F := Ideal) m ρ c main_v73
    = broadcastInDim S1x2031616 ![1] bcast_S2031616_S1x2031616_1
        (Host.gather gather_S50000_S2031616x1_S2031616_n_0_n_n_0_1_1 (cnTerm (W2 m ρ c (Proc.devRef .tc main_v1)) (W2 m ρ c (Proc.devRef .tc main_v53_0)))
          (wrapCol 50000#32 (W2 m ρ c (Proc.devRef .tc main_v3)))) := by
  show StableHlo.after hostOps1 (W2 m ρ c) (Proc.devRef .tc main_v73) = _
  after_results_simp
  results_rw
  all_goals rfl

/-- The reference slots of the first endpoints' elements. -/
theorem V3_v81_term : V3 (F := Ideal) m ρ c main_v81
    = Host.gather gather_S5x95_S2031616x1_S5x2031616_0_1_n_n_1_1_51
        (transpose S5x95 [1, 0] (W2 m ρ c (Proc.devRef .tc main_arg7)) transposes_S95x5_S5x95_1_0) (wrapCol 95#32 (W2 m ρ c (Proc.devRef .tc main_v14))) := by
  show StableHlo.after hostOps1 (W2 m ρ c) (Proc.devRef .tc main_v81) = _
  after_results_simp
  results_rw
  all_goals rfl

/-- The reference slots of the second endpoints' elements. -/
theorem V3_v88_term : V3 (F := Ideal) m ρ c main_v88
    = Host.gather gather_S5x95_S2031616x1_S5x2031616_0_1_n_n_1_1_51
        (transpose S5x95 [1, 0] (W2 m ρ c (Proc.devRef .tc main_arg7)) transposes_S95x5_S5x95_1_0) (wrapCol 95#32 (W2 m ρ c (Proc.devRef .tc main_v21))) := by
  show StableHlo.after hostOps1 (W2 m ρ c) (Proc.devRef .tc main_v88) = _
  after_results_simp
  results_rw
  all_goals rfl

/-- The coefficient tiles of the pairs of elements. -/
theorem V3_v103_term : V3 (F := Ideal) m ρ c main_v103
    = Host.gather gather_S5x5x95x95_S2031616x2_S5x5x2031616_01_23_n_n_23_1_5511
        (transpose S5x5x95x95 [2, 3, 0, 1] (W2 m ρ c (Proc.devRef .tc main_arg6)) transposes_S95x95x5x5_S5x5x95x95_2_3_0_1)
        (pairCol (W2 m ρ c (Proc.devRef .tc main_v14)) (W2 m ρ c (Proc.devRef .tc main_v21))) := by
  show StableHlo.after hostOps1 (W2 m ρ c) (Proc.devRef .tc main_v103) = _
  after_results_simp
  refine congrArg _ (concatenate_pair_congr _ ?_ ?_)
  · after_results_simp
    all_goals rfl
  · after_results_simp
    all_goals rfl

/-- The r4r2 values of the first endpoints' elements. -/
theorem V3_v111_term : V3 (F := Ideal) m ρ c main_v111
    = broadcastInDim S1x2031616 ![1] bcast_S2031616_S1x2031616_1
        (Host.gather gather_S95_S2031616x1_S2031616_n_0_n_n_0_1_1 (W2 m ρ c (Proc.devRef .tc main_arg5)) (wrapCol 95#32 (W2 m ρ c (Proc.devRef .tc main_v14)))) := by
  show StableHlo.after hostOps1 (W2 m ρ c) (Proc.devRef .tc main_v111) = _
  after_results_simp
  results_rw
  all_goals rfl

/-- The r4r2 values of the second endpoints' elements. -/
theorem V3_v119_term : V3 (F := Ideal) m ρ c main_v119
    = broadcastInDim S1x2031616 ![1] bcast_S2031616_S1x2031616_1
        (Host.gather gather_S95_S2031616x1_S2031616_n_0_n_n_0_1_1 (W2 m ρ c (Proc.devRef .tc main_arg5)) (wrapCol 95#32 (W2 m ρ c (Proc.devRef .tc main_v21)))) := by
  show StableHlo.after hostOps1 (W2 m ρ c) (Proc.devRef .tc main_v119) = _
  after_results_simp
  results_rw
  all_goals rfl

/-! ## The same buffers at an entry -/

/-- The mask at entry e. -/
theorem V3_v7 (e : Fin 2031616) : V3 (F := Ideal) m ρ c main_v7 (ix2 0 e) = maskAt e := by
  rw [V3_v7_term, W2_v7]
  exact V1_v7 m ρ c e

/-- The per-atom sums at atom k are the coordination numbers accumulated from the counting region's output. -/
theorem cnTerm_pad (cf : FVec Ideal S1x2031616 .f32) (I : IVec S2000000 32) (k : Fin 50000) :
    cnTerm (padTerm I) cf (ix1 k) = Cert.Disp.cnOver cf I k := by
  rw [cnTerm_apply]
  have h : Cert.Disp.cnOver cf I k
      = lit 0x00000000#32
        + ∑ e ∈ Finset.univ.filter (fun e : Fin 2031616 => (padI I e).toInt = (k.val : Int)), cf (ix2 0 e) := rfl
  rw [h]
  refine congrArg₂ (· + ·) rfl (Finset.sum_congr (Finset.filter_congr fun e' _ => ?_) fun _ _ => rfl)
  rw [padTerm_apply]

/-- The coordination number of entry e's first endpoint. -/
theorem V3_v65 (e : Fin 2031616) :
    V3 (F := Ideal) m ρ c main_v65 (ix2 0 e)
      = Cert.Disp.cnOver (W2 m ρ c (Proc.devRef .tc main_v53_0)) (argI m c) (atomOf (padI (argI m c) e)) := by
  rw [V3_v65_term, W2_v1, rowBcast_apply, gatherAtom_apply, padTerm_apply, cnTerm_pad]

/-- The coordination number of entry e's second endpoint. -/
theorem V3_v73 (e : Fin 2031616) :
    V3 (F := Ideal) m ρ c main_v73 (ix2 0 e)
      = Cert.Disp.cnOver (W2 m ρ c (Proc.devRef .tc main_v53_0)) (argI m c) (atomOf (padI (argJ m c) e)) := by
  rw [V3_v73_term, W2_v1, W2_v3, rowBcast_apply, gatherAtom_apply, padTerm_apply, cnTerm_pad]

/-- Reference slot p of the element of entry e's first endpoint. -/
theorem V3_v81 (p : Fin 5) (e : Fin 2031616) :
    V3 (F := Ideal) m ρ c main_v81 (ix2 p e)
      = argCR m c (ix2 (elemAt (argZ m c) (atomOf (padI (argI m c) e))) p) := by
  rw [V3_v81_term, W2_arg7, W2_v14, gatherRef_apply, gatherAtom_apply, padTerm_apply]
  rfl

/-- Reference slot q of the element of entry e's second endpoint. -/
theorem V3_v88 (q : Fin 5) (e : Fin 2031616) :
    V3 (F := Ideal) m ρ c main_v88 (ix2 q e)
      = argCR m c (ix2 (elemAt (argZ m c) (atomOf (padI (argJ m c) e))) q) := by
  rw [V3_v88_term, W2_arg7, W2_v21, gatherRef_apply, gatherAtom_apply, padTerm_apply]
  rfl

/-- Entry (p, q) of the coefficient tile of entry e's two elements. -/
theorem V3_v103 (p q : Fin 5) (e : Fin 2031616) :
    V3 (F := Ideal) m ρ c main_v103 (ix3 p q e)
      = argC6 m c (ix4 (elemAt (argZ m c) (atomOf (padI (argI m c) e))) (elemAt (argZ m c) (atomOf (padI (argJ m c) e))) p q) := by
  rw [V3_v103_term, W2_arg6, W2_v14, W2_v21, gatherC6_apply, gatherAtom_apply, gatherAtom_apply, padTerm_apply, padTerm_apply]
  rfl

/-- The r4r2 value of the element of entry e's first endpoint. -/
theorem V3_v111 (e : Fin 2031616) :
    V3 (F := Ideal) m ρ c main_v111 (ix2 0 e) = argR4 m c (ix1 (elemAt (argZ m c) (atomOf (padI (argI m c) e)))) := by
  rw [V3_v111_term, W2_arg5, W2_v14, rowBcast_apply, gatherElem_apply, gatherAtom_apply, padTerm_apply]
  rfl

/-- The r4r2 value of the element of entry e's second endpoint. -/
theorem V3_v119 (e : Fin 2031616) :
    V3 (F := Ideal) m ρ c main_v119 (ix2 0 e) = argR4 m c (ix1 (elemAt (argZ m c) (atomOf (padI (argJ m c) e)))) := by
  rw [V3_v119_term, W2_arg5, W2_v21, rowBcast_apply, gatherElem_apply, gatherAtom_apply, padTerm_apply]
  rfl

end Cert.KernelIdeal.ValH
end
-- ==== Proof.KFinal.lean ====
/-
  The kernel's result is the padded total of its argument arrays: the link between the run's last contents and
  the total, fed with the accumulation over the 62 tiles, the four arrays the counting-function pass reads and
  the nine arrays the energy pass reads, each as a function of the arguments.
-/
import proofs.«136451_j74294344286992_1_alg».proof.Proof.Gen.KernelIdeal.Frame
import proofs.«136451_j74294344286992_1_alg».proof.Proof.KValue
import proofs.«136451_j74294344286992_1_alg».proof.Proof.KRegion1
import proofs.«136451_j74294344286992_1_alg».proof.Proof.KHost0
import proofs.«136451_j74294344286992_1_alg».proof.Proof.KHost1

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Val1 Cert.KernelIdeal.ValH

variable (m : (ℓ : Loc nD τ sig) → Buf (Elt Ideal) ℓ) (ρ : Dev nD → PrngReg) (c : Dev nD)

/-- The result buffer after the run's last host operations holds the padded total of the arguments. -/
theorem kernel_value :
    W5 (F := Ideal) m ρ c (Proc.devRef .tc main_v122) = fun _ => Cert.Disp.totalPad (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) :=
  kernel_value_of m ρ c (outsAt1_last (V3 m ρ) c tLast.isLt)
    (fun e k => V1_v29 m ρ c k e) (fun e k => V1_v36 m ρ c k e) (V1_v52 m ρ c) (V1_v7 m ρ c)
    (V3_v53_1 m ρ c) (V3_v65 m ρ c) (V3_v73 m ρ c) (fun e p => V3_v81 m ρ c p e) (fun e q => V3_v88 m ρ c q e)
    (fun e p q => V3_v103 m ρ c p q e) (V3_v111 m ρ c) (V3_v119 m ρ c) (V3_v7 m ρ c)

end Cert.KernelIdeal.Val

end
-- ==== Proof.LibReduce2.lean ====
/-
  Sums over index sets by coordinates: a sum over a one-dimensional index set is the sum over its coordinate, a sum
  over a three-dimensional one the triple sum; and a float sum over the two trailing axes of a three-dimensional
  array, read at one index of the leading axis, is the initial value plus the double sum over the two trailing
  coordinates.
-/
import Idealize.ShloMosaic.PureOps.Ideal.Laws
import Idealize.ShloMosaic.Lib.ValueIdx

noncomputable section

open scoped BigOperators

namespace Cert.IndexOps

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two trailing axes of (a, p, q) leaves a. -/
theorem drop_trailing2_eq_iff {E P Q : Nat} (h : Shape.ReducesTo ⟨3, ![E, P, Q]⟩ [1, 2] ⟨1, ![E]⟩)
    (a e : Fin E) (p : Fin P) (q : Fin Q) : h.drop (ix3 a p q) = ix1 e ↔ a = e := by
  have hv : (h.drop (ix3 a p q) 0 : Nat) = a.val := rfl
  constructor
  · intro hd
    have := congrArg (fun j : (⟨1, ![E]⟩ : Shape).Idx => (j 0 : Nat)) hd
    exact Fin.ext (hv.symm.trans this)
  · intro hae
    subst hae
    funext b
    match b with
    | ⟨0, _⟩ => exact Fin.ext hv

/-- The sum over the two trailing axes at e: the initial value plus the double sum over (p, q) of the element at (e, p, q). -/
theorem hostReduceAdd_trailing2 {E P Q : Nat} (h : Shape.ReducesTo ⟨3, ![E, P, Q]⟩ [1, 2] ⟨1, ![E]⟩)
    (x : (⟨3, ![E, P, Q]⟩ : Shape).Idx → EReal) (init : EReal) (e : Fin E) :
    Ideal.hostReduceAdd h x init (ix1 e) = init + ∑ p : Fin P, ∑ q : Fin Q, x (ix3 e p q) := by
  unfold Ideal.hostReduceAdd
  refine congrArg (init + ·) ?_
  rw [Finset.sum_filter, sum_idx3]
  simp only [drop_trailing2_eq_iff]
  rw [Finset.sum_eq_single e]
  · simp only [if_true]
  · intro a _ hae
    simp only [if_neg hae, Finset.sum_const_zero]
  · intro he
    exact absurd (Finset.mem_univ e) he

end Cert.IndexOps

end
-- ==== Proof.LibReduceBridge.lean ====
/-
  The host's float sum over the two trailing axes of a three-dimensional array read at one index at the exact
  instance, stated over variable extents and operands, so that a program's sum at its own literal extents is an
  instance of it.
-/
import proofs.«136451_j74294344286992_1_alg».proof.Proof.LibReduce2
import Idealize.ShloMosaic.PureOps.Ideal

noncomputable section

open scoped BigOperators

namespace Cert.IndexOps

open Idealize.ShloMosaic Idealize.ShloMosaic.ValueIdx

/-- The host's float sum over the two trailing axes at e: the initial value plus the double sum over (p, q) of the
    element at (e, p, q). -/
theorem hostReduceAdd_flat2 {E P Q : Nat} {u : Shape}
    (h : Shape.ReducesTo ⟨3, ![E, P, Q]⟩ [1, 2] ⟨1, ![E]⟩) (hu : 0 < u.numel)
    (y : FVec Ideal ⟨3, ![E, P, Q]⟩ .f32) (init : u.Idx → Ideal .f32) (e : Fin E) :
    Host.reduceAdd (F := Ideal) y init h hu (ix1 e)
      = init (Shape.Idx.first hu) + ∑ p : Fin P, ∑ q : Fin Q, y (ix3 e p q) := by
  simp only [Host.reduceAdd, Ideal.hostReduceAdd_def]
  exact hostReduceAdd_trailing2 h y _ e

end Cert.IndexOps

end
-- ==== Proof.RefIndex.lean ====
/-
  The reference's index stages, gathers and distance, read at one pair.

  An index word is normalised the way the program writes it (a negative word wraps once by the table's extent)
  and a gather then reads the table at the normalised word, signed and clamped into the table: the element
  number of either endpoint, its row of each element table, its position.  The distance of pair e is the
  square root of the sum of the three squared coordinate differences (second endpoint minus first) plus the
  shift, which is the specification's distAt.
-/
import proofs.«136451_j74294344286992_1_alg».proof.Proof.Gen.ReferenceIdeal.Read
import proofs.«136451_j74294344286992_1_alg».proof.Proof.Spec
import proofs.«136451_j74294344286992_1_alg».proof.Proof.Algebra
import proofs.«136451_j74294344286992_1_alg».proof.Proof.LibIndexOps
import proofs.«136451_j74294344286992_1_alg».proof.Proof.LibReduce2

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Disp Cert.IndexOps

/-- Two indices of a one-, two- or three-dimensional array with equal coordinates are equal. -/
macro "coord1" : tactic => `(tactic| (funext a; match a with | ⟨0, _⟩ => rfl))
macro "coord2" : tactic => `(tactic| (funext a; match a with | ⟨0, _⟩ => rfl | ⟨1, _⟩ => rfl))
macro "coord3" : tactic => `(tactic| (funext a; match a with | ⟨0, _⟩ => rfl | ⟨1, _⟩ => rfl | ⟨2, _⟩ => rfl))

/-- Reading a function at an index equal to j is reading it at j. -/
theorem at_idx {α β : Type} (f : α → β) {i j : α} {y : β} (hij : i = j) (h : f j = y) : f i = y := hij ▸ h

variable (x0 : (⟨S50000x3, .f32⟩ : BufTy).Contents (Elt Ideal)) (x1 : (⟨S50000, .i32⟩ : BufTy).Contents (Elt Ideal))
  (x2 x3 : (⟨S2000000, .i32⟩ : BufTy).Contents (Elt Ideal)) (x4 x5 : (⟨S95, .f32⟩ : BufTy).Contents (Elt Ideal))
  (x6 : (⟨S95x95x5x5, .f32⟩ : BufTy).Contents (Elt Ideal)) (x7 : (⟨S95x5, .f32⟩ : BufTy).Contents (Elt Ideal))

/-! ## Index words normalised into the 50000 atoms -/

theorem v4_at (i : S2000000.Idx) :
    val_main_v4 (F := Ideal) x2 i = wrapIdx 50000#32 (x2 i) := by
  rw [val_main_v4_apply, val_main_v1_apply, val_main_v3_apply, val_main_v0_apply, val_main_v2_apply,
    val_main_c_apply, val_main_c_0_apply] <;> rfl

theorem v11_at (i : S2000000.Idx) :
    val_main_v11 (F := Ideal) x3 i = wrapIdx 50000#32 (x3 i) := by
  rw [val_main_v11_apply, val_main_v8_apply, val_main_v10_apply, val_main_v7_apply, val_main_v9_apply,
    val_main_c_1_apply, val_main_c_2_apply] <;> rfl

theorem v18_at (i : S2000000.Idx) :
    val_main_v18 (F := Ideal) x3 i = wrapIdx 50000#32 (x3 i) := by
  rw [val_main_v18_apply, val_main_v15_apply, val_main_v17_apply, val_main_v14_apply, val_main_v16_apply,
    val_main_c_3_apply, val_main_c_4_apply] <;> rfl

theorem v25_at (i : S2000000.Idx) :
    val_main_v25 (F := Ideal) x2 i = wrapIdx 50000#32 (x2 i) := by
  rw [val_main_v25_apply, val_main_v22_apply, val_main_v24_apply, val_main_v21_apply, val_main_v23_apply,
    val_main_c_5_apply, val_main_c_6_apply] <;> rfl

theorem v92_at (i : S2000000.Idx) :
    val_main_v92 (F := Ideal) x2 i = wrapIdx 50000#32 (x2 i) := by
  rw [val_main_v92_apply, val_main_v89_apply, val_main_v91_apply, val_main_v88_apply, val_main_v90_apply,
    val_main_c_25_apply, val_main_c_26_apply] <;> rfl

theorem v102_at (i : S2000000.Idx) :
    val_main_v102 (F := Ideal) x3 i = wrapIdx 50000#32 (x3 i) := by
  rw [val_main_v102_apply, val_main_v99_apply, val_main_v101_apply, val_main_v98_apply, val_main_v100_apply,
    val_main_c_27_apply, val_main_c_28_apply] <;> rfl

theorem v5_at (e : Fin 2000000) :
    val_main_v5 (F := Ideal) x2 (ix2 e 0) = wrapIdx 50000#32 (x2 (ix1 e)) := by
  rw [val_main_v5_apply]
  exact at_idx (val_main_v4 (F := Ideal) x2) (by coord1) (v4_at x2 (ix1 e))

theorem v12_at (e : Fin 2000000) :
    val_main_v12 (F := Ideal) x3 (ix2 e 0) = wrapIdx 50000#32 (x3 (ix1 e)) := by
  rw [val_main_v12_apply]
  exact at_idx (val_main_v11 (F := Ideal) x3) (by coord1) (v11_at x3 (ix1 e))

theorem v19_at (e : Fin 2000000) :
    val_main_v19 (F := Ideal) x3 (ix2 e 0) = wrapIdx 50000#32 (x3 (ix1 e)) := by
  rw [val_main_v19_apply]
  exact at_idx (val_main_v18 (F := Ideal) x3) (by coord1) (v18_at x3 (ix1 e))

theorem v26_at (e : Fin 2000000) :
    val_main_v26 (F := Ideal) x2 (ix2 e 0) = wrapIdx 50000#32 (x2 (ix1 e)) := by
  rw [val_main_v26_apply]
  exact at_idx (val_main_v25 (F := Ideal) x2) (by coord1) (v25_at x2 (ix1 e))

theorem v93_at (e : Fin 2000000) :
    val_main_v93 (F := Ideal) x2 (ix2 e 0) = wrapIdx 50000#32 (x2 (ix1 e)) := by
  rw [val_main_v93_apply]
  exact at_idx (val_main_v92 (F := Ideal) x2) (by coord1) (v92_at x2 (ix1 e))

theorem v103_at (e : Fin 2000000) :
    val_main_v103 (F := Ideal) x3 (ix2 e 0) = wrapIdx 50000#32 (x3 (ix1 e)) := by
  rw [val_main_v103_apply]
  exact at_idx (val_main_v102 (F := Ideal) x3) (by coord1) (v102_at x3 (ix1 e))

/-! ## The element number of either endpoint -/

theorem v6_at (e : Fin 2000000) :
    val_main_v6 (F := Ideal) x1 x2 (ix1 e) = x1 (ix1 (atomOf (x2 (ix1 e)))) := by
  unfold val_main_v6
  refine (gather_flat_apply (by decide) _ rfl rfl rfl rfl rfl rfl rfl x1 _ e).trans ?_
  rw [v5_at] <;> rfl

theorem v13_at (e : Fin 2000000) :
    val_main_v13 (F := Ideal) x1 x3 (ix1 e) = x1 (ix1 (atomOf (x3 (ix1 e)))) := by
  unfold val_main_v13
  refine (gather_flat_apply (by decide) _ rfl rfl rfl rfl rfl rfl rfl x1 _ e).trans ?_
  rw [v12_at] <;> rfl

/-! ## Element numbers normalised into the 95 rows of an element table -/

theorem v38_at (i : S2000000.Idx) :
    val_main_v38 (F := Ideal) x1 x2 i = wrapIdx 95#32 (val_main_v6 (F := Ideal) x1 x2 i) := by
  rw [val_main_v38_apply, val_main_v35_apply, val_main_v37_apply, val_main_v34_apply, val_main_v36_apply,
    val_main_c_8_apply, val_main_c_9_apply] <;> rfl

theorem v45_at (i : S2000000.Idx) :
    val_main_v45 (F := Ideal) x1 x3 i = wrapIdx 95#32 (val_main_v13 (F := Ideal) x1 x3 i) := by
  rw [val_main_v45_apply, val_main_v42_apply, val_main_v44_apply, val_main_v41_apply, val_main_v43_apply,
    val_main_c_10_apply, val_main_c_11_apply] <;> rfl

theorem v69_at (i : S2000000.Idx) :
    val_main_v69 (F := Ideal) x1 x2 i = wrapIdx 95#32 (val_main_v6 (F := Ideal) x1 x2 i) := by
  rw [val_main_v69_apply, val_main_v66_apply, val_main_v68_apply, val_main_v65_apply, val_main_v67_apply,
    val_main_c_19_apply, val_main_c_20_apply] <;> rfl

theorem v76_at (i : S2000000.Idx) :
    val_main_v76 (F := Ideal) x1 x3 i = wrapIdx 95#32 (val_main_v13 (F := Ideal) x1 x3 i) := by
  rw [val_main_v76_apply, val_main_v73_apply, val_main_v75_apply, val_main_v72_apply, val_main_v74_apply,
    val_main_c_21_apply, val_main_c_22_apply] <;> rfl

theorem v126_at (i : S2000000.Idx) :
    val_main_v126 (F := Ideal) x1 x2 i = wrapIdx 95#32 (val_main_v6 (F := Ideal) x1 x2 i) := by
  rw [val_main_v126_apply, val_main_v123_apply, val_main_v125_apply, val_main_v122_apply, val_main_v124_apply,
    val_main_c_33_apply, val_main_c_34_apply] <;> rfl

theorem v131_at (i : S2000000.Idx) :
    val_main_v131 (F := Ideal) x1 x3 i = wrapIdx 95#32 (val_main_v13 (F := Ideal) x1 x3 i) := by
  rw [val_main_v131_apply, val_main_v128_apply, val_main_v130_apply, val_main_v127_apply, val_main_v129_apply,
    val_main_c_35_apply, val_main_c_36_apply] <;> rfl

theorem v145_at (i : S2000000.Idx) :
    val_main_v145 (F := Ideal) x1 x2 i = wrapIdx 95#32 (val_main_v6 (F := Ideal) x1 x2 i) := by
  rw [val_main_v145_apply, val_main_v142_apply, val_main_v144_apply, val_main_v141_apply, val_main_v143_apply,
    val_main_c_39_apply, val_main_c_40_apply] <;> rfl

theorem v154_at (i : S2000000.Idx) :
    val_main_v154 (F := Ideal) x1 x3 i = wrapIdx 95#32 (val_main_v13 (F := Ideal) x1 x3 i) := by
  rw [val_main_v154_apply, val_main_v151_apply, val_main_v153_apply, val_main_v150_apply, val_main_v152_apply,
    val_main_c_42_apply, val_main_c_43_apply] <;> rfl

theorem v39_at (e : Fin 2000000) :
    val_main_v39 (F := Ideal) x1 x2 (ix2 e 0) = wrapIdx 95#32 (x1 (ix1 (atomOf (x2 (ix1 e))))) := by
  rw [val_main_v39_apply]
  exact at_idx (val_main_v38 (F := Ideal) x1 x2) (by coord1) ((v38_at x1 x2 (ix1 e)).trans (by rw [v6_at]))

theorem v46_at (e : Fin 2000000) :
    val_main_v46 (F := Ideal) x1 x3 (ix2 e 0) = wrapIdx 95#32 (x1 (ix1 (atomOf (x3 (ix1 e))))) := by
  rw [val_main_v46_apply]
  exact at_idx (val_main_v45 (F := Ideal) x1 x3) (by coord1) ((v45_at x1 x3 (ix1 e)).trans (by rw [v13_at]))

theorem v70_at (e : Fin 2000000) :
    val_main_v70 (F := Ideal) x1 x2 (ix2 e 0) = wrapIdx 95#32 (x1 (ix1 (atomOf (x2 (ix1 e))))) := by
  rw [val_main_v70_apply]
  exact at_idx (val_main_v69 (F := Ideal) x1 x2) (by coord1) ((v69_at x1 x2 (ix1 e)).trans (by rw [v6_at]))

theorem v77_at (e : Fin 2000000) :
    val_main_v77 (F := Ideal) x1 x3 (ix2 e 0) = wrapIdx 95#32 (x1 (ix1 (atomOf (x3 (ix1 e))))) := by
  rw [val_main_v77_apply]
  exact at_idx (val_main_v76 (F := Ideal) x1 x3) (by coord1) ((v76_at x1 x3 (ix1 e)).trans (by rw [v13_at]))

theorem v132_at (e : Fin 2000000) :
    val_main_v132 (F := Ideal) x1 x2 (ix2 e 0) = wrapIdx 95#32 (x1 (ix1 (atomOf (x2 (ix1 e))))) := by
  rw [val_main_v132_apply]
  exact at_idx (val_main_v126 (F := Ideal) x1 x2) (by coord1) ((v126_at x1 x2 (ix1 e)).trans (by rw [v6_at]))

theorem v133_at (e : Fin 2000000) :
    val_main_v133 (F := Ideal) x1 x3 (ix2 e 0) = wrapIdx 95#32 (x1 (ix1 (atomOf (x3 (ix1 e))))) := by
  rw [val_main_v133_apply]
  exact at_idx (val_main_v131 (F := Ideal) x1 x3) (by coord1) ((v131_at x1 x3 (ix1 e)).trans (by rw [v13_at]))

theorem v146_at (e : Fin 2000000) :
    val_main_v146 (F := Ideal) x1 x2 (ix2 e 0) = wrapIdx 95#32 (x1 (ix1 (atomOf (x2 (ix1 e))))) := by
  rw [val_main_v146_apply]
  exact at_idx (val_main_v145 (F := Ideal) x1 x2) (by coord1) ((v145_at x1 x2 (ix1 e)).trans (by rw [v6_at]))

theorem v155_at (e : Fin 2000000) :
    val_main_v155 (F := Ideal) x1 x3 (ix2 e 0) = wrapIdx 95#32 (x1 (ix1 (atomOf (x3 (ix1 e))))) := by
  rw [val_main_v155_apply]
  exact at_idx (val_main_v154 (F := Ideal) x1 x3) (by coord1) ((v154_at x1 x3 (ix1 e)).trans (by rw [v13_at]))

/-! ## Rows of the element tables and of the positions -/

theorem v40_at (e : Fin 2000000) :
    val_main_v40 (F := Ideal) x1 x2 x4 (ix1 e) = x4 (ix1 (elemAt x1 (atomOf (x2 (ix1 e))))) := by
  unfold val_main_v40
  refine (gather_flat_apply (by decide) _ rfl rfl rfl rfl rfl rfl rfl x4 _ e).trans ?_
  rw [v39_at] <;> rfl

theorem v47_at (e : Fin 2000000) :
    val_main_v47 (F := Ideal) x1 x3 x4 (ix1 e) = x4 (ix1 (elemAt x1 (atomOf (x3 (ix1 e))))) := by
  unfold val_main_v47
  refine (gather_flat_apply (by decide) _ rfl rfl rfl rfl rfl rfl rfl x4 _ e).trans ?_
  rw [v46_at] <;> rfl

theorem v147_at (e : Fin 2000000) :
    val_main_v147 (F := Ideal) x1 x2 x5 (ix1 e) = x5 (ix1 (elemAt x1 (atomOf (x2 (ix1 e))))) := by
  unfold val_main_v147
  refine (gather_flat_apply (by decide) _ rfl rfl rfl rfl rfl rfl rfl x5 _ e).trans ?_
  rw [v146_at] <;> rfl

theorem v156_at (e : Fin 2000000) :
    val_main_v156 (F := Ideal) x1 x3 x5 (ix1 e) = x5 (ix1 (elemAt x1 (atomOf (x3 (ix1 e))))) := by
  unfold val_main_v156
  refine (gather_flat_apply (by decide) _ rfl rfl rfl rfl rfl rfl rfl x5 _ e).trans ?_
  rw [v155_at] <;> rfl

theorem v20_at (e : Fin 2000000) (k : Fin 3) :
    val_main_v20 (F := Ideal) x0 x3 (ix2 e k) = x0 (ix2 (atomOf (x3 (ix1 e))) k) := by
  unfold val_main_v20
  refine (gather_rows_apply (by decide) _ rfl rfl rfl rfl rfl rfl rfl x0 _ e k).trans ?_
  rw [v19_at] <;> rfl

theorem v27_at (e : Fin 2000000) (k : Fin 3) :
    val_main_v27 (F := Ideal) x0 x2 (ix2 e k) = x0 (ix2 (atomOf (x2 (ix1 e))) k) := by
  unfold val_main_v27
  refine (gather_rows_apply (by decide) _ rfl rfl rfl rfl rfl rfl rfl x0 _ e k).trans ?_
  rw [v26_at] <;> rfl

theorem v71_at (e : Fin 2000000) (p : Fin 5) :
    val_main_v71 (F := Ideal) x1 x2 x7 (ix2 e p) = x7 (ix2 (elemAt x1 (atomOf (x2 (ix1 e)))) p) := by
  unfold val_main_v71
  refine (gather_rows_apply (by decide) _ rfl rfl rfl rfl rfl rfl rfl x7 _ e p).trans ?_
  rw [v70_at] <;> rfl

theorem v78_at (e : Fin 2000000) (q : Fin 5) :
    val_main_v78 (F := Ideal) x1 x3 x7 (ix2 e q) = x7 (ix2 (elemAt x1 (atomOf (x3 (ix1 e)))) q) := by
  unfold val_main_v78
  refine (gather_rows_apply (by decide) _ rfl rfl rfl rfl rfl rfl rfl x7 _ e q).trans ?_
  rw [v77_at] <;> rfl

/-! ## The distance -/

/-- A coordinate difference: second endpoint minus first. -/
theorem v28_at (e : Fin 2000000) (k : Fin 3) :
    val_main_v28 (F := Ideal) x0 x2 x3 (ix2 e k)
      = x0 (ix2 (atomOf (x3 (ix1 e))) k) - x0 (ix2 (atomOf (x2 (ix1 e))) k) := by
  rw [val_main_v28_apply, v20_at, v27_at] <;> rfl

/-- Its square. -/
theorem v29_at (e : Fin 2000000) (k : Fin 3) :
    val_main_v29 (F := Ideal) x0 x2 x3 (ix2 e k)
      = (x0 (ix2 (atomOf (x3 (ix1 e))) k) - x0 (ix2 (atomOf (x2 (ix1 e))) k))
        * (x0 (ix2 (atomOf (x3 (ix1 e))) k) - x0 (ix2 (atomOf (x2 (ix1 e))) k)) := by
  rw [val_main_v29_apply, v28_at] <;> rfl

/-- The sum of the three squares. -/
theorem v30_at (e : Fin 2000000) :
    val_main_v30 (F := Ideal) x0 x2 x3 (ix1 e)
      = (x0 (ix2 (atomOf (x3 (ix1 e))) 0) - x0 (ix2 (atomOf (x2 (ix1 e))) 0))
          * (x0 (ix2 (atomOf (x3 (ix1 e))) 0) - x0 (ix2 (atomOf (x2 (ix1 e))) 0))
        + (x0 (ix2 (atomOf (x3 (ix1 e))) 1) - x0 (ix2 (atomOf (x2 (ix1 e))) 1))
          * (x0 (ix2 (atomOf (x3 (ix1 e))) 1) - x0 (ix2 (atomOf (x2 (ix1 e))) 1))
        + (x0 (ix2 (atomOf (x3 (ix1 e))) 2) - x0 (ix2 (atomOf (x2 (ix1 e))) 2))
          * (x0 (ix2 (atomOf (x3 (ix1 e))) 2) - x0 (ix2 (atomOf (x2 (ix1 e))) 2)) := by
  have h : ∀ k : Fin 3, val_main_v29 (F := Ideal) x0 x2 x3 (idx_main_v30 (ix1 e) k)
      = (x0 (ix2 (atomOf (x3 (ix1 e))) k) - x0 (ix2 (atomOf (x2 (ix1 e))) k))
        * (x0 (ix2 (atomOf (x3 (ix1 e))) k) - x0 (ix2 (atomOf (x2 (ix1 e))) k)) := fun k =>
    at_idx (val_main_v29 (F := Ideal) x0 x2 x3) (by coord2) (v29_at x0 x2 x3 e k)
  rw [val_main_v30_apply, val_main_cst_apply, Fin.sum_univ_three, h 0, h 1, h 2, Ideal.ofBits_def,
    Ideal.ofBits_zero_f32, zero_add]

/-- The distance of pair e is the specification's. -/
theorem v33_at (e : Fin 2000000) :
    val_main_v33 (F := Ideal) x0 x2 x3 (ix1 e) = distAt x0 (x2 (ix1 e)) (x3 (ix1 e)) := by
  rw [val_main_v33_apply, val_main_v32_apply, v30_at, val_main_v31_apply, val_main_cst_7_apply] <;> rfl

end Cert.ReferenceIdeal.RefValue

end
-- ==== Proof.LibScatterBridge.lean ====
/-
  The host's accumulating scatter into a flat array read at one index at the exact instance, stated over variable
  extents and operands, so that a program's scatter at its own literal extents is an instance of it.
-/
import proofs.«136451_j74294344286992_1_alg».proof.Proof.LibIndexOps
import Idealize.ShloMosaic.PureOps.Ideal

noncomputable section

open scoped BigOperators

namespace Cert.IndexOps

open Idealize.ShloMosaic Idealize.ShloMosaic.ValueIdx

/-- The host's accumulating scatter into a flat array at position a: the element there plus the sum of the updates
    whose index, read signed, is a. -/
theorem hostScatterAdd_flat {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (a : Fin N) :
    Host.scatterAdd (F := Ideal) d x idx upd (ix1 a)
      = x (ix1 a) + ∑ e ∈ Finset.univ.filter (fun e : Fin E => (idx (ix2 e 0)).toInt = (a.val : Int)), upd (ix1 e) := by
  simp only [Host.scatterAdd, Ideal.hostScatterAdd_def]
  exact scatterAdd_flat_apply d huw hiw hsd hiv x idx upd a

end Cert.IndexOps

end
-- ==== Proof.RefCount.lean ====
/-
  The reference's counting function and coordination numbers.

  For pair e the counting function is the specification's countAt at the pair's two index words; the accumulating
  scatter of it by the first index word, into zeros, is the coordination number of each atom: the sum over the pairs
  that start there.
-/
import proofs.«136451_j74294344286992_1_alg».proof.Proof.Gen.ReferenceIdeal.Read
import proofs.«136451_j74294344286992_1_alg».proof.Proof.Spec
import proofs.«136451_j74294344286992_1_alg».proof.Proof.Algebra
import proofs.«136451_j74294344286992_1_alg».proof.Proof.LibIndexOps
import proofs.«136451_j74294344286992_1_alg».proof.Proof.LibReduce2
import proofs.«136451_j74294344286992_1_alg».proof.Proof.LibScatterBridge
import proofs.«136451_j74294344286992_1_alg».proof.Proof.RefIndex

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Disp Cert.IndexOps

variable (x0 : (⟨S50000x3, .f32⟩ : BufTy).Contents (Elt Ideal)) (x1 : (⟨S50000, .i32⟩ : BufTy).Contents (Elt Ideal))
  (x2 x3 : (⟨S2000000, .i32⟩ : BufTy).Contents (Elt Ideal)) (x4 x5 : (⟨S95, .f32⟩ : BufTy).Contents (Elt Ideal))
  (x6 : (⟨S95x95x5x5, .f32⟩ : BufTy).Contents (Elt Ideal)) (x7 : (⟨S95x5, .f32⟩ : BufTy).Contents (Elt Ideal))

/-- The summed covalent radii of the two endpoints' elements. -/
theorem v48_at (e : Fin 2000000) :
    val_main_v48 (F := Ideal) x1 x2 x3 x4 (ix1 e)
      = x4 (ix1 (elemAt x1 (atomOf (x2 (ix1 e))))) + x4 (ix1 (elemAt x1 (atomOf (x3 (ix1 e))))) := by
  rw [val_main_v48_apply, v40_at, v47_at] <;> rfl

/-- The counting function of pair e is the specification's. -/
theorem v61_at (e : Fin 2000000) :
    val_main_v61 (F := Ideal) x0 x1 x2 x3 x4 (ix1 e) = countAt x0 x1 x4 (x2 (ix1 e)) (x3 (ix1 e)) := by
  rw [val_main_v61_apply, val_main_v50_apply, v33_at, val_main_v49_apply, val_main_cst_12_apply, val_main_v60_apply,
    val_main_v59_apply, val_main_cst_16_apply, val_main_v58_apply, val_main_v57_apply, val_main_cst_15_apply,
    val_main_v56_apply, val_main_v55_apply, val_main_v54_apply, val_main_cst_14_apply, val_main_v53_apply,
    val_main_v51_apply, v48_at, v33_at, val_main_v52_apply, val_main_cst_13_apply, val_main_call0_v1_apply,
    val_main_call0_v0_apply, val_main_cst_17_apply] <;> rfl

/-- The scatter's index column is the first index word. -/
theorem v63_at (e : Fin 2000000) : val_main_v63 (F := Ideal) x2 (ix2 e 0) = x2 (ix1 e) := by
  rw [val_main_v63_apply]
  exact congrArg x2 (by coord1)

/-- The coordination number of atom k is the specification's. -/
theorem v64_at (k : Fin 50000) :
    val_main_v64 (F := Ideal) x0 x1 x2 x3 x4 (ix1 k) = cn x0 x1 x2 x3 x4 k := by
  delta val_main_v64
  refine (hostScatterAdd_flat (N := 50000) (E := 2000000) scatter_S50000_S2000000x1_S2000000_n_0_0_1
    rfl rfl rfl rfl _ _ _ k).trans ?_
  rw [val_main_v62_apply, val_main_cst_18_apply, Ideal.ofBits_def, Ideal.ofBits_zero_f32, zero_add]
  show _ = ∑ e ∈ Finset.univ.filter (fun e : Fin 2000000 => (x2 (ix1 e)).toInt = (k.val : Int)),
    countAt x0 x1 x4 (x2 (ix1 e)) (x3 (ix1 e))
  exact Finset.sum_congr (Finset.filter_congr fun e _ => by rw [v63_at]) fun e _ => v61_at x0 x1 x2 x3 x4 e

end Cert.ReferenceIdeal.RefValue

end
-- ==== Proof.RefEnergy.lean ====
/-
  The reference's pair energy.

  For pair e with endpoint rows a, b of the element tables and endpoint coordination numbers cni, cnj: the 25 weights
  are the specification's weight at the reference slots (a, p) and (b, q); their sum and their sum against the 25 table
  entries C6 a b p q are double sums over (p, q); the quotient is the interpolated coefficient, and the damped,
  signed and cut-off term is the specification's pairEnergy.
-/
import proofs.«136451_j74294344286992_1_alg».proof.Proof.Gen.ReferenceIdeal.Read
import proofs.«136451_j74294344286992_1_alg».proof.Proof.Spec
import proofs.«136451_j74294344286992_1_alg».proof.Proof.Algebra
import proofs.«136451_j74294344286992_1_alg».proof.Proof.LibIndexOps
import proofs.«136451_j74294344286992_1_alg».proof.Proof.LibReduce2
import proofs.«136451_j74294344286992_1_alg».proof.Proof.LibReduceBridge
import proofs.«136451_j74294344286992_1_alg».proof.Proof.RefIndex
import proofs.«136451_j74294344286992_1_alg».proof.Proof.RefCount

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Disp Cert.IndexOps

variable (x0 : (⟨S50000x3, .f32⟩ : BufTy).Contents (Elt Ideal)) (x1 : (⟨S50000, .i32⟩ : BufTy).Contents (Elt Ideal))
  (x2 x3 : (⟨S2000000, .i32⟩ : BufTy).Contents (Elt Ideal)) (x4 x5 : (⟨S95, .f32⟩ : BufTy).Contents (Elt Ideal))
  (x6 : (⟨S95x95x5x5, .f32⟩ : BufTy).Contents (Elt Ideal)) (x7 : (⟨S95x5, .f32⟩ : BufTy).Contents (Elt Ideal))

/-! ## The coordination numbers of the two endpoints -/

theorem v94_at (e : Fin 2000000) :
    val_main_v94 (F := Ideal) x0 x1 x2 x3 x4 (ix1 e) = cn x0 x1 x2 x3 x4 (atomOf (x2 (ix1 e))) := by
  delta val_main_v94
  refine (gather_flat_apply (by decide) _ rfl rfl rfl rfl rfl rfl rfl (val_main_v64 (F := Ideal) x0 x1 x2 x3 x4) _ e).trans ?_
  rw [v93_at]
  exact v64_at x0 x1 x2 x3 x4 (atomOf (x2 (ix1 e)))

theorem v104_at (e : Fin 2000000) :
    val_main_v104 (F := Ideal) x0 x1 x2 x3 x4 (ix1 e) = cn x0 x1 x2 x3 x4 (atomOf (x3 (ix1 e))) := by
  delta val_main_v104
  refine (gather_flat_apply (by decide) _ rfl rfl rfl rfl rfl rfl rfl (val_main_v64 (F := Ideal) x0 x1 x2 x3 x4) _ e).trans ?_
  rw [v103_at]
  exact v64_at x0 x1 x2 x3 x4 (atomOf (x3 (ix1 e)))

theorem v96_at (e : Fin 2000000) (p : Fin 5) :
    val_main_v96 (F := Ideal) x0 x1 x2 x3 x4 (ix2 e p) = cn x0 x1 x2 x3 x4 (atomOf (x2 (ix1 e))) := by
  rw [val_main_v96_apply, val_main_v95_apply]
  exact at_idx (val_main_v94 (F := Ideal) x0 x1 x2 x3 x4) (by coord1) (v94_at x0 x1 x2 x3 x4 e)

theorem v106_at (e : Fin 2000000) (q : Fin 5) :
    val_main_v106 (F := Ideal) x0 x1 x2 x3 x4 (ix2 e q) = cn x0 x1 x2 x3 x4 (atomOf (x3 (ix1 e))) := by
  rw [val_main_v106_apply, val_main_v105_apply]
  exact at_idx (val_main_v104 (F := Ideal) x0 x1 x2 x3 x4) (by coord1) (v104_at x0 x1 x2 x3 x4 e)

/-! ## The squared differences to the reference slots -/

theorem v108_at (e : Fin 2000000) (p : Fin 5) :
    val_main_v108 (F := Ideal) x0 x1 x2 x3 x4 x7 (ix2 e p) = (cn x0 x1 x2 x3 x4 (atomOf (x2 (ix1 e))) - x7 (ix2 (elemAt x1 (atomOf (x2 (ix1 e)))) p)) * (cn x0 x1 x2 x3 x4 (atomOf (x2 (ix1 e))) - x7 (ix2 (elemAt x1 (atomOf (x2 (ix1 e)))) p)) := by
  rw [val_main_v108_apply, val_main_v97_apply, v96_at, v71_at] <;> rfl

theorem v112_at (e : Fin 2000000) (q : Fin 5) :
    val_main_v112 (F := Ideal) x0 x1 x2 x3 x4 x7 (ix2 e q) = (cn x0 x1 x2 x3 x4 (atomOf (x3 (ix1 e))) - x7 (ix2 (elemAt x1 (atomOf (x3 (ix1 e)))) q)) * (cn x0 x1 x2 x3 x4 (atomOf (x3 (ix1 e))) - x7 (ix2 (elemAt x1 (atomOf (x3 (ix1 e)))) q)) := by
  rw [val_main_v112_apply, val_main_v107_apply, v106_at, v78_at] <;> rfl

theorem v109_at (e : Fin 2000000) (p : Fin 5) :
    val_main_v109 (F := Ideal) x0 x1 x2 x3 x4 x7 (ix3 e p 0) = (cn x0 x1 x2 x3 x4 (atomOf (x2 (ix1 e))) - x7 (ix2 (elemAt x1 (atomOf (x2 (ix1 e)))) p)) * (cn x0 x1 x2 x3 x4 (atomOf (x2 (ix1 e))) - x7 (ix2 (elemAt x1 (atomOf (x2 (ix1 e)))) p)) := by
  rw [val_main_v109_apply]
  exact at_idx (val_main_v108 (F := Ideal) x0 x1 x2 x3 x4 x7) (by coord2) (v108_at x0 x1 x2 x3 x4 x7 e p)

theorem v113_at (e : Fin 2000000) (q : Fin 5) :
    val_main_v113 (F := Ideal) x0 x1 x2 x3 x4 x7 (ix3 e 0 q) = (cn x0 x1 x2 x3 x4 (atomOf (x3 (ix1 e))) - x7 (ix2 (elemAt x1 (atomOf (x3 (ix1 e)))) q)) * (cn x0 x1 x2 x3 x4 (atomOf (x3 (ix1 e))) - x7 (ix2 (elemAt x1 (atomOf (x3 (ix1 e)))) q)) := by
  rw [val_main_v113_apply]
  exact at_idx (val_main_v112 (F := Ideal) x0 x1 x2 x3 x4 x7) (by coord2) (v112_at x0 x1 x2 x3 x4 x7 e q)

theorem v111_at (e : Fin 2000000) (p : Fin 5) :
    val_main_v111 (F := Ideal) x0 x1 x2 x3 x4 x7 (ix3 e p 0) = lit 0xC0800000#32 * ((cn x0 x1 x2 x3 x4 (atomOf (x2 (ix1 e))) - x7 (ix2 (elemAt x1 (atomOf (x2 (ix1 e)))) p)) * (cn x0 x1 x2 x3 x4 (atomOf (x2 (ix1 e))) - x7 (ix2 (elemAt x1 (atomOf (x2 (ix1 e)))) p))) := by
  rw [val_main_v111_apply, val_main_v110_apply, val_main_cst_29_apply, v109_at] <;> rfl

theorem v115_at (e : Fin 2000000) (q : Fin 5) :
    val_main_v115 (F := Ideal) x0 x1 x2 x3 x4 x7 (ix3 e 0 q) = lit 0x40800000#32 * ((cn x0 x1 x2 x3 x4 (atomOf (x3 (ix1 e))) - x7 (ix2 (elemAt x1 (atomOf (x3 (ix1 e)))) q)) * (cn x0 x1 x2 x3 x4 (atomOf (x3 (ix1 e))) - x7 (ix2 (elemAt x1 (atomOf (x3 (ix1 e)))) q))) := by
  rw [val_main_v115_apply, val_main_v114_apply, val_main_cst_30_apply, v113_at] <;> rfl

theorem v116_at (e : Fin 2000000) (p q : Fin 5) :
    val_main_v116 (F := Ideal) x0 x1 x2 x3 x4 x7 (ix3 e p q) = lit 0xC0800000#32 * ((cn x0 x1 x2 x3 x4 (atomOf (x2 (ix1 e))) - x7 (ix2 (elemAt x1 (atomOf (x2 (ix1 e)))) p)) * (cn x0 x1 x2 x3 x4 (atomOf (x2 (ix1 e))) - x7 (ix2 (elemAt x1 (atomOf (x2 (ix1 e)))) p))) := by
  rw [val_main_v116_apply]
  exact at_idx (val_main_v111 (F := Ideal) x0 x1 x2 x3 x4 x7) (by coord3) (v111_at x0 x1 x2 x3 x4 x7 e p)

theorem v117_at (e : Fin 2000000) (p q : Fin 5) :
    val_main_v117 (F := Ideal) x0 x1 x2 x3 x4 x7 (ix3 e p q) = lit 0x40800000#32 * ((cn x0 x1 x2 x3 x4 (atomOf (x3 (ix1 e))) - x7 (ix2 (elemAt x1 (atomOf (x3 (ix1 e)))) q)) * (cn x0 x1 x2 x3 x4 (atomOf (x3 (ix1 e))) - x7 (ix2 (elemAt x1 (atomOf (x3 (ix1 e)))) q))) := by
  rw [val_main_v117_apply]
  exact at_idx (val_main_v115 (F := Ideal) x0 x1 x2 x3 x4 x7) (by coord3) (v115_at x0 x1 x2 x3 x4 x7 e q)

/-- The exponent and its exponential. -/
theorem v119_at (e : Fin 2000000) (p q : Fin 5) :
    val_main_v119 (F := Ideal) x0 x1 x2 x3 x4 x7 (ix3 e p q)
      = Ideal.exp (lit 0xC0800000#32 * ((cn x0 x1 x2 x3 x4 (atomOf (x2 (ix1 e))) - x7 (ix2 (elemAt x1 (atomOf (x2 (ix1 e)))) p)) * (cn x0 x1 x2 x3 x4 (atomOf (x2 (ix1 e))) - x7 (ix2 (elemAt x1 (atomOf (x2 (ix1 e)))) p))) - lit 0x40800000#32 * ((cn x0 x1 x2 x3 x4 (atomOf (x3 (ix1 e))) - x7 (ix2 (elemAt x1 (atomOf (x3 (ix1 e)))) q)) * (cn x0 x1 x2 x3 x4 (atomOf (x3 (ix1 e))) - x7 (ix2 (elemAt x1 (atomOf (x3 (ix1 e)))) q)))) := by
  rw [val_main_v119_apply, val_main_v118_apply, v116_at, v117_at, Ideal.hostUnary_exp_def, Ideal.subf_def] <;> rfl

/-! ## The masks -/

theorem v79_at (e : Fin 2000000) (p : Fin 5) :
    val_main_v79 (F := Ideal) x1 x2 x7 (ix3 e p 0) = x7 (ix2 (elemAt x1 (atomOf (x2 (ix1 e)))) p) := by
  rw [val_main_v79_apply]
  exact at_idx (val_main_v71 (F := Ideal) x1 x2 x7) (by coord2) (v71_at x1 x2 x7 e p)

theorem v82_at (e : Fin 2000000) (q : Fin 5) :
    val_main_v82 (F := Ideal) x1 x3 x7 (ix3 e 0 q) = x7 (ix2 (elemAt x1 (atomOf (x3 (ix1 e)))) q) := by
  rw [val_main_v82_apply]
  exact at_idx (val_main_v78 (F := Ideal) x1 x3 x7) (by coord2) (v78_at x1 x3 x7 e q)

theorem v81_at (e : Fin 2000000) (p : Fin 5) :
    val_main_v81 (F := Ideal) x1 x2 x7 (ix3 e p 0) = Ideal.cmp .oge (x7 (ix2 (elemAt x1 (atomOf (x2 (ix1 e)))) p)) (lit 0x00000000#32) := by
  rw [val_main_v81_apply, val_main_v80_apply, val_main_cst_23_apply, v79_at] <;> rfl

theorem v84_at (e : Fin 2000000) (q : Fin 5) :
    val_main_v84 (F := Ideal) x1 x3 x7 (ix3 e 0 q) = Ideal.cmp .oge (x7 (ix2 (elemAt x1 (atomOf (x3 (ix1 e)))) q)) (lit 0x00000000#32) := by
  rw [val_main_v84_apply, val_main_v83_apply, val_main_cst_24_apply, v82_at] <;> rfl

theorem v85_at (e : Fin 2000000) (p q : Fin 5) :
    val_main_v85 (F := Ideal) x1 x2 x7 (ix3 e p q) = Ideal.cmp .oge (x7 (ix2 (elemAt x1 (atomOf (x2 (ix1 e)))) p)) (lit 0x00000000#32) := by
  rw [val_main_v85_apply]
  exact at_idx (val_main_v81 (F := Ideal) x1 x2 x7) (by coord3) (v81_at x1 x2 x7 e p)

theorem v86_at (e : Fin 2000000) (p q : Fin 5) :
    val_main_v86 (F := Ideal) x1 x3 x7 (ix3 e p q) = Ideal.cmp .oge (x7 (ix2 (elemAt x1 (atomOf (x3 (ix1 e)))) q)) (lit 0x00000000#32) := by
  rw [val_main_v86_apply]
  exact at_idx (val_main_v84 (F := Ideal) x1 x3 x7) (by coord3) (v84_at x1 x3 x7 e q)

theorem v87_at (e : Fin 2000000) (p q : Fin 5) :
    val_main_v87 (F := Ideal) x1 x2 x3 x7 (ix3 e p q)
      = IntOp.andi (Ideal.cmp .oge (x7 (ix2 (elemAt x1 (atomOf (x2 (ix1 e)))) p)) (lit 0x00000000#32)) (Ideal.cmp .oge (x7 (ix2 (elemAt x1 (atomOf (x3 (ix1 e)))) q)) (lit 0x00000000#32)) := by
  rw [val_main_v87_apply, v85_at, v86_at]

/-! ## The weights and the interpolated coefficient -/

/-- The weight of the slots (p, q) of pair e is the specification's. -/
theorem v120_at (e : Fin 2000000) (p q : Fin 5) :
    val_main_v120 (F := Ideal) x0 x1 x2 x3 x4 x7 (ix3 e p q) = weight (cn x0 x1 x2 x3 x4 (atomOf (x2 (ix1 e)))) (cn x0 x1 x2 x3 x4 (atomOf (x3 (ix1 e)))) (x7 (ix2 (elemAt x1 (atomOf (x2 (ix1 e)))) p)) (x7 (ix2 (elemAt x1 (atomOf (x3 (ix1 e)))) q)) := by
  rw [val_main_v120_apply, v87_at, v119_at, val_main_call1_v1_apply, val_main_call1_v0_apply,
    val_main_cst_31_apply] <;> rfl

/-- The sum of the 25 weights. -/
theorem v121_at (e : Fin 2000000) :
    val_main_v121 (F := Ideal) x0 x1 x2 x3 x4 x7 (ix1 e) = ∑ p : Fin 5, ∑ q : Fin 5, weight (cn x0 x1 x2 x3 x4 (atomOf (x2 (ix1 e)))) (cn x0 x1 x2 x3 x4 (atomOf (x3 (ix1 e)))) (x7 (ix2 (elemAt x1 (atomOf (x2 (ix1 e)))) p)) (x7 (ix2 (elemAt x1 (atomOf (x3 (ix1 e)))) q)) := by
  delta val_main_v121
  refine (hostReduceAdd_flat2 (E := 2000000) (P := 5) (Q := 5) reducesTo_S2000000x5x5_S2000000_d1_2 h_S_ _ _ e).trans ?_
  rw [val_main_cst_32_apply, Ideal.ofBits_def, Ideal.ofBits_zero_f32, zero_add]
  exact Finset.sum_congr rfl fun p _ => Finset.sum_congr rfl fun q _ => v120_at x0 x1 x2 x3 x4 x7 e p q

/-- The pair of index words the table entry is read at. -/
theorem v134_at0 (e : Fin 2000000) :
    val_main_v134 (F := Ideal) x1 x2 x3 (ix2 e 0) = wrapIdx 95#32 (x1 (ix1 (atomOf (x2 (ix1 e))))) := by
  delta val_main_v134
  refine (concatenate_cols_apply _ _ _ e 0).trans ?_
  exact (if_pos rfl).trans (v132_at x1 x2 e)

theorem v134_at1 (e : Fin 2000000) :
    val_main_v134 (F := Ideal) x1 x2 x3 (ix2 e 1) = wrapIdx 95#32 (x1 (ix1 (atomOf (x3 (ix1 e))))) := by
  delta val_main_v134
  refine (concatenate_cols_apply _ _ _ e 1).trans ?_
  exact (if_neg (by decide)).trans (v133_at x1 x3 e)

/-- The table entry of the slots (p, q) at the two endpoints' rows. -/
theorem v135_at (e : Fin 2000000) (p q : Fin 5) :
    val_main_v135 (F := Ideal) x1 x2 x3 x6 (ix3 e p q) = x6 (ix4 (elemAt x1 (atomOf (x2 (ix1 e)))) (elemAt x1 (atomOf (x3 (ix1 e)))) p q) := by
  delta val_main_v135
  refine (gather_tile_lead_apply (by decide) (by decide) _ rfl rfl rfl rfl rfl rfl rfl x6 _ e p q).trans ?_
  rw [v134_at0, v134_at1] <;> rfl

/-- The sum of the 25 weighted table entries. -/
theorem v137_at (e : Fin 2000000) :
    val_main_v137 (F := Ideal) x0 x1 x2 x3 x4 x6 x7 (ix1 e)
      = ∑ p : Fin 5, ∑ q : Fin 5, weight (cn x0 x1 x2 x3 x4 (atomOf (x2 (ix1 e)))) (cn x0 x1 x2 x3 x4 (atomOf (x3 (ix1 e)))) (x7 (ix2 (elemAt x1 (atomOf (x2 (ix1 e)))) p)) (x7 (ix2 (elemAt x1 (atomOf (x3 (ix1 e)))) q)) * x6 (ix4 (elemAt x1 (atomOf (x2 (ix1 e)))) (elemAt x1 (atomOf (x3 (ix1 e)))) p q) := by
  delta val_main_v137
  refine (hostReduceAdd_flat2 (E := 2000000) (P := 5) (Q := 5) reducesTo_S2000000x5x5_S2000000_d1_2 h_S_ _ _ e).trans ?_
  rw [val_main_cst_37_apply, Ideal.ofBits_def, Ideal.ofBits_zero_f32, zero_add]
  refine Finset.sum_congr rfl fun p _ => Finset.sum_congr rfl fun q _ => ?_
  rw [val_main_v136_apply, v120_at, v135_at] <;> rfl

/-- The interpolated coefficient is the specification's. -/
theorem v140_at (e : Fin 2000000) :
    val_main_v140 (F := Ideal) x0 x1 x2 x3 x4 x6 x7 (ix1 e)
      = c6interp (fun p q => weight (cn x0 x1 x2 x3 x4 (atomOf (x2 (ix1 e)))) (cn x0 x1 x2 x3 x4 (atomOf (x3 (ix1 e)))) (x7 (ix2 (elemAt x1 (atomOf (x2 (ix1 e)))) p)) (x7 (ix2 (elemAt x1 (atomOf (x3 (ix1 e)))) q))) (fun p q => x6 (ix4 (elemAt x1 (atomOf (x2 (ix1 e)))) (elemAt x1 (atomOf (x3 (ix1 e)))) p q)) := by
  rw [val_main_v140_apply, v137_at, val_main_v139_apply, v121_at, val_main_v138_apply, val_main_cst_38_apply,
    Ideal.hostDivf_def, Ideal.addf_def, Ideal.ofBits_def] <;> rfl

/-! ## The damped energy -/

/-- Three times the product of the two endpoints' r4r2 entries. -/
theorem v157_at (e : Fin 2000000) :
    val_main_v157 (F := Ideal) x1 x2 x3 x5 (ix1 e)
      = lit 0x40400000#32 * x5 (ix1 (elemAt x1 (atomOf (x2 (ix1 e))))) * x5 (ix1 (elemAt x1 (atomOf (x3 (ix1 e))))) := by
  rw [val_main_v157_apply, val_main_v149_apply, val_main_v148_apply, val_main_cst_41_apply, v147_at, v156_at] <;> rfl

/-- The energy of pair e is the specification's. -/
theorem v184_at (e : Fin 2000000) :
    val_main_v184 (F := Ideal) x0 x1 x2 x3 x4 x5 x6 x7 (ix1 e) = pairEnergy x0 x1 x2 x3 x4 x5 x6 x7 e := by
  rw [val_main_v184_apply, val_main_v183_apply, val_main_v182_apply, val_main_cst_48_apply, val_main_v181_apply,
    val_main_v180_apply, val_main_v179_apply, val_main_v178_apply, val_main_v177_apply, val_main_v176_apply,
    val_main_cst_47_apply, val_main_v175_apply, val_main_v174_apply, val_main_v173_apply, val_main_v172_apply,
    val_main_cst_46_apply, val_main_v171_apply, val_main_v170_apply, val_main_v169_apply, val_main_v168_apply,
    val_main_v167_apply, val_main_v166_apply, val_main_v165_apply, val_main_v164_apply, val_main_v163_apply,
    val_main_v162_apply, val_main_cst_45_apply, val_main_v161_apply, val_main_v160_apply, val_main_cst_44_apply,
    val_main_v159_apply, val_main_v158_apply, v157_at, v140_at, v33_at, val_main_call2_v1_apply,
    val_main_call2_v0_apply, val_main_cst_49_apply]
  simp only [Ideal.cmpf_def, Ideal.hostDivf_def, Ideal.addf_def, Ideal.mulf_def, Ideal.hostNegf_def, Ideal.negf_def,
    Ideal.hostUnary_sqrt_def, Ideal.ofBits_def]
  rfl

end Cert.ReferenceIdeal.RefValue

end
-- ==== Proof.RefTotal.lean ====
/-
  The reference's last operations.  From the array of pair energies the reference adds each pair's energy into the
  entry of the atom its first index word names (a word outside the atoms lands nowhere), starting from zeros; it halves
  every entry; and it adds up the 50000 entries, starting from zero.  Dropping the two zeros, that is the total as
  arranged per atom: the sum over the atoms of half the energies of the pairs that start there.
-/
import proofs.«136451_j74294344286992_1_alg».proof.Proof.Gen.ReferenceIdeal.Read
import proofs.«136451_j74294344286992_1_alg».proof.Proof.Spec
import proofs.«136451_j74294344286992_1_alg».proof.Proof.Algebra
import proofs.«136451_j74294344286992_1_alg».proof.Proof.LibIndexOps
import proofs.«136451_j74294344286992_1_alg».proof.Proof.LibReduce2
import proofs.«136451_j74294344286992_1_alg».proof.Proof.LibScatterBridge

noncomputable section

namespace Cert.ReferenceIdeal.RefValue

open Idealize.ShloMosaic Idealize.ShloMosaic.ValueIdx
open Cert.ReferenceIdeal Cert.ReferenceIdeal.Read Cert.Disp Cert.IndexOps

/-- The reduction's initial value is zero. -/
theorem cst52_zero (i : S_.Idx) : val_main_cst_52 (F := Ideal) i = 0 :=
  (val_main_cst_52_apply i).trans lit_zero

/-- The scatter's operand is zero at every atom. -/
theorem v185_zero (k : Fin 50000) : val_main_v185 (F := Ideal) (ix1 k) = 0 :=
  ((val_main_v185_apply (ix1 k)).trans (val_main_cst_50_apply _)).trans lit_zero

/-- The halving factor at every atom is the word of one half. -/
theorem v188_half (k : Fin 50000) : val_main_v188 (F := Ideal) (ix1 k) = lit 0x3F000000#32 :=
  (val_main_v188_apply (ix1 k)).trans (val_main_cst_51_apply _)

/-- The scatter's index array at row `e` is pair `e`'s first index word. -/
theorem v186_at (x2 : (⟨S2000000, .i32⟩ : BufTy).Contents (Elt Ideal)) (e : Fin 2000000) :
    val_main_v186 (F := Ideal) x2 (ix2 e 0) = x2 (ix1 e) :=
  (val_main_v186_apply x2 (ix2 e 0)).trans (congrArg x2 (funext fun a => match a with | ⟨0, _⟩ => rfl))

/-- THE REFERENCE'S RESULT, given its array of pair energies: the total arranged per atom. -/
theorem result_eq_of (x0 : (⟨S50000x3, .f32⟩ : BufTy).Contents (Elt Ideal)) (x1 : (⟨S50000, .i32⟩ : BufTy).Contents (Elt Ideal))
    (x2 x3 : (⟨S2000000, .i32⟩ : BufTy).Contents (Elt Ideal)) (x4 x5 : (⟨S95, .f32⟩ : BufTy).Contents (Elt Ideal))
    (x6 : (⟨S95x95x5x5, .f32⟩ : BufTy).Contents (Elt Ideal)) (x7 : (⟨S95x5, .f32⟩ : BufTy).Contents (Elt Ideal))
    (h184 : ∀ e : Fin 2000000, Cert.ReferenceIdeal.Read.val_main_v184 (F := Ideal) x0 x1 x2 x3 x4 x5 x6 x7 (ix1 e)
      = Cert.Disp.pairEnergy x0 x1 x2 x3 x4 x5 x6 x7 e) :
    Cert.ReferenceIdeal.Read.val_main_v190 (F := Ideal) x0 x1 x2 x3 x4 x5 x6 x7
      = fun _ => Cert.Disp.totalByAtom x0 x1 x2 x3 x4 x5 x6 x7 := by
  funext i
  refine (val_main_v190_apply x0 x1 x2 x3 x4 x5 x6 x7 i).trans ?_
  rw [cst52_zero, zero_add, sum_idx1]
  unfold totalByAtom
  refine Finset.sum_congr rfl fun k _ => ?_
  refine (val_main_v189_apply x0 x1 x2 x3 x4 x5 x6 x7 (ix1 k)).trans ?_
  rw [Ideal.mulf_def, v188_half]
  refine congrArg (fun y : EReal => lit 0x3F000000#32 * y) ?_
  refine (hostScatterAdd_flat (N := 50000) (E := 2000000) scatter_S50000_S2000000x1_S2000000_n_0_0_1 rfl rfl rfl rfl
    (val_main_v185 (F := Ideal)) (val_main_v186 (F := Ideal) x2) (val_main_v184 (F := Ideal) x0 x1 x2 x3 x4 x5 x6 x7) k).trans ?_
  rw [v185_zero, zero_add]
  have hset : Finset.univ.filter (fun e : Fin 2000000 => (val_main_v186 (F := Ideal) x2 (ix2 e 0)).toInt = (k.val : Int))
      = Finset.univ.filter (fun e : Fin 2000000 => (x2 (ix1 e)).toInt = (k.val : Int)) :=
    Finset.filter_congr fun e _ => by rw [v186_at]
  rw [hset]
  exact Finset.sum_congr rfl fun e _ => h184 e

end Cert.ReferenceIdeal.RefValue

end
-- ==== Proof.RefValue.lean ====
/-
  The reference's result is the specification's per-atom total: its last six operations scatter the pair
  energies onto the atoms they start at, halve per atom and add the atoms, and each pair energy is the
  specification's.
-/
import proofs.«136451_j74294344286992_1_alg».proof.Proof.RefEnergy
import proofs.«136451_j74294344286992_1_alg».proof.Proof.RefTotal

noncomputable section

namespace Cert.ReferenceIdeal.RefValue

open Idealize.ShloMosaic Cert.ReferenceIdeal

/-- The reference's result, as a function of the argument arrays, is the per-atom total. -/
theorem result_eq (x0 : (⟨S50000x3, .f32⟩ : BufTy).Contents (Elt Ideal)) (x1 : (⟨S50000, .i32⟩ : BufTy).Contents (Elt Ideal))
    (x2 x3 : (⟨S2000000, .i32⟩ : BufTy).Contents (Elt Ideal)) (x4 x5 : (⟨S95, .f32⟩ : BufTy).Contents (Elt Ideal))
    (x6 : (⟨S95x95x5x5, .f32⟩ : BufTy).Contents (Elt Ideal)) (x7 : (⟨S95x5, .f32⟩ : BufTy).Contents (Elt Ideal)) :
    Cert.ReferenceIdeal.Read.val_main_v190 (F := Ideal) x0 x1 x2 x3 x4 x5 x6 x7
      = fun _ => Cert.Disp.totalByAtom x0 x1 x2 x3 x4 x5 x6 x7 :=
  result_eq_of x0 x1 x2 x3 x4 x5 x6 x7 (fun e => v184_at x0 x1 x2 x3 x4 x5 x6 x7 e)

end Cert.ReferenceIdeal.RefValue

end
-- ==== Proof.PreRange.lean ====
/-
  The precondition read at one pair.  It is a conjunction whose last conjunct says that every first index
  word, as a signed integer, is at least 0 and below 50000: so every pair starts at one of the 50000 atoms.
-/
import proofs.«136451_j74294344286992_1_alg».proof.Pre_finite_inputs
import Idealize.ShloMosaic.PureOps.Ideal
import Idealize.ShloMosaic.Lib.ValueIdx
import Idealize.ShloMosaic.Lib.ReduceAll

set_option maxRecDepth 16384

noncomputable section

namespace Cert.Disp.PreRange

open Idealize.ShloMosaic Idealize.ShloMosaic.ValueIdx Cert.Pre_finite_inputs

instance : Subsingleton S_.Idx := ⟨fun a b => funext fun d => d.elim0⟩

theorem ofBool_eq_one (b : Bool) : BitVec.ofBool b = 1#1 ↔ b = true := by cases b <;> decide
theorem and1 : ∀ (a b : BitVec 1), IntOp.andi a b = 1#1 ↔ a = 1#1 ∧ b = 1#1 := by decide

/-- A word that is at least 0 and below 50000 as signed comparisons say has its signed value in that range. -/
theorem toInt_range (w : BitVec 32) (h0 : IntOp.cmpi .sge w (0#32) = 1#1) (h1 : IntOp.cmpi .slt w (50000#32) = 1#1) :
    0 ≤ w.toInt ∧ w.toInt < 50000 := by
  unfold IntOp.cmpi at h0 h1
  rw [ofBool_eq_one] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  exact ⟨h0, h1⟩

variable [Cert.Pre_finite_inputs.Facts]

/-- THE PRECONDITION DECODED at pair `e`: its first index word names an atom. -/
theorem pair_start_in_range (a0 : FVec Ideal S50000x3 .f32) (a1 : IVec S50000 32) (a2 a3 : IVec S2000000 32)
    (a4 a5 : FVec Ideal S95 .f32) (a6 : FVec Ideal S95x95x5x5 .f32) (a7 : FVec Ideal S95x5 .f32)
    (h : Cert.Pre_finite_inputs.fn (F := Ideal) a0 a1 a2 a3 a4 a5 a6 a7 = fun _ => 1#1) (e : Fin 2000000) :
    0 ≤ (a2 (ix1 e)).toInt ∧ (a2 (ix1 e)).toInt < 50000 := by
  have h0 := congrFun h ix0
  dsimp only [Cert.Pre_finite_inputs.fn, Cert.Pre_finite_inputs.fn_part1] at h0
  simp only [andi] at h0
  obtain ⟨-, h29⟩ := (and1 _ _).1 h0
  have h28 := Host.reduce_andi_all _ _ _ _ ix0 h29 (ix1 e)
  simp only [andi, cmpi, broadcastInDim, constantI] at h28
  obtain ⟨hge, hlt⟩ := (and1 _ _).1 h28
  exact toInt_range _ hge hlt

end Cert.Disp.PreRange

end
-- ==== Proof.Claims.lean ====
/-
  The five claims.  The three frames are the generated ones (the reference's is its generated run with the
  result dropped), and the idealization rewrote nothing.  For the value claim both runs end at the
  specification's total of the argument arrays: the kernel's at half the sum over its 62 tiles of 32768 masked
  lanes, which is half the sum over the 2000000 pairs because padded lanes carry mask zero; the reference's at
  the sum over the atoms of half the energies of the pairs that start there, which is the same total because
  the precondition puts every pair's first index word in [0, 50000) and a finite non-negative factor
  distributes over every sum of extended reals.
-/
import proofs.«136451_j74294344286992_1_alg».proof.Defs
import proofs.«136451_j74294344286992_1_alg».proof.Proof.Gen.Kernel.Frame
import proofs.«136451_j74294344286992_1_alg».proof.Proof.Gen.KernelIdeal.Frame
import proofs.«136451_j74294344286992_1_alg».proof.Proof.Gen.ReferenceIdeal.Run
import proofs.«136451_j74294344286992_1_alg».proof.Proof.Gen.ReferenceIdeal.Read
import proofs.«136451_j74294344286992_1_alg».proof.Proof.Gen.Pre_finite_inputs
import proofs.«136451_j74294344286992_1_alg».proof.Proof.KRun
import proofs.«136451_j74294344286992_1_alg».proof.Proof.KFinal
import proofs.«136451_j74294344286992_1_alg».proof.Proof.RefValue
import proofs.«136451_j74294344286992_1_alg».proof.Proof.PreRange
import proofs.«136451_j74294344286992_1_alg».proof.Proof.Padded
import proofs.«136451_j74294344286992_1_alg».proof.Proof.Algebra

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the total of the argument arrays. -/
theorem algebraic : Cert.algebraic_KernelIdeal_ReferenceIdeal := by
  intro m ρ m' ρ' hpre hagree
  refine ⟨fun c => fun _ => Cert.Disp.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Val.run_result (F := Ideal) m ρ)
    rw [Cert.KernelIdeal.Val.kernel_value m ρ c]
    exact funext fun _ => Cert.Disp.totalPad_eq_total _ _ _ _ _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v190_eq, Cert.ReferenceIdeal.RefValue.result_eq]
    obtain ⟨e0, e1, e2, e3, e4, e5, e6, e7⟩ := hagree c
    rw [e0, e1, e2, e3, e4, e5, e6, e7]
    exact funext fun _ => Cert.Disp.totalByAtom_eq_total _ _ _ _ _ _ _ _
      (Cert.Disp.PreRange.pair_start_in_range _ _ _ _ _ _ _ _ (hpre c))

end Cert.Proof.Claims

end
-- ==== Proof.lean ====
/-
  A pairwise dispersion energy: a kernel that streams 2000000 directed atom pairs (padded to 62 tiles of 32768
  lanes) through two vector passes — the counting function, then the interpolated C6 coefficient and the damped
  pair energy summed into one scalar — against a reference that computes the same pair energies, scatters them
  onto the atoms they start at, halves per atom and adds the atoms.
  At the exact instance the two results are one number, half the sum of the pair energies, provided every
  pair's first index word names one of the 50000 atoms (a word outside that range is a pair the reference's
  scatter drops and the kernel keeps): that range is the precondition's last conjunct.
  The modules: Spec (the formulas, once), Algebra and Padded (the two arrangements of the total are the
  specification's), PreRange (the precondition read at a pair), LibClamp / LibIndexOps / LibScatterBridge /
  LibReduce2 (gathers, the accumulating scatter, concatenations and double sums read at an index), RefIndex /
  RefCount / RefEnergy / RefTotal / RefValue (the reference's stages at an index, up to its result, the per-atom
  total), KRun and KTail (the kernel's run with its result named, and the last
  host operations), KRegion0 (the counting-function pass, array by array), KRegion1 / KRegion1Defs / KRegion1Blk /
  KRegion1Arr (the energy pass: a lane, a tile, the accumulation over the tiles, the blocks as array entries, the
  final array), KHost0 / KHost1 (the host operations between the passes read at an index), KValue and KFinal (the
  kernel's result is the padded total), Claims (the five claims).
-/
import proofs.«136451_j74294344286992_1_alg».proof.Defs
import proofs.«136451_j74294344286992_1_alg».proof.Proof.Gen.Kernel
import proofs.«136451_j74294344286992_1_alg».proof.Proof.Gen.KernelIdeal
import proofs.«136451_j74294344286992_1_alg».proof.Proof.Gen.ReferenceIdeal
import proofs.«136451_j74294344286992_1_alg».proof.Proof.Gen.ReferenceIdeal.Run
import proofs.«136451_j74294344286992_1_alg».proof.Proof.Gen.ReferenceIdeal.Read
import proofs.«136451_j74294344286992_1_alg».proof.Proof.Gen.Pre_finite_inputs
import proofs.«136451_j74294344286992_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
